-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S512x128 : Shape := ⟨2, ![512, 128]⟩
abbrev S1024x128 : Shape := ⟨2, ![1024, 128]⟩
abbrev S512x1 : Shape := ⟨2, ![512, 1]⟩
abbrev S1x1024 : Shape := ⟨2, ![1, 1024]⟩
abbrev S512 : Shape := ⟨1, ![512]⟩
abbrev S1024 : Shape := ⟨1, ![1024]⟩
abbrev S1024x1 : Shape := ⟨2, ![1024, 1]⟩
abbrev S128x1024 : Shape := ⟨2, ![128, 1024]⟩
abbrev S512x1024 : Shape := ⟨2, ![512, 1024]⟩
abbrev S_ : Shape := ⟨0, ![]⟩

abbrev nBuf : Space → Nat
  | .hbm => 12
  | .vmem => 35
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x128, .f32⟩
  | .local _ .vmem, ⟨18, _⟩ => ⟨S512x128, .f32⟩
  | .local _ .vmem, ⟨19, _⟩ => ⟨S1024x128, .f32⟩
  | .local _ .vmem, ⟨20, _⟩ => ⟨S1024x128, .f32⟩
  | .local _ .vmem, ⟨21, _⟩ => ⟨S512x1, .i32⟩
  | .local _ .vmem, ⟨22, _⟩ => ⟨S512x1, .i32⟩
  | .local _ .vmem, ⟨23, _⟩ => ⟨S1x1024, .i32⟩
  | .local _ .vmem, ⟨24, _⟩ => ⟨S1x1024, .i32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc1_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v76 : BitVec 1 := Scalar.cmpi .eq arg1 c7_i32
  let v77 : BitVec 32 := Scalar.extui v76
  let c0_i32_34 : BitVec 32 := 0#32
  let v78 : BitVec 1 := Scalar.cmpi .ne v77 c0_i32_34
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v80 : BitVec 1 := Scalar.cmpi .eq arg1 c7_i32
  let v81 : BitVec 32 := Scalar.extui v80
  let c0_i32_34 : BitVec 32 := 0#32
  let v82 : BitVec 1 := Scalar.cmpi .ne v81 c0_i32_34
  v82

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  transposes_S1024x128_p1_0_S128x1024 : S1024x128.Transposes [1, 0] S128x1024
  iota_S512x1024_d0_w32 : S512x1024.Iotas .tc 32 [0]
  iota_S512x1024_d1_w32 : S512x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  natLt_1_32 : 1 < 32
  reducesTo_S8192x1_S_d0_1 : S8192x1.ReducesTo [0, 1] S_
  h_S_ : 0 < S_.numel
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .f32 = 32 ∨ (Rect.block (s := S8192x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S8192x1.size a
  hwx1_7 : ∀ i : grid1.Coords, EltTy.bits .f32 = 32 ∨ (Rect.block (s := S8192x1) S512x1.size (cc1_transform_7 i) (hinb1_7 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2_2) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S_, .i1⟩
  | .hbm, ⟨39, _⟩ => ⟨S8192, .i1⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .i1⟩
  | .hbm, ⟨46, _⟩ => ⟨S8192x8192, .i1⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1, .f32⟩
  | .hbm, ⟨63, _⟩ => ⟨S8192x8192, .f32⟩
  | .hbm, ⟨64, _⟩ => ⟨S8192x8192, .i1⟩
  | .hbm, ⟨65, _⟩ => ⟨S8192x8192, .i1⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call1_v0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_call2_v0 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_call3_v0 : Ref sig .tc := ⟨.hbm, 51, rfl⟩
abbrev main_call3_v1 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_call4_v0 : Ref sig .tc := ⟨.hbm, 67, rfl⟩
abbrev main_call4_v1 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_cst_13 : Ref sig .tc := ⟨.hbm, 73, rfl⟩
abbrev main_call5_v0 : Ref sig .tc := ⟨.hbm, 74, rfl⟩
abbrev main_call5_v1 : Ref sig .tc := ⟨.hbm, 75, rfl⟩
abbrev main_v46 : Ref sig .tc := ⟨.hbm, 76, rfl⟩
abbrev main_cst_14 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBShared.lean ====
/-
  What the two kernels' runs share: when each of the two conditionals of a kernel body is taken, in closed form
  over the grid (the reset at the first of a row block's eight points, the write-out at the last); where the output
  windows are idle; the staging and scratch memrefs by name; and the region invariant split into the kernel's scratch
  buffers and everything else it leaves alone.
-/
import proofs.«172070_j13786845020972_1_alg».proof.Proof.Gen.Kernel.Launch
import proofs.«172070_j13786845020972_1_alg».proof.Proof.Gen.Kernel.Skeleton
import proofs.«172070_j13786845020972_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first kernel -/

/-- The reset branch of the first kernel is taken: the column coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The write-out branch of the first kernel is taken: the column coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point of a row block output 4 is idle and not written back; at it, it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
/-- Away from the last point of a row block output 5 is idle and not written back; at it, it is live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
/-- Away from the last point of a row block output 6 is idle and not written back; at it, it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The first kernel's three scratch columns. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- A view of each 512 x 1 column buffer, through which contents are stated. -/
abbrev VC0 : View sig .tc .vmem S512x1 .f32 := scM0_0.view

/-- Everything of the region invariant but the three scratch columns, as what gives the invariant back once the
    columns are returned at any contents. -/
def Back0 (c : Dev nD) : sProp 𝕄 :=
  iprop(((∃ d, owns (c : Thread nD τ) scM0_0 fullShare d) ∗ (∃ d, owns (c : Thread nD τ) scM0_1 fullShare d) ∗ (∃ d, owns (c : Thread nD τ) scM0_2 fullShare d)) -∗ Pipeline.ΦA spec0 c)

/-- The region invariant hands out the three scratch columns at some contents, and takes them back at any. -/
theorem PhiA0_split (c : Dev nD) :
    (Pipeline.ΦA spec0 c : sProp 𝕄)
      ⊢ iprop((∃ d, owns (c : Thread nD τ) scM0_0 fullShare d) ∗ (∃ d, owns (c : Thread nD τ) scM0_1 fullShare d) ∗ (∃ d, owns (c : Thread nD τ) scM0_2 fullShare d) ∗ Back0 c) := by
  unfold Back0 Pipeline.ΦA; rw [scopedRest0_eq]; simp only [scM0_0, scM0_1, scM0_2, owns_whole]
  iintro ⟨⟨H0, H1, H2, Hr⟩, Hg⟩
  isplitl [H0]; · iexact H0
  isplitl [H1]; · iexact H1
  isplitl [H2]; · iexact H2
  iintro ⟨H0, H1, H2⟩
  isplitr [Hg]
  · isplitl [H0]; · iexact H0
    isplitl [H1]; · iexact H1
    isplitl [H2]; · iexact H2
    iexact Hr
  iexact Hg

/-! ## The second kernel -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7_C : ∀ t : Fin cfg1.N, cond1_1 (grid1.coords t) → cfg1.idle 7 (grid1.coords t) = false := by decide +kernel

abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)
/-- The second kernel's two scratch columns. -/
abbrev scM1_0 : Memref sig .tc .vmem S512x1 .f32 := Memref.whole cc1_scratch0
abbrev scM1_1 : Memref sig .tc .vmem S512x1 .f32 := Memref.whole cc1_scratch1

def Back1 (c : Dev nD) : sProp 𝕄 :=
  iprop(((∃ d, owns (c : Thread nD τ) scM1_0 fullShare d) ∗ (∃ d, owns (c : Thread nD τ) scM1_1 fullShare d)) -∗ Pipeline.ΦA spec1 c)

theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ Back1 c) := by
  unfold Back1 Pipeline.ΦA; rw [scopedRest1_eq]; simp only [scM1_0, scM1_1, owns_whole]
  iintro ⟨⟨G0, G1, G2, G3, G4, G5, G6, G7, G8, G9, G10, G11, G12, G13, G14, G15, G16, H0, H1⟩, Hg⟩
  isplitl [H0]; · iexact H0
  isplitl [H1]; · iexact H1
  iintro ⟨H0, H1⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [H0]; · iexact H0
    iexact H1
  iexact Hg

end Cert.Kernel.Hand

end
-- ==== Proof.KBRun0A.lean ====
/-
  Kernel 0's body run symbolically in case A of its two conditionals.
-/
import proofs.«172070_j13786845020972_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Kernel 0's body in case A (first point of a row block: the running columns are reset, then updated): on whole staging memrefs, the inputs at their contents, the outputs untouched, it runs to the
    continuation with each stored buffer holding the pieces the run finds (last first). -/
noncomputable def kernelRun0_A (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S1024x128 .f32) (x2 : Vec F S512x1 .i32) (x3 : Vec F S1x1024 .i32)  :
    Σ' (LS0 : List (View.Piece (Elt F) S512x1 .f32)) (LS1 : List (View.Piece (Elt F) S512x1 .f32)), { LS2 : List (View.Piece (Elt F) S512x1 .f32) //
      ∀ (xi0 xi1 xi2 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi0
            ∗ owns (c : Thread nD τ) arg7 fullShare xi1
            ∗ owns (c : Thread nD τ) arg8 fullShare xi2
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi0
                ∗ owns (c : Thread nD τ) arg7 fullShare xi1
                ∗ owns (c : Thread nD τ) arg8 fullShare xi2
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun xi0 xi1 xi2 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%g0, %hg0, HO0⟩, ⟨%g1, %hg1, HO1⟩, ⟨%g2, %hg2, HO2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hg0; obtain rfl := harg7.eq_unread hg1; obtain rfl := harg8.eq_unread hg2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO0]
    · iexists _; isplitr; · ipureintro; exact harg6.read_unread _
      iexact HO0
    isplitl [HO1]
    · iexists _; isplitr; · ipureintro; exact harg7.read_unread _
      iexact HO1
    isplitl [HO2]
    · iexists _; isplitr; · ipureintro; exact harg8.read_unread _
      iexact HO2
    isplitl [HS0]
    · iexists _; iexact HS0
    isplitl [HS1]
    · iexists _; iexact HS1
    iexists _; iexact HS2

end Cert.Kernel.Hand

end
-- ==== Proof.KBRun0B.lean ====
/-
  Kernel 0's body run symbolically in case B of its two conditionals.
-/
import proofs.«172070_j13786845020972_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Kernel 0's body in case B (a middle point: the running columns are updated): on whole staging memrefs, the inputs at their contents, the outputs untouched, it runs to the
    continuation with each stored buffer holding the pieces the run finds (last first). -/
noncomputable def kernelRun0_B (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) :
    Σ' (LS0 : List (View.Piece (Elt F) S512x1 .f32)) (LS1 : List (View.Piece (Elt F) S512x1 .f32)), { LS2 : List (View.Piece (Elt F) S512x1 .f32) //
      ∀ (xi0 xi1 xi2 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi0
            ∗ owns (c : Thread nD τ) arg7 fullShare xi1
            ∗ owns (c : Thread nD τ) arg8 fullShare xi2
            ∗ owns (c : Thread nD τ) arg9 fullShare xs0
            ∗ owns (c : Thread nD τ) arg10 fullShare xs1
            ∗ owns (c : Thread nD τ) arg11 fullShare xs2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi0
                ∗ owns (c : Thread nD τ) arg7 fullShare xi1
                ∗ owns (c : Thread nD τ) arg8 fullShare xi2
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun xi0 xi1 xi2 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%g0, %hg0, HO0⟩, ⟨%g1, %hg1, HO1⟩, ⟨%g2, %hg2, HO2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hg0; obtain rfl := harg7.eq_unread hg1; obtain rfl := harg8.eq_unread hg2; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO0]
    · iexists _; isplitr; · ipureintro; exact harg6.read_unread _
      iexact HO0
    isplitl [HO1]
    · iexists _; isplitr; · ipureintro; exact harg7.read_unread _
      iexact HO1
    isplitl [HO2]
    · iexists _; isplitr; · ipureintro; exact harg8.read_unread _
      iexact HO2
    isplitl [HS0]
    · iexists _; iexact HS0
    isplitl [HS1]
    · iexists _; iexact HS1
    iexists _; iexact HS2

end Cert.Kernel.Hand

end
-- ==== Proof.KBRun0C.lean ====
/-
  Kernel 0's body run symbolically in case C of its two conditionals.
-/
import proofs.«172070_j13786845020972_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Kernel 0's body in case C (last point of a row block: the running columns are updated and written out): on whole staging memrefs, the inputs at their contents, it runs to the
    continuation with each stored buffer holding the pieces the run finds (last first). -/
noncomputable def kernelRun0_C (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) :
    Σ' (LO0 : List (View.Piece (Elt F) S512x1 .f32)) (LO1 : List (View.Piece (Elt F) S512x1 .f32)) (LO2 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f LO0)
                ∗ (∃ f, arg7.view.loc (c : Thread nD τ) ↦[arg7.view.set]{fullShare} arg7.view.writes (Elt F) f LO1)
                ∗ (∃ f, arg8.view.loc (c : Thread nD τ) ↦[arg8.view.set]{fullShare} arg8.view.writes (Elt F) f LO2)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%do0, %g0, -, HO0⟩, ⟨%do1, %g1, -, HO1⟩, ⟨%do2, %g2, -, HO2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO0]
    · iexists _; iexact HO0
    isplitl [HO1]
    · iexists _; iexact HO1
    isplitl [HO2]
    · iexists _; iexact HO2
    isplitl [HS0]
    · iexists _; iexact HS0
    isplitl [HS1]
    · iexists _; iexact HS1
    iexists _; iexact HS2

end Cert.Kernel.Hand

end
-- ==== Proof.KBRun1A.lean ====
/-
  Kernel 1's body run symbolically in case A of its two conditionals.
-/
import proofs.«172070_j13786845020972_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Kernel 1's body in case A (first point of a row block: the running columns are reset, then updated): on whole staging memrefs, the inputs at their contents, the outputs untouched, it runs to the
    continuation with each stored buffer holding the pieces the run finds (last first). -/
noncomputable def kernelRun1_A (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond1_0 i) (hc1 : ¬cond1_1 i)
    (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32)  :
    Σ' (LS0 : List (View.Piece (Elt F) S512x1 .f32)), { LS1 : List (View.Piece (Elt F) S512x1 .f32) //
      ∀ (xi0 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi0
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi0
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11) K } := by
  refine ⟨?_, ?_, fun xi0 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, HO0⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hg0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO0]
    · iexists _; isplitr; · ipureintro; exact harg9.read_unread _
      iexact HO0
    isplitl [HS0]
    · iexists _; iexact HS0
    iexists _; iexact HS1

end Cert.Kernel.Hand

end
-- ==== Proof.KBRun1B.lean ====
/-
  Kernel 1's body run symbolically in case B of its two conditionals.
-/
import proofs.«172070_j13786845020972_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Kernel 1's body in case B (a middle point: the running columns are updated): on whole staging memrefs, the inputs at their contents, the outputs untouched, it runs to the
    continuation with each stored buffer holding the pieces the run finds (last first). -/
noncomputable def kernelRun1_B (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : ¬cond1_1 i)
    (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32) :
    Σ' (LS0 : List (View.Piece (Elt F) S512x1 .f32)), { LS1 : List (View.Piece (Elt F) S512x1 .f32) //
      ∀ (xi0 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi0
            ∗ owns (c : Thread nD τ) arg10 fullShare xs0
            ∗ owns (c : Thread nD τ) arg11 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi0
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11) K } := by
  refine ⟨?_, ?_, fun xi0 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, HO0⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hg0; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO0]
    · iexists _; isplitr; · ipureintro; exact harg9.read_unread _
      iexact HO0
    isplitl [HS0]
    · iexists _; iexact HS0
    iexists _; iexact HS1

end Cert.Kernel.Hand

end
-- ==== Proof.KBRun1C.lean ====
/-
  Kernel 1's body run symbolically in case C of its two conditionals.
-/
import proofs.«172070_j13786845020972_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Kernel 1's body in case C (last point of a row block: the running columns are updated and written out): on whole staging memrefs, the inputs at their contents, it runs to the
    continuation with each stored buffer holding the pieces the run finds (last first). -/
noncomputable def kernelRun1_C (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i)
    (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32) :
    Σ' (LO0 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ owns (c : Thread nD τ) arg10 fullShare xs0
            ∗ owns (c : Thread nD τ) arg11 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f LO0)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do0, %g0, -, HO0⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO0]
    · iexists _; iexact HO0
    isplitl [HS0]
    · iexists _; iexact HS0
    iexists _; iexact HS1

end Cert.Kernel.Hand

end
-- ==== Proof.KBPieces.lean ====
/-
  What each case's run leaves in the buffers it stores, read back as the kernels' payload functions of the blocks the
  point was handed: every store covers its 512 x 1 column whole, so a column reads back as the last payload stored,
  a load after a store reads the stored payload, and a load of an untouched buffer reads its contents.
-/
import proofs.«172070_j13786845020972_1_alg».proof.Proof.KBRun0A
import proofs.«172070_j13786845020972_1_alg».proof.Proof.KBRun0B
import proofs.«172070_j13786845020972_1_alg».proof.Proof.KBRun0C
import proofs.«172070_j13786845020972_1_alg».proof.Proof.KBRun1A
import proofs.«172070_j13786845020972_1_alg».proof.Proof.KBRun1B
import proofs.«172070_j13786845020972_1_alg».proof.Proof.KBRun1C
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The running columns of the first kernel. -/
abbrev Acc0 (F : FTy → Type) [FloatOps F] : Type := FVec F S512x1 .f32 × FVec F S512x1 .f32 × FVec F S512x1 .f32
/-- The running columns of the second kernel. -/
abbrev Acc1 (F : FTy → Type) [FloatOps F] : Type := FVec F S512x1 .f32 × FVec F S512x1 .f32

/-- What the first kernel's columns are reset to. -/
def initB0 : Acc0 F := (k0_pay1, k0_pay2, k0_pay3)
/-- One point of the first kernel on the blocks it is handed: the three running columns after it, from those before. -/
def stepB0 (i : grid0.Coords) (x0 : Vec F S512x128 .f32) (x1 : Vec F S1024x128 .f32) (x2 : Vec F S512x1 .i32) (x3 : Vec F S1x1024 .i32) (a : Acc0 F) : Acc0 F :=
  (k0_pay10 (k0_pay4 x0 x1) (k0_pay6 x2) (k0_pay7 x3) a.1,
   k0_pay11 (k0_pay4 x0 x1) (k0_pay5 i) (k0_pay6 x2) (k0_pay7 x3) a.2.1,
   k0_pay12 (k0_pay5 i) (k0_pay6 x2) (k0_pay7 x3) a.2.2)
/-- What the second kernel's columns are reset to. -/
def initB1 : Acc1 F := (k1_pay3, k1_pay4)
/-- One point of the second kernel on the blocks it is handed. -/
def stepB1 (i : grid1.Coords) (x0 : Vec F S512x128 .f32) (x1 : Vec F S1024x128 .f32) (x2 : Vec F S512x1 .i32) (x3 : Vec F S1x1024 .i32)
    (x4 x5 : Vec F S512x1 .f32) (b : Acc1 F) : Acc1 F :=
  (k1_pay10 (k1_pay5 x0 x1) (k1_pay6 i) (k1_pay7 x2) (k1_pay8 x3) x4 b.1,
   k1_pay1 (k1_pay11 (k1_pay5 x0 x1) (k1_pay7 x2) (k1_pay8 x3) x5 b.2))

theorem hz2 : (![0, 0] : Fin 2 → ℕ) = fun _ => 0 := by funext a; fin_cases a <;> rfl

theorem ld0_S512x128 {Val : EltTy → Type} {e : EltTy} (inb : ∀ a, (![0, 0] : Fin 2 → ℕ) a + (![512, 128] : Fin 2 → ℕ) a ≤ S512x128.size a) (X : S512x128.Idx → Val e) :
    View.ld X (Rect.unit (s := S512x128) ![0, 0] ![512, 128] inb) = X := View.ld_unit_zero (S := S512x128) hz2 inb X
theorem ld0_S1024x128 {Val : EltTy → Type} {e : EltTy} (inb : ∀ a, (![0, 0] : Fin 2 → ℕ) a + (![1024, 128] : Fin 2 → ℕ) a ≤ S1024x128.size a) (X : S1024x128.Idx → Val e) :
    View.ld X (Rect.unit (s := S1024x128) ![0, 0] ![1024, 128] inb) = X := View.ld_unit_zero (S := S1024x128) hz2 inb X
theorem ld0_S512x1 {Val : EltTy → Type} {e : EltTy} (inb : ∀ a, (![0, 0] : Fin 2 → ℕ) a + (![512, 1] : Fin 2 → ℕ) a ≤ S512x1.size a) (X : S512x1.Idx → Val e) :
    View.ld X (Rect.unit (s := S512x1) ![0, 0] ![512, 1] inb) = X := View.ld_unit_zero (S := S512x1) hz2 inb X
theorem ld0_S1x1024 {Val : EltTy → Type} {e : EltTy} (inb : ∀ a, (![0, 0] : Fin 2 → ℕ) a + (![1, 1024] : Fin 2 → ℕ) a ≤ S1x1024.size a) (X : S1x1024.Idx → Val e) :
    View.ld X (Rect.unit (s := S1x1024) ![0, 0] ![1, 1024] inb) = X := View.ld_unit_zero (S := S1x1024) hz2 inb X
theorem rc0_S512x1 {Val : EltTy → Type} [∀ e, Nonempty (Val e)] {sg : RefSig} {κ : Kind} {sp : Space} {e : EltTy} (v : View sg κ sp S512x1 e)
    (inb : ∀ a, (![0, 0] : Fin 2 → ℕ) a + (![512, 1] : Fin 2 → ℕ) a ≤ S512x1.size a) (w : S512x1.Idx → Val e) :
    v.readCov [(⟨Rect.unit (s := S512x1) ![0, 0] ![512, 1] inb, w⟩ : View.Piece Val S512x1 e)] (Rect.unit (s := S512x1) ![0, 0] ![512, 1] inb).toLoadRect = w :=
  View.readCov_unit_zero (S := S512x1) v hz2 inb w

theorem read0_A_S0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x1 .i32) (x3 : Vec F S1x1024 .i32)
    {sp : Space} (v : View sig .tc sp S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 hc0 hc1 x0 x1 x2 x3 ).1) = (stepB0 i x0 x1 x2 x3 initB0).1 := by
  unfold kernelRun0_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_A_S1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x1 .i32) (x3 : Vec F S1x1024 .i32)
    {sp : Space} (v : View sig .tc sp S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 hc0 hc1 x0 x1 x2 x3 ).2.1) = (stepB0 i x0 x1 x2 x3 initB0).2.1 := by
  unfold kernelRun0_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_A_S2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x1 .i32) (x3 : Vec F S1x1024 .i32)
    {sp : Space} (v : View sig .tc sp S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 hc0 hc1 x0 x1 x2 x3 ).2.2.1) = (stepB0 i x0 x1 x2 x3 initB0).2.2 := by
  unfold kernelRun0_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_B_S0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2).1) = (stepB0 i x0 x1 x2 x3 (xs0, xs1, xs2)).1 := by
  unfold kernelRun0_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_B_S1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1) = (stepB0 i x0 x1 x2 x3 (xs0, xs1, xs2)).2.1 := by
  unfold kernelRun0_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_B_S2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1) = (stepB0 i x0 x1 x2 x3 (xs0, xs1, xs2)).2.2 := by
  unfold kernelRun0_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_O0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).1) = (stepB0 i x0 x1 x2 x3 (xs0, xs1, xs2)).1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_O1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1) = (stepB0 i x0 x1 x2 x3 (xs0, xs1, xs2)).2.1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_O2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1) = (stepB0 i x0 x1 x2 x3 (xs0, xs1, xs2)).2.2 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_S0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1) = (stepB0 i x0 x1 x2 x3 (xs0, xs1, xs2)).1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_S1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1) = (stepB0 i x0 x1 x2 x3 (xs0, xs1, xs2)).2.1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_S2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1) = (stepB0 i x0 x1 x2 x3 (xs0, xs1, xs2)).2.2 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_A_S0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32)
    {sp : Space} (v : View sig .tc sp S512x1 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 arg11 harg11 hc0 hc1 x0 x1 x2 x3 x4 x5 x6 ).1) = (stepB1 i x0 x1 x2 x3 x4 x5 initB1).1 := by
  unfold kernelRun1_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_A_S1 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32)
    {sp : Space} (v : View sig .tc sp S512x1 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 arg11 harg11 hc0 hc1 x0 x1 x2 x3 x4 x5 x6 ).2.1) = (stepB1 i x0 x1 x2 x3 x4 x5 initB1).2 := by
  unfold kernelRun1_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_B_S0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).1) = (stepB1 i x0 x1 x2 x3 x4 x5 (xs0, xs1)).1 := by
  unfold kernelRun1_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_B_S1 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1) = (stepB1 i x0 x1 x2 x3 x4 x5 (xs0, xs1)).2 := by
  unfold kernelRun1_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_C_O0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1) = k1_pay2 x6 (stepB1 i x0 x1 x2 x3 x4 x5 (xs0, xs1)).1 (stepB1 i x0 x1 x2 x3 x4 x5 (xs0, xs1)).2 := by
  unfold kernelRun1_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_C_S0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1) = (stepB1 i x0 x1 x2 x3 x4 x5 (xs0, xs1)).1 := by
  unfold kernelRun1_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_C_S1 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1) = (stepB1 i x0 x1 x2 x3 x4 x5 (xs0, xs1)).2 := by
  unfold kernelRun1_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

end Cert.Kernel.Hand

end
-- ==== Proof.KBFrame0.lean ====
/-
  Kernel 0 as a pipeline, at a parameter V (the buffers' contents when its region is entered): the blocks its windows
  read, the running columns after each grid point (reset at the first of a row block's eight points), the proof data —
  every input's buffer at its block, the outputs at the running values, the scratch columns carried in the invariant —
  and the body obligation at every point, by the case the point is in.
-/
import proofs.«172070_j13786845020972_1_alg».proof.Proof.KBPieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The running columns after point n: reset at the first point of each row block, then updated point by point. -/
def accF0 (c : Dev nD) : (n : ℕ) → n < cfg0.N → Acc0 F
  | 0, hn => stepB0 (grid0.coords ⟨0, hn⟩) (iblk0 V c 0 ⟨0, hn⟩) (iblk0 V c 1 ⟨0, hn⟩) (iblk0 V c 2 ⟨0, hn⟩) (iblk0 V c 3 ⟨0, hn⟩) initB0
  | n + 1, hn => stepB0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (if (n + 1) % 8 = 0 then initB0 else accF0 c n (Nat.lt_of_succ_lt hn))

theorem accF0_first (c : Dev nD) (t : Fin cfg0.N) (h : t.val % 8 = 0) :
    accF0 V c t.val t.isLt = stepB0 (grid0.coords t) (iblk0 V c 0 t) (iblk0 V c 1 t) (iblk0 V c 2 t) (iblk0 V c 3 t) initB0 := by
  obtain ⟨n, hn⟩ := t
  cases n with
  | zero => rfl
  | succ k => simp only [accF0, if_pos h]

theorem accF0_next (c : Dev nD) (t : Fin cfg0.N) (h : ¬t.val % 8 = 0) :
    accF0 V c t.val t.isLt = stepB0 (grid0.coords t) (iblk0 V c 0 t) (iblk0 V c 1 t) (iblk0 V c 2 t) (iblk0 V c 3 t) (accF0 V c (t.val - 1) (Nat.lt_of_le_of_lt (Nat.sub_le _ _) t.isLt)) := by
  obtain ⟨n, hn⟩ := t
  cases n with
  | zero => exact absurd rfl h
  | succ k => simp only [accF0, if_neg h, Nat.add_sub_cancel]

/-- The region invariant before position n: before the first point the region's own; afterwards the scratch columns at
    the running values the point before left, beside what gives the region's invariant back. -/
def PhiS0 (c : Dev nD) : (n : ℕ) → n ≤ cfg0.N → sProp 𝕄
  | 0, _ => Pipeline.ΦA spec0 c
  | n + 1, hn => iprop(owns (c : Thread nD τ) scM0_0 fullShare ((accF0 V c n hn).1) ∗ owns (c : Thread nD τ) scM0_1 fullShare ((accF0 V c n hn).2.1) ∗ owns (c : Thread nD τ) scM0_2 fullShare ((accF0 V c n hn).2.2) ∗ Back0 c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((accF0 V c n hn).1) ∗ owns (c : Thread nD τ) scM0_1 fullShare ((accF0 V c n hn).2.1) ∗ owns (c : Thread nD τ) scM0_2 fullShare ((accF0 V c n hn).2.2) ∗ Back0 c) := rfl
theorem PhiS0_pos (c : Dev nD) (n : ℕ) (h : n ≤ cfg0.N) (hz : n ≠ 0) :
    PhiS0 V c n h = iprop(owns (c : Thread nD τ) scM0_0 fullShare ((accF0 V c (n - 1) (by omega)).1) ∗ owns (c : Thread nD τ) scM0_1 fullShare ((accF0 V c (n - 1) (by omega)).2.1) ∗ owns (c : Thread nD τ) scM0_2 fullShare ((accF0 V c (n - 1) (by omega)).2.2) ∗ Back0 c) := by
  cases n with
  | zero => exact absurd rfl hz
  | succ n => rfl

/-- The proof data of pipeline 0 on core c. The two windows on the embedding matrix hold complementary halves of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (accF0 V c t.val t.isLt).1
    | ⟨5, _⟩ => (accF0 V c t.val t.isLt).2.1
    | ⟨6, _⟩ => (accF0 V c t.val t.isLt).2.2
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (accF0 V c t.val t.isLt).1 := by dsimp only [dat0]
theorem after0_5 (c : Dev nD) (t : Fin cfg0.N) : (dat0 V c).after 5 t = (accF0 V c t.val t.isLt).2.1 := by dsimp only [dat0]
theorem after0_6 (c : Dev nD) (t : Fin cfg0.N) : (dat0 V c).after 6 t = (accF0 V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in; that
    case's run applies; the invariant hands the body the scratch columns at what the point before left (at anything at
    the first point of a row block) and takes them back at this point's running values, which the run's stores read
    back as; an idle output is handed back untouched, a live one holds the value written out. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt N_0
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [Dat.leavesExact_idle (dat0 V c) 5 t (idleAt0_5 t hc1) (noFlush0_5 t hc1)]
    rw [Dat.leavesExact_idle (dat0 V c) 6 t (idleAt0_6 t hc1) (noFlush0_6 t hc1)]
    rw [accF0_first V c t h0]
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA0_split c) $$ HΦ
      icases HΦ' with ⟨HS0, HS1, HS2, HB⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_A_S0 c (grid0.coords t) _ _ _ _ _ _ _ _ _ _ _ _ _ _ _ _ _ _ _ _ hc0 hc1 (iblk0 V c 0 t) (iblk0 V c 1 t) (iblk0 V c 2 t) (iblk0 V c 3 t) _ _
        isplitl [HS1]
        · unfold owns; iexists _; isplitr
          swap; · iexact HS1
          ipureintro; exact read0_A_S1 c (grid0.coords t) _ _ _ _ _ _ _ _ _ _ _ _ _ _ _ _ _ _ _ _ hc0 hc1 (iblk0 V c 0 t) (iblk0 V c 1 t) (iblk0 V c 2 t) (iblk0 V c 3 t) _ _
        isplitl [HS2]
        · unfold owns; iexists _; isplitr
          swap; · iexact HS2
          ipureintro; exact read0_A_S2 c (grid0.coords t) _ _ _ _ _ _ _ _ _ _ _ _ _ _ _ _ _ _ _ _ hc0 hc1 (iblk0 V c 0 t) (iblk0 V c 1 t) (iblk0 V c 2 t) (iblk0 V c 3 t) _ _
        iexact HB
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS0_castSucc V c t, PhiS0_pos V c _ _ hz]
      iintro ⟨⟨HS0, HS1, HS2, HB⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_A_S0 c (grid0.coords t) _ _ _ _ _ _ _ _ _ _ _ _ _ _ _ _ _ _ _ _ hc0 hc1 (iblk0 V c 0 t) (iblk0 V c 1 t) (iblk0 V c 2 t) (iblk0 V c 3 t) _ _
        isplitl [HS1]
        · unfold owns; iexists _; isplitr
          swap; · iexact HS1
          ipureintro; exact read0_A_S1 c (grid0.coords t) _ _ _ _ _ _ _ _ _ _ _ _ _ _ _ _ _ _ _ _ hc0 hc1 (iblk0 V c 0 t) (iblk0 V c 1 t) (iblk0 V c 2 t) (iblk0 V c 3 t) _ _
        isplitl [HS2]
        · unfold owns; iexists _; isplitr
          swap; · iexact HS2
          ipureintro; exact read0_A_S2 c (grid0.coords t) _ _ _ _ _ _ _ _ _ _ _ _ _ _ _ _ _ _ _ _ hc0 hc1 (iblk0 V c 0 t) (iblk0 V c 1 t) (iblk0 V c 2 t) (iblk0 V c 3 t) _ _
        iexact HB
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hc0 : ¬cond0_0 (grid0.coords t) := fun h => h0 ((hcond0_0 t).mp h)
    have hz : t.val ≠ 0 := fun h => h0 (by rw [h])
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4_C t hc1], after0_4]
      rw [show (dat0 V c).leavesExact 5 t = owns (c : Thread nD τ) (ms0_5 t) fullShare ((dat0 V c).after 5 t) from by
        unfold Dat.leavesExact; rw [liveAt0_5_C t hc1], after0_5]
      rw [show (dat0 V c).leavesExact 6 t = owns (c : Thread nD τ) (ms0_6 t) fullShare ((dat0 V c).after 6 t) from by
        unfold Dat.leavesExact; rw [liveAt0_6_C t hc1], after0_6]
      rw [accF0_next V c t h0]
      rw [PhiS0_castSucc V c t, PhiS0_pos V c _ _ hz]
      iintro ⟨⟨HS0, HS1, HS2, HB⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ hc0 hc1 (iblk0 V c 0 t) (iblk0 V c 1 t) (iblk0 V c 2 t) (iblk0 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_C_S0 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS1]
        · unfold owns; iexists _; isplitr
          swap; · iexact HS1
          ipureintro; exact read0_C_S1 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS2]
        · unfold owns; iexists _; isplitr
          swap; · iexact HS2
          ipureintro; exact read0_C_S2 c (grid0.coords t) _ _ _ _ _ _ _ _ _ _ _ _ _ _ _ _ _ _ _ _ hc0 hc1 (iblk0 V c 0 t) (iblk0 V c 1 t) (iblk0 V c 2 t) (iblk0 V c 3 t) _ _ _ _ _
        iexact HB
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact read0_C_O0 c (grid0.coords t) _ _ _ _ _ _ _ _ _ _ _ _ _ _ _ _ _ _ _ _ hc0 hc1 (iblk0 V c 0 t) (iblk0 V c 1 t) (iblk0 V c 2 t) (iblk0 V c 3 t) _ _ _ _ _
      isplitl [H5]
      · unfold owns; iexists _; isplitr
        swap; · iexact H5
        ipureintro; exact read0_C_O1 c (grid0.coords t) _ _ _ _ _ _ _ _ _ _ _ _ _ _ _ _ _ _ _ _ hc0 hc1 (iblk0 V c 0 t) (iblk0 V c 1 t) (iblk0 V c 2 t) (iblk0 V c 3 t) _ _ _ _ _
      unfold owns; iexists _; isplitr
      swap; · iexact H6
      ipureintro; exact read0_C_O2 c (grid0.coords t) _ _ _ _ _ _ _ _ _ _ _ _ _ _ _ _ _ _ _ _ hc0 hc1 (iblk0 V c 0 t) (iblk0 V c 1 t) (iblk0 V c 2 t) (iblk0 V c 3 t) _ _ _ _ _
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      rw [Dat.leavesExact_idle (dat0 V c) 6 t (idleAt0_6 t hc1) (noFlush0_6 t hc1)]
      rw [accF0_next V c t h0]
      rw [PhiS0_castSucc V c t, PhiS0_pos V c _ _ hz]
      iintro ⟨⟨HS0, HS1, HS2, HB⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ hc0 hc1 (iblk0 V c 0 t) (iblk0 V c 1 t) (iblk0 V c 2 t) (iblk0 V c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_B_S0 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS1]
        · unfold owns; iexists _; isplitr
          swap; · iexact HS1
          ipureintro; exact read0_B_S1 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS2]
        · unfold owns; iexists _; isplitr
          swap; · iexact HS2
          ipureintro; exact read0_B_S2 c (grid0.coords t) _ _ _ _ _ _ _ _ _ _ _ _ _ _ _ _ _ _ _ _ hc0 hc1 (iblk0 V c 0 t) (iblk0 V c 1 t) (iblk0 V c 2 t) (iblk0 V c 3 t) _ _ _ _ _
        iexact HB
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the region's own back: the scratch columns' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  unfold Back0
  iintro ⟨HS0, HS1, HS2, HB⟩
  iapply HB
  isplitl [HS0]; · iexists _; iexact HS0
  isplitl [HS1]; · iexists _; iexact HS1
  iexists _; iexact HS2

end

end Cert.Kernel.Hand

end
-- ==== Proof.KBFrame1.lean ====
/-
  Kernel 1 as a pipeline, at a parameter V (the buffers' contents when its region is entered): the blocks its windows
  read, the running columns after each grid point (reset at the first of a row block's eight points), the proof data —
  every input's buffer at its block, the output at the running value, the scratch columns carried in the invariant —
  and the body obligation at every point, by the case the point is in.
-/
import proofs.«172070_j13786845020972_1_alg».proof.Proof.KBPieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The running columns after point n: reset at the first point of each row block, then updated point by point. -/
def accF1 (c : Dev nD) : (n : ℕ) → n < cfg1.N → Acc1 F
  | 0, hn => stepB1 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) initB1
  | n + 1, hn => stepB1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (if (n + 1) % 8 = 0 then initB1 else accF1 c n (Nat.lt_of_succ_lt hn))

theorem accF1_first (c : Dev nD) (t : Fin cfg1.N) (h : t.val % 8 = 0) :
    accF1 V c t.val t.isLt = stepB1 (grid1.coords t) (iblk1 V c 0 t) (iblk1 V c 1 t) (iblk1 V c 2 t) (iblk1 V c 3 t) (iblk1 V c 4 t) (iblk1 V c 5 t) initB1 := by
  obtain ⟨n, hn⟩ := t
  cases n with
  | zero => rfl
  | succ k => simp only [accF1, if_pos h]

theorem accF1_next (c : Dev nD) (t : Fin cfg1.N) (h : ¬t.val % 8 = 0) :
    accF1 V c t.val t.isLt = stepB1 (grid1.coords t) (iblk1 V c 0 t) (iblk1 V c 1 t) (iblk1 V c 2 t) (iblk1 V c 3 t) (iblk1 V c 4 t) (iblk1 V c 5 t) (accF1 V c (t.val - 1) (Nat.lt_of_le_of_lt (Nat.sub_le _ _) t.isLt)) := by
  obtain ⟨n, hn⟩ := t
  cases n with
  | zero => exact absurd rfl h
  | succ k => simp only [accF1, if_neg h, Nat.add_sub_cancel]

/-- The region invariant before position n: before the first point the region's own; afterwards the scratch columns at
    the running values the point before left, beside what gives the region's invariant back. -/
def PhiS1 (c : Dev nD) : (n : ℕ) → n ≤ cfg1.N → sProp 𝕄
  | 0, _ => Pipeline.ΦA spec1 c
  | n + 1, hn => iprop(owns (c : Thread nD τ) scM1_0 fullShare ((accF1 V c n hn).1) ∗ owns (c : Thread nD τ) scM1_1 fullShare ((accF1 V c n hn).2) ∗ Back1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((accF1 V c n hn).1) ∗ owns (c : Thread nD τ) scM1_1 fullShare ((accF1 V c n hn).2) ∗ Back1 c) := rfl
theorem PhiS1_pos (c : Dev nD) (n : ℕ) (h : n ≤ cfg1.N) (hz : n ≠ 0) :
    PhiS1 V c n h = iprop(owns (c : Thread nD τ) scM1_0 fullShare ((accF1 V c (n - 1) (by omega)).1) ∗ owns (c : Thread nD τ) scM1_1 fullShare ((accF1 V c (n - 1) (by omega)).2) ∗ Back1 c) := by
  cases n with
  | zero => exact absurd rfl hz
  | succ n => rfl

/-- The proof data of pipeline 1 on core c. The two windows on the embedding matrix hold complementary halves of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay2 (iblk1 V c 6 t) (accF1 V c t.val t.isLt).1 (accF1 V c t.val t.isLt).2
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay2 (iblk1 V c 6 t) (accF1 V c t.val t.isLt).1 (accF1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; the closed forms say which case the point is in; that
    case's run applies; the invariant hands the body the scratch columns at what the point before left (at anything at
    the first point of a row block) and takes them back at this point's running values, which the run's stores read
    back as; an idle output is handed back untouched, a live one holds the value written out. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt N_1
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t hc1) (noFlush1_7 t hc1)]
    rw [accF1_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiA1_split c) $$ HΦ
      icases HΦ' with ⟨HS0, HS1, HB⟩
      iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HB]
      · isplitl [HS0]
        · unfold owns; iexists _; isplitr
          swap; · iexact HS0
          ipureintro; exact read1_A_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        isplitl [HS1]
        · unfold owns; iexists _; isplitr
          swap; · iexact HS1
          ipureintro; exact read1_A_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨HS0, HS1, HB⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HB]
      · isplitl [HS0]
        · unfold owns; iexists _; isplitr
          swap; · iexact HS0
          ipureintro; exact read1_A_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        isplitl [HS1]
        · unfold owns; iexists _; isplitr
          swap; · iexact HS1
          ipureintro; exact read1_A_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hc0 : ¬cond1_0 (grid1.coords t) := fun h => h0 ((hcond1_0 t).mp h)
    have hz : t.val ≠ 0 := fun h => h0 (by rw [h])
    by_cases h1 : t.val % 8 = 7
    · have hc1 : cond1_1 (grid1.coords t) := (hcond1_1 t).mpr h1
      rw [show (dat1 V c).leavesExact 7 t = owns (c : Thread nD τ) (ms1_7 t) fullShare ((dat1 V c).after 7 t) from by
        unfold Dat.leavesExact; rw [liveAt1_7_C t hc1], after1_7]
      rw [accF1_next V c t h0]
      rw [PhiS1_castSucc V c t, PhiS1_pos V c _ _ hz]
      iintro ⟨⟨HS0, HS1, HB⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 HB]
      · isplitl [HS0]
        · unfold owns; iexists _; isplitr
          swap; · iexact HS0
          ipureintro; exact read1_C_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        isplitl [HS1]
        · unfold owns; iexists _; isplitr
          swap; · iexact HS1
          ipureintro; exact read1_C_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact read1_C_O0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
    · have hc1 : ¬cond1_1 (grid1.coords t) := fun h => h1 ((hcond1_1 t).mp h)
      rw [Dat.leavesExact_idle (dat1 V c) 7 t (idleAt1_7 t hc1) (noFlush1_7 t hc1)]
      rw [accF1_next V c t h0]
      rw [PhiS1_castSucc V c t, PhiS1_pos V c _ _ hz]
      iintro ⟨⟨HS0, HS1, HB⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HB]
      · isplitl [HS0]
        · unfold owns; iexists _; isplitr
          swap; · iexact HS0
          ipureintro; exact read1_B_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        isplitl [HS1]
        · unfold owns; iexists _; isplitr
          swap; · iexact HS1
          ipureintro; exact read1_B_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's own back: the scratch columns' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold Back1
  iintro ⟨HS0, HS1, HB⟩
  iapply HB
  isplitl [HS0]; · iexists _; iexact HS0
  iexists _; iexact HS1

end

end Cert.Kernel.Hand

end
-- ==== Proof.KBShare.lean ====
/-
  A region's arrays and the core's unscoped buffers, when two windows read one array.
  Both pipelines read the embedding matrix through two windows (a row block and a column block). At a region's entry
  the matrix's buffer, held whole at the full share, is dealt to the two windows as the two halves of the full share;
  at the exit the halves, which hold the same contents, are joined back. Every other array belongs to one window and
  is held at the full share throughout.
-/
import proofs.«172070_j13786845020972_1_alg».proof.Proof.KBShared
import Idealize.ShloMosaic.Rules.PointsTo

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Pipeline 0 -/

/-- The distinct buffers behind pipeline 0's arrays, one by one. -/
theorem arrBufs0_eq (c : Dev nD) (V : (b : Ref sig .tc) → Buf (Elt F) ((c : Thread nD τ).loc b)) :
    (Pipeline.arrBufs spec0 c V : sProp 𝕄) = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2_0) ↦{fullShare} V main_v2_0) ∗ (((c : Thread nD τ).loc main_v2_1) ↦{fullShare} V main_v2_1) ∗ (((c : Thread nD τ).loc main_v2_2) ↦{fullShare} V main_v2_2)) := by
  unfold Pipeline.arrBufs
  exact bigSep_eq_bigSepL_of_eq [main_arg0, main_v0, main_v1, main_v2_0, main_v2_1, main_v2_2] (by decide) (by decide) _

/-- Pipeline 0's arrays at contents Fn, window by window, for proof data that deals the embedding matrix to its two
    windows as the two halves of the full share. -/
theorem arrays0_eq {c : Dev nD} (dat : Dat τ (Elt F) Unit ℕ (UR sig nD τ) ℕ cfg0 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare)
    (Fn : (w : Fin cfg0.W) → Buf (Elt F) ((cfg0.win w).arr.view.loc (c : Thread nD τ))) :
    (dat.arrays Fn : sProp 𝕄) = iprop((((c : Thread nD τ).loc main_arg0) ↦{fullShare.left} Fn 0) ∗ (((c : Thread nD τ).loc main_arg0) ↦{fullShare.right} Fn 1) ∗ (((c : Thread nD τ).loc main_v0) ↦{fullShare} Fn 2) ∗ (((c : Thread nD τ).loc main_v1) ↦{fullShare} Fn 3) ∗ (((c : Thread nD τ).loc main_v2_0) ↦{fullShare} Fn 4) ∗ (((c : Thread nD τ).loc main_v2_1) ↦{fullShare} Fn 5) ∗ (((c : Thread nD τ).loc main_v2_2) ↦{fullShare} Fn 6)) := by
  have e : (dat.arrays Fn : sProp 𝕄) = bigSep Finset.univ fun w : Fin cfg0.W => (((c : Thread nD τ).loc (Pipeline.arrRef spec0 w)) ↦{dat.share w} Fn w : sProp 𝕄) := by
    unfold Dat.arrays
    exact bigSep_congr fun w _ => by rw [(arr_whole0 w).set_eq_univ]
  rw [e, bigSep_W0, h0, h1, h2, h3, h4, h5, h6]

/-- ENTRY: the core's unscoped buffers at contents V are pipeline 0's arrays at V and the rest. -/
theorem entry0 {c : Dev nD} (dat : Dat τ (Elt F) Unit ℕ (UR sig nD τ) ℕ cfg0 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (unscopedBufs c V : sProp 𝕄) ⊢ iprop(dat.arrays Fn ∗ Pipeline.unscopedRest spec0 c V) := by
  have hs := Pipeline.unscopedBufs_split₀ (Ix := Unit) (Name := ℕ) (U := UR sig nD τ) (Lvl := ℕ) cfgs (0 : Fin 2) winFacts₀0.arr_unscoped c V
  rw [show (unscopedBufs c V : sProp 𝕄) = iprop(Pipeline.arrBufs spec0 c V ∗ Pipeline.unscopedRest spec0 c V) from hs]
  refine sep_mono ?_ .rfl
  rw [arrBufs0_eq, arrays0_eq dat h0 h1 h2 h3 h4 h5 h6, hF 0, hF 1, hF 2, hF 3, hF 4, hF 5, hF 6]
  iintro ⟨B0, B1, B2, B3, B4, B5⟩
  ihave Hh := (pointsTo_share (PosShare.mem_left_op_right fullShare)).1 $$ B0
  icases Hh with ⟨A0, A1⟩
  isplitl [A0]; · iexact A0
  isplitl [A1]; · iexact A1
  isplitl [B1]; · iexact B1
  isplitl [B2]; · iexact B2
  isplitl [B3]; · iexact B3
  isplitl [B4]; · iexact B4
  iexact B5

/-- EXIT: pipeline 0's arrays at contents Fn and the rest at V are the core's unscoped buffers at any valuation V'
    that has the arrays at Fn and agrees with V off them. -/
theorem exit0 {c : Dev nD} (dat : Dat τ (Elt F) Unit ℕ (UR sig nD τ) ℕ cfg0 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare)
    (V V' : (b : Ref sig .tc) → Buf (Elt F) ((c : Thread nD τ).loc b))
    (Fn : (w : Fin cfg0.W) → Buf (Elt F) ((cfg0.win w).arr.view.loc (c : Thread nD τ))) (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  have hs := Pipeline.unscopedBufs_split₀ (Ix := Unit) (Name := ℕ) (U := UR sig nD τ) (Lvl := ℕ) cfgs (0 : Fin 2) winFacts₀0.arr_unscoped c V'
  rw [show (unscopedBufs c V' : sProp 𝕄) = iprop(Pipeline.arrBufs spec0 c V' ∗ Pipeline.unscopedRest spec0 c V') from hs]
  refine sep_mono ?_ (Entails.of_eq ?_)
  · rw [arrBufs0_eq, arrays0_eq dat h0 h1 h2 h3 h4 h5 h6, hF 0, hF 1, hF 2, hF 3, hF 4, hF 5, hF 6]
    iintro ⟨A0, A1, A2, A3, A4, A5, A6⟩
    isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    iexact A6
  · unfold Pipeline.unscopedRest
    exact bigSep_congr fun b hb => by rw [hrest b (Finset.mem_sdiff.mp hb).2]

/-! ## Pipeline 1 -/

/-- The distinct buffers behind pipeline 1's arrays, one by one. -/
theorem arrBufs1_eq (c : Dev nD) (V : (b : Ref sig .tc) → Buf (Elt F) ((c : Thread nD τ).loc b)) :
    (Pipeline.arrBufs spec1 c V : sProp 𝕄) = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2_0) ↦{fullShare} V main_v2_0) ∗ (((c : Thread nD τ).loc main_v2_1) ↦{fullShare} V main_v2_1) ∗ (((c : Thread nD τ).loc main_v2_2) ↦{fullShare} V main_v2_2) ∗ (((c : Thread nD τ).loc main_v3) ↦{fullShare} V main_v3)) := by
  unfold Pipeline.arrBufs
  exact bigSep_eq_bigSepL_of_eq [main_arg0, main_v0, main_v1, main_v2_0, main_v2_1, main_v2_2, main_v3] (by decide) (by decide) _

/-- Pipeline 1's arrays at contents Fn, window by window, for proof data that deals the embedding matrix to its two
    windows as the two halves of the full share. -/
theorem arrays1_eq {c : Dev nD} (dat : Dat τ (Elt F) Unit ℕ (UR sig nD τ) ℕ cfg1 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare) (h7 : dat.share 7 = fullShare)
    (Fn : (w : Fin cfg1.W) → Buf (Elt F) ((cfg1.win w).arr.view.loc (c : Thread nD τ))) :
    (dat.arrays Fn : sProp 𝕄) = iprop((((c : Thread nD τ).loc main_arg0) ↦{fullShare.left} Fn 0) ∗ (((c : Thread nD τ).loc main_arg0) ↦{fullShare.right} Fn 1) ∗ (((c : Thread nD τ).loc main_v0) ↦{fullShare} Fn 2) ∗ (((c : Thread nD τ).loc main_v1) ↦{fullShare} Fn 3) ∗ (((c : Thread nD τ).loc main_v2_0) ↦{fullShare} Fn 4) ∗ (((c : Thread nD τ).loc main_v2_1) ↦{fullShare} Fn 5) ∗ (((c : Thread nD τ).loc main_v2_2) ↦{fullShare} Fn 6) ∗ (((c : Thread nD τ).loc main_v3) ↦{fullShare} Fn 7)) := by
  have e : (dat.arrays Fn : sProp 𝕄) = bigSep Finset.univ fun w : Fin cfg1.W => (((c : Thread nD τ).loc (Pipeline.arrRef spec1 w)) ↦{dat.share w} Fn w : sProp 𝕄) := by
    unfold Dat.arrays
    exact bigSep_congr fun w _ => by rw [(arr_whole1 w).set_eq_univ]
  rw [e, bigSep_W1, h0, h1, h2, h3, h4, h5, h6, h7]

/-- ENTRY: the core's unscoped buffers at contents V are pipeline 1's arrays at V and the rest. -/
theorem entry1 {c : Dev nD} (dat : Dat τ (Elt F) Unit ℕ (UR sig nD τ) ℕ cfg1 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare) (h7 : dat.share 7 = fullShare)
    (V : (b : Ref sig .tc) → Buf (Elt F) ((c : Thread nD τ).loc b))
    (Fn : (w : Fin cfg1.W) → Buf (Elt F) ((cfg1.win w).arr.view.loc (c : Thread nD τ))) (hF : ∀ w, Fn w = V (Pipeline.arrRef spec1 w)) :
    (unscopedBufs c V : sProp 𝕄) ⊢ iprop(dat.arrays Fn ∗ Pipeline.unscopedRest spec1 c V) := by
  have hs := Pipeline.unscopedBufs_split₀ (Ix := Unit) (Name := ℕ) (U := UR sig nD τ) (Lvl := ℕ) cfgs (1 : Fin 2) winFacts₀1.arr_unscoped c V
  rw [show (unscopedBufs c V : sProp 𝕄) = iprop(Pipeline.arrBufs spec1 c V ∗ Pipeline.unscopedRest spec1 c V) from hs]
  refine sep_mono ?_ .rfl
  rw [arrBufs1_eq, arrays1_eq dat h0 h1 h2 h3 h4 h5 h6 h7, hF 0, hF 1, hF 2, hF 3, hF 4, hF 5, hF 6, hF 7]
  iintro ⟨B0, B1, B2, B3, B4, B5, B6⟩
  ihave Hh := (pointsTo_share (PosShare.mem_left_op_right fullShare)).1 $$ B0
  icases Hh with ⟨A0, A1⟩
  isplitl [A0]; · iexact A0
  isplitl [A1]; · iexact A1
  isplitl [B1]; · iexact B1
  isplitl [B2]; · iexact B2
  isplitl [B3]; · iexact B3
  isplitl [B4]; · iexact B4
  isplitl [B5]; · iexact B5
  iexact B6

/-- EXIT: pipeline 1's arrays at contents Fn and the rest at V are the core's unscoped buffers at any valuation V'
    that has the arrays at Fn and agrees with V off them. -/
theorem exit1 {c : Dev nD} (dat : Dat τ (Elt F) Unit ℕ (UR sig nD τ) ℕ cfg1 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare) (h7 : dat.share 7 = fullShare)
    (V V' : (b : Ref sig .tc) → Buf (Elt F) ((c : Thread nD τ).loc b))
    (Fn : (w : Fin cfg1.W) → Buf (Elt F) ((cfg1.win w).arr.view.loc (c : Thread nD τ))) (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  have hs := Pipeline.unscopedBufs_split₀ (Ix := Unit) (Name := ℕ) (U := UR sig nD τ) (Lvl := ℕ) cfgs (1 : Fin 2) winFacts₀1.arr_unscoped c V'
  rw [show (unscopedBufs c V' : sProp 𝕄) = iprop(Pipeline.arrBufs spec1 c V' ∗ Pipeline.unscopedRest spec1 c V') from hs]
  refine sep_mono ?_ (Entails.of_eq ?_)
  · rw [arrBufs1_eq, arrays1_eq dat h0 h1 h2 h3 h4 h5 h6 h7, hF 0, hF 1, hF 2, hF 3, hF 4, hF 5, hF 6, hF 7]
    iintro ⟨A0, A1, A2, A3, A4, A5, A6, A7⟩
    isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    isplitl [A6]; · iexact A6
    iexact A7
  · unfold Pipeline.unscopedRest
    exact bigSep_congr fun b hb => by rw [hrest b (Finset.mem_sdiff.mp hb).2]

end Cert.Kernel.Hand

end
-- ==== Proof.KBMain.lean ====
/-
  The whole run of @main: two host reshapes of the labels, the two pipelines, the host sum and division.
  Between two items every unscoped buffer of the core is held at a valuation: the launch contents, then what the
  reshapes leave, then the first pipeline's three result columns at what its write-backs leave, then the second
  pipeline's result column, then what the host tail leaves. Both pipelines read the embedding matrix through two
  windows; at a region's entry the matrix's buffer is dealt to them as two halves of the full share and joined again
  at the exit. Every execution terminates, and every final memory holds each unscoped buffer at the last valuation.
-/
import proofs.«172070_j13786845020972_1_alg».proof.Proof.KBFrame0
import proofs.«172070_j13786845020972_1_alg».proof.Proof.KBFrame1
import proofs.«172070_j13786845020972_1_alg».proof.Proof.Gen.Kernel.Regions
import proofs.«172070_j13786845020972_1_alg».proof.Proof.KBShare

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the two reshapes (the first pipeline's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pipeline's exit (the second's entry): its three result columns at what its write-backs leave. -/
def W2 (c : Dev nD) : Valuation τ sig (Elt F) :=
  Function.update (Function.update (Function.update (W1 m ρ c) (Proc.devRef .tc main_v2_0) ((dat0 (V1 m ρ) c).arrAt 4 cfg0.N))
    (Proc.devRef .tc main_v2_1) ((dat0 (V1 m ρ) c).arrAt 5 cfg0.N)) (Proc.devRef .tc main_v2_2) ((dat0 (V1 m ρ) c).arrAt 6 cfg0.N)
abbrev V2 : (c : Dev nD) → (b : Ref sig .tc) → Buf (Elt F) ((c : Thread nD τ).loc b) := fun c b => W2 m ρ c b
/-- At the second pipeline's exit: its result column at what its write-backs leave. -/
def W3 (c : Dev nD) : Valuation τ sig (Elt F) :=
  Function.update (W2 m ρ c) (Proc.devRef .tc main_v3) ((dat1 (V2 m ρ) c).arrAt 7 cfg1.N)
abbrev V3 : (c : Dev nD) → (b : Ref sig .tc) → Buf (Elt F) ((c : Thread nD τ).loc b) := fun c b => W3 m ρ c b
/-- After the host tail. -/
abbrev W4 : Dev nD → Valuation τ sig (Elt F) := fun c => StableHlo.after hostOps2 (W3 m ρ c)

theorem W2_of (c : Dev nD) (r : Ref sig .tc) (h : r ∉ ([main_v2_0, main_v2_1, main_v2_2] : List (Ref sig .tc))) :
    W2 m ρ c (Proc.devRef .tc r) = W1 m ρ c (Proc.devRef .tc r) := by
  simp only [W2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
theorem W2_v2_0 (c : Dev nD) : W2 m ρ c (Proc.devRef .tc main_v2_0) = (dat0 (V1 m ρ) c).arrAt 4 cfg0.N := by
  simp only [W2, Function.update_of_ne (StableHlo.devRef_ne_of_ne (by decide) : (Proc.devRef .tc main_v2_0 : DevRef τ sig) ≠ Proc.devRef .tc main_v2_2), Function.update_of_ne (StableHlo.devRef_ne_of_ne (by decide) : (Proc.devRef .tc main_v2_0 : DevRef τ sig) ≠ Proc.devRef .tc main_v2_1), Function.update_self]
theorem W2_v2_1 (c : Dev nD) : W2 m ρ c (Proc.devRef .tc main_v2_1) = (dat0 (V1 m ρ) c).arrAt 5 cfg0.N := by
  simp only [W2, Function.update_of_ne (StableHlo.devRef_ne_of_ne (by decide) : (Proc.devRef .tc main_v2_1 : DevRef τ sig) ≠ Proc.devRef .tc main_v2_2), Function.update_self]
theorem W2_v2_2 (c : Dev nD) : W2 m ρ c (Proc.devRef .tc main_v2_2) = (dat0 (V1 m ρ) c).arrAt 6 cfg0.N := by
  simp only [W2, Function.update_self]
theorem W3_of (c : Dev nD) (r : Ref sig .tc) (h : r ∉ ([main_v3] : List (Ref sig .tc))) :
    W3 m ρ c (Proc.devRef .tc r) = W2 m ρ c (Proc.devRef .tc r) := by
  simp only [W3, Function.update_of_ne (StableHlo.devRef_ne_of_ne (List.ne_of_not_mem_cons h) : (Proc.devRef .tc r : DevRef τ sig) ≠ Proc.devRef .tc main_v3)]
theorem W3_v3 (c : Dev nD) : W3 m ρ c (Proc.devRef .tc main_v3) = (dat1 (V2 m ρ) c).arrAt 7 cfg1.N := by
  simp only [W3, Function.update_self]

/-- At the first pipeline's exit each of its arrays holds what the pipeline leaves. -/
theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of m ρ c main_arg0 (by decide)).symm)
  | ⟨1, _⟩ => ((dat0 (V1 m ρ) c).arrAt_in 1 rfl _).trans ((A_eq0 (V1 m ρ) c 1).trans (W2_of m ρ c main_arg0 (by decide)).symm)
  | ⟨2, _⟩ => ((dat0 (V1 m ρ) c).arrAt_in 2 rfl _).trans ((A_eq0 (V1 m ρ) c 2).trans (W2_of m ρ c main_v0 (by decide)).symm)
  | ⟨3, _⟩ => ((dat0 (V1 m ρ) c).arrAt_in 3 rfl _).trans ((A_eq0 (V1 m ρ) c 3).trans (W2_of m ρ c main_v1 (by decide)).symm)
  | ⟨4, _⟩ => (W2_v2_0 m ρ c).symm
  | ⟨5, _⟩ => (W2_v2_1 m ρ c).symm
  | ⟨6, _⟩ => (W2_v2_2 m ρ c).symm
theorem hrest0 (c : Dev nD) : ∀ b, b ∉ Finset.univ.image (Pipeline.arrRef spec0) → V2 m ρ c b = V1 m ρ c b :=
  fun b hb => W2_of m ρ c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of m ρ c main_arg0 (by decide)).symm)
  | ⟨1, _⟩ => ((dat1 (V2 m ρ) c).arrAt_in 1 rfl _).trans ((A_eq1 (V2 m ρ) c 1).trans (W3_of m ρ c main_arg0 (by decide)).symm)
  | ⟨2, _⟩ => ((dat1 (V2 m ρ) c).arrAt_in 2 rfl _).trans ((A_eq1 (V2 m ρ) c 2).trans (W3_of m ρ c main_v0 (by decide)).symm)
  | ⟨3, _⟩ => ((dat1 (V2 m ρ) c).arrAt_in 3 rfl _).trans ((A_eq1 (V2 m ρ) c 3).trans (W3_of m ρ c main_v1 (by decide)).symm)
  | ⟨4, _⟩ => ((dat1 (V2 m ρ) c).arrAt_in 4 rfl _).trans ((A_eq1 (V2 m ρ) c 4).trans (W3_of m ρ c main_v2_0 (by decide)).symm)
  | ⟨5, _⟩ => ((dat1 (V2 m ρ) c).arrAt_in 5 rfl _).trans ((A_eq1 (V2 m ρ) c 5).trans (W3_of m ρ c main_v2_1 (by decide)).symm)
  | ⟨6, _⟩ => ((dat1 (V2 m ρ) c).arrAt_in 6 rfl _).trans ((A_eq1 (V2 m ρ) c 6).trans (W3_of m ρ c main_v2_2 (by decide)).symm)
  | ⟨7, _⟩ => (W3_v3 m ρ c).symm
theorem hrest1 (c : Dev nD) : ∀ b, b ∉ Finset.univ.image (Pipeline.arrRef spec1) → V3 m ρ c b = V2 m ρ c b :=
  fun b hb => W3_of m ρ c b (by
    intro hmem
    simp only [List.mem_cons, List.mem_nil_iff, or_false] at hmem
    subst hmem
    exact hb (Finset.mem_image.mpr ⟨7, Finset.mem_univ _, rfl⟩))

/-! ### The arguments end as launched; the result is the host tail of the second pipeline's column -/

theorem W4_main_arg0 (c : Dev nD) : W4 m ρ c (Proc.devRef .tc main_arg0) = m ((c : Thread nD τ).loc main_arg0) :=
  (StableHlo.after_of_writes_sub hostOps2 _ hostOps2_writes (by decide : main_arg0 ∉ hostOps2_W)).trans <|
    (W3_of m ρ c main_arg0 (by decide)).trans <| (W2_of m ρ c main_arg0 (by decide)).trans <|
      (StableHlo.after_of_writes_sub hostOps0 _ hostOps0_writes (by decide : main_arg0 ∉ hostOps0_W)).trans rfl
theorem W4_main_arg1 (c : Dev nD) : W4 m ρ c (Proc.devRef .tc main_arg1) = m ((c : Thread nD τ).loc main_arg1) :=
  (StableHlo.after_of_writes_sub hostOps2 _ hostOps2_writes (by decide : main_arg1 ∉ hostOps2_W)).trans <|
    (W3_of m ρ c main_arg1 (by decide)).trans <| (W2_of m ρ c main_arg1 (by decide)).trans <|
      (StableHlo.after_of_writes_sub hostOps0 _ hostOps0_writes (by decide : main_arg1 ∉ hostOps0_W)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- unification with the pinned configuration may unfold plain definitions in a metavariable's type
set_option backward.isDefEq.respectTransparency.types false in
/-- Pipeline 0 as a segment: entered from every unscoped buffer at W1, left at W2. Its arrays are dealt out of the
    unscoped buffers at the entry and joined back at the exit contents; the generator register goes into the region
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (dat0 (V1 m ρ) c) rfl rfl rfl rfl rfl rfl rfl (V1 m ρ c) (dat0 (V1 m ρ) c).A (fun w => A_eq0 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := exit0 (dat0 (V1 m ρ) c) rfl rfl rfl rfl rfl rfl rfl (V1 m ρ c) (V2 m ρ c) ((dat0 (V1 m ρ) c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Pipeline 1 as a segment: entered from every unscoped buffer at W2, left at W3. Its arrays are dealt out of the
    unscoped buffers at the entry and joined back at the exit contents; the generator register goes into the region
    invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (dat1 (V2 m ρ) c) rfl rfl rfl rfl rfl rfl rfl rfl (V2 m ρ c) (dat1 (V2 m ρ) c).A (fun w => A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := exit1 (dat1 (V2 m ρ) c) rfl rfl rfl rfl rfl rfl rfl rfl (V2 m ρ c) (V3 m ρ c) ((dat1 (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.KIShared.lean ====
/-
  What the two kernels' runs share: when each of the two conditionals of a kernel body is taken, in closed form
  over the grid (the reset at the first of a row block's eight points, the write-out at the last); where the output
  windows are idle; the staging and scratch memrefs by name; and the region invariant split into the kernel's scratch
  buffers and everything else it leaves alone.
-/
import proofs.«172070_j13786845020972_1_alg».proof.Proof.Gen.KernelIdeal.Launch
import proofs.«172070_j13786845020972_1_alg».proof.Proof.Gen.KernelIdeal.Skeleton
import proofs.«172070_j13786845020972_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first kernel -/

/-- The reset branch of the first kernel is taken: the column coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The write-out branch of the first kernel is taken: the column coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point of a row block output 4 is idle and not written back; at it, it is live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel
/-- Away from the last point of a row block output 5 is idle and not written back; at it, it is live. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5_C : ∀ t : Fin cfg0.N, cond0_1 (grid0.coords t) → cfg0.idle 5 (grid0.coords t) = false := by decide +kernel
/-- Away from the last point of a row block output 6 is idle and not written back; at it, it is live. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The first kernel's three scratch columns. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
/-- A view of each 512 x 1 column buffer, through which contents are stated. -/
abbrev VC0 : View sig .tc .vmem S512x1 .f32 := scM0_0.view

/-- Everything of the region invariant but the three scratch columns, as what gives the invariant back once the
    columns are returned at any contents. -/
def Back0 (c : Dev nD) : sProp 𝕄 :=
  iprop(((∃ d, owns (c : Thread nD τ) scM0_0 fullShare d) ∗ (∃ d, owns (c : Thread nD τ) scM0_1 fullShare d) ∗ (∃ d, owns (c : Thread nD τ) scM0_2 fullShare d)) -∗ Pipeline.ΦA spec0 c)

/-- The region invariant hands out the three scratch columns at some contents, and takes them back at any. -/
theorem PhiA0_split (c : Dev nD) :
    (Pipeline.ΦA spec0 c : sProp 𝕄)
      ⊢ iprop((∃ d, owns (c : Thread nD τ) scM0_0 fullShare d) ∗ (∃ d, owns (c : Thread nD τ) scM0_1 fullShare d) ∗ (∃ d, owns (c : Thread nD τ) scM0_2 fullShare d) ∗ Back0 c) := by
  unfold Back0 Pipeline.ΦA; rw [scopedRest0_eq]; simp only [scM0_0, scM0_1, scM0_2, owns_whole]
  iintro ⟨⟨H0, H1, H2, Hr⟩, Hg⟩
  isplitl [H0]; · iexact H0
  isplitl [H1]; · iexact H1
  isplitl [H2]; · iexact H2
  iintro ⟨H0, H1, H2⟩
  isplitr [Hg]
  · isplitl [H0]; · iexact H0
    isplitl [H1]; · iexact H1
    isplitl [H2]; · iexact H2
    iexact Hr
  iexact Hg

/-! ## The second kernel -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7_C : ∀ t : Fin cfg1.N, cond1_1 (grid1.coords t) → cfg1.idle 7 (grid1.coords t) = false := by decide +kernel

abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)
/-- The second kernel's two scratch columns. -/
abbrev scM1_0 : Memref sig .tc .vmem S512x1 .f32 := Memref.whole cc1_scratch0
abbrev scM1_1 : Memref sig .tc .vmem S512x1 .f32 := Memref.whole cc1_scratch1

def Back1 (c : Dev nD) : sProp 𝕄 :=
  iprop(((∃ d, owns (c : Thread nD τ) scM1_0 fullShare d) ∗ (∃ d, owns (c : Thread nD τ) scM1_1 fullShare d)) -∗ Pipeline.ΦA spec1 c)

theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ Back1 c) := by
  unfold Back1 Pipeline.ΦA; rw [scopedRest1_eq]; simp only [scM1_0, scM1_1, owns_whole]
  iintro ⟨⟨G0, G1, G2, G3, G4, G5, G6, G7, G8, G9, G10, G11, G12, G13, G14, G15, G16, H0, H1⟩, Hg⟩
  isplitl [H0]; · iexact H0
  isplitl [H1]; · iexact H1
  iintro ⟨H0, H1⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [H0]; · iexact H0
    iexact H1
  iexact Hg

end Cert.KernelIdeal.Hand

end
-- ==== Proof.KIRun0A.lean ====
/-
  Kernel 0's body run symbolically in case A of its two conditionals.
-/
import proofs.«172070_j13786845020972_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Kernel 0's body in case A (first point of a row block: the running columns are reset, then updated): on whole staging memrefs, the inputs at their contents, the outputs untouched, it runs to the
    continuation with each stored buffer holding the pieces the run finds (last first). -/
noncomputable def kernelRun0_A (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S1024x128 .f32) (x2 : Vec F S512x1 .i32) (x3 : Vec F S1x1024 .i32)  :
    Σ' (LS0 : List (View.Piece (Elt F) S512x1 .f32)) (LS1 : List (View.Piece (Elt F) S512x1 .f32)), { LS2 : List (View.Piece (Elt F) S512x1 .f32) //
      ∀ (xi0 xi1 xi2 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi0
            ∗ owns (c : Thread nD τ) arg7 fullShare xi1
            ∗ owns (c : Thread nD τ) arg8 fullShare xi2
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi0
                ∗ owns (c : Thread nD τ) arg7 fullShare xi1
                ∗ owns (c : Thread nD τ) arg8 fullShare xi2
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun xi0 xi1 xi2 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%g0, %hg0, HO0⟩, ⟨%g1, %hg1, HO1⟩, ⟨%g2, %hg2, HO2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hg0; obtain rfl := harg7.eq_unread hg1; obtain rfl := harg8.eq_unread hg2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO0]
    · iexists _; isplitr; · ipureintro; exact harg6.read_unread _
      iexact HO0
    isplitl [HO1]
    · iexists _; isplitr; · ipureintro; exact harg7.read_unread _
      iexact HO1
    isplitl [HO2]
    · iexists _; isplitr; · ipureintro; exact harg8.read_unread _
      iexact HO2
    isplitl [HS0]
    · iexists _; iexact HS0
    isplitl [HS1]
    · iexists _; iexact HS1
    iexists _; iexact HS2

end Cert.KernelIdeal.Hand

end
-- ==== Proof.KIRun0B.lean ====
/-
  Kernel 0's body run symbolically in case B of its two conditionals.
-/
import proofs.«172070_j13786845020972_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Kernel 0's body in case B (a middle point: the running columns are updated): on whole staging memrefs, the inputs at their contents, the outputs untouched, it runs to the
    continuation with each stored buffer holding the pieces the run finds (last first). -/
noncomputable def kernelRun0_B (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) :
    Σ' (LS0 : List (View.Piece (Elt F) S512x1 .f32)) (LS1 : List (View.Piece (Elt F) S512x1 .f32)), { LS2 : List (View.Piece (Elt F) S512x1 .f32) //
      ∀ (xi0 xi1 xi2 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi0
            ∗ owns (c : Thread nD τ) arg7 fullShare xi1
            ∗ owns (c : Thread nD τ) arg8 fullShare xi2
            ∗ owns (c : Thread nD τ) arg9 fullShare xs0
            ∗ owns (c : Thread nD τ) arg10 fullShare xs1
            ∗ owns (c : Thread nD τ) arg11 fullShare xs2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi0
                ∗ owns (c : Thread nD τ) arg7 fullShare xi1
                ∗ owns (c : Thread nD τ) arg8 fullShare xi2
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, fun xi0 xi1 xi2 E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%g0, %hg0, HO0⟩, ⟨%g1, %hg1, HO1⟩, ⟨%g2, %hg2, HO2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hg0; obtain rfl := harg7.eq_unread hg1; obtain rfl := harg8.eq_unread hg2; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO0]
    · iexists _; isplitr; · ipureintro; exact harg6.read_unread _
      iexact HO0
    isplitl [HO1]
    · iexists _; isplitr; · ipureintro; exact harg7.read_unread _
      iexact HO1
    isplitl [HO2]
    · iexists _; isplitr; · ipureintro; exact harg8.read_unread _
      iexact HO2
    isplitl [HS0]
    · iexists _; iexact HS0
    isplitl [HS1]
    · iexists _; iexact HS1
    iexists _; iexact HS2

end Cert.KernelIdeal.Hand

end
-- ==== Proof.KIRun0C.lean ====
/-
  Kernel 0's body run symbolically in case C of its two conditionals.
-/
import proofs.«172070_j13786845020972_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Kernel 0's body in case C (last point of a row block: the running columns are updated and written out): on whole staging memrefs, the inputs at their contents, it runs to the
    continuation with each stored buffer holding the pieces the run finds (last first). -/
noncomputable def kernelRun0_C (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32) :
    Σ' (LO0 : List (View.Piece (Elt F) S512x1 .f32)) (LO1 : List (View.Piece (Elt F) S512x1 .f32)) (LO2 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f LO0)
                ∗ (∃ f, arg7.view.loc (c : Thread nD τ) ↦[arg7.view.set]{fullShare} arg7.view.writes (Elt F) f LO1)
                ∗ (∃ f, arg8.view.loc (c : Thread nD τ) ↦[arg8.view.set]{fullShare} arg8.view.writes (Elt F) f LO2)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%do0, %g0, -, HO0⟩, ⟨%do1, %g1, -, HO1⟩, ⟨%do2, %g2, -, HO2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO0]
    · iexists _; iexact HO0
    isplitl [HO1]
    · iexists _; iexact HO1
    isplitl [HO2]
    · iexists _; iexact HO2
    isplitl [HS0]
    · iexists _; iexact HS0
    isplitl [HS1]
    · iexists _; iexact HS1
    iexists _; iexact HS2

end Cert.KernelIdeal.Hand

end
-- ==== Proof.KIRun1A.lean ====
/-
  Kernel 1's body run symbolically in case A of its two conditionals.
-/
import proofs.«172070_j13786845020972_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Kernel 1's body in case A (first point of a row block: the running columns are reset, then updated): on whole staging memrefs, the inputs at their contents, the outputs untouched, it runs to the
    continuation with each stored buffer holding the pieces the run finds (last first). -/
noncomputable def kernelRun1_A (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond1_0 i) (hc1 : ¬cond1_1 i)
    (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32)  :
    Σ' (LS0 : List (View.Piece (Elt F) S512x1 .f32)), { LS1 : List (View.Piece (Elt F) S512x1 .f32) //
      ∀ (xi0 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi0
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi0
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11) K } := by
  refine ⟨?_, ?_, fun xi0 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, HO0⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hg0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO0]
    · iexists _; isplitr; · ipureintro; exact harg9.read_unread _
      iexact HO0
    isplitl [HS0]
    · iexists _; iexact HS0
    iexists _; iexact HS1

end Cert.KernelIdeal.Hand

end
-- ==== Proof.KIRun1B.lean ====
/-
  Kernel 1's body run symbolically in case B of its two conditionals.
-/
import proofs.«172070_j13786845020972_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Kernel 1's body in case B (a middle point: the running columns are updated): on whole staging memrefs, the inputs at their contents, the outputs untouched, it runs to the
    continuation with each stored buffer holding the pieces the run finds (last first). -/
noncomputable def kernelRun1_B (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : ¬cond1_1 i)
    (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32) :
    Σ' (LS0 : List (View.Piece (Elt F) S512x1 .f32)), { LS1 : List (View.Piece (Elt F) S512x1 .f32) //
      ∀ (xi0 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare xi0
            ∗ owns (c : Thread nD τ) arg10 fullShare xs0
            ∗ owns (c : Thread nD τ) arg11 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare xi0
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11) K } := by
  refine ⟨?_, ?_, fun xi0 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%g0, %hg0, HO0⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hg0; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO0]
    · iexists _; isplitr; · ipureintro; exact harg9.read_unread _
      iexact HO0
    isplitl [HS0]
    · iexists _; iexact HS0
    iexists _; iexact HS1

end Cert.KernelIdeal.Hand

end
-- ==== Proof.KIRun1C.lean ====
/-
  Kernel 1's body run symbolically in case C of its two conditionals.
-/
import proofs.«172070_j13786845020972_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Kernel 1's body in case C (last point of a row block: the running columns are updated and written out): on whole staging memrefs, the inputs at their contents, it runs to the
    continuation with each stored buffer holding the pieces the run finds (last first). -/
noncomputable def kernelRun1_C (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i)
    (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32) :
    Σ' (LO0 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ (∃ d, owns (c : Thread nD τ) arg9 fullShare d)
            ∗ owns (c : Thread nD τ) arg10 fullShare xs0
            ∗ owns (c : Thread nD τ) arg11 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ (∃ f, arg9.view.loc (c : Thread nD τ) ↦[arg9.view.set]{fullShare} arg9.view.writes (Elt F) f LO0)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%do0, %g0, -, HO0⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO0]
    · iexists _; iexact HO0
    isplitl [HS0]
    · iexists _; iexact HS0
    iexists _; iexact HS1

end Cert.KernelIdeal.Hand

end
-- ==== Proof.KIPieces.lean ====
/-
  What each case's run leaves in the buffers it stores, read back as the kernels' payload functions of the blocks the
  point was handed: every store covers its 512 x 1 column whole, so a column reads back as the last payload stored,
  a load after a store reads the stored payload, and a load of an untouched buffer reads its contents.
-/
import proofs.«172070_j13786845020972_1_alg».proof.Proof.KIRun0A
import proofs.«172070_j13786845020972_1_alg».proof.Proof.KIRun0B
import proofs.«172070_j13786845020972_1_alg».proof.Proof.KIRun0C
import proofs.«172070_j13786845020972_1_alg».proof.Proof.KIRun1A
import proofs.«172070_j13786845020972_1_alg».proof.Proof.KIRun1B
import proofs.«172070_j13786845020972_1_alg».proof.Proof.KIRun1C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The running columns of the first kernel. -/
abbrev Acc0 (F : FTy → Type) [FloatOps F] : Type := FVec F S512x1 .f32 × FVec F S512x1 .f32 × FVec F S512x1 .f32
/-- The running columns of the second kernel. -/
abbrev Acc1 (F : FTy → Type) [FloatOps F] : Type := FVec F S512x1 .f32 × FVec F S512x1 .f32

/-- What the first kernel's columns are reset to. -/
def initB0 : Acc0 F := (k0_pay1, k0_pay2, k0_pay3)
/-- One point of the first kernel on the blocks it is handed: the three running columns after it, from those before. -/
def stepB0 (i : grid0.Coords) (x0 : Vec F S512x128 .f32) (x1 : Vec F S1024x128 .f32) (x2 : Vec F S512x1 .i32) (x3 : Vec F S1x1024 .i32) (a : Acc0 F) : Acc0 F :=
  (k0_pay10 (k0_pay4 x0 x1) (k0_pay6 x2) (k0_pay7 x3) a.1,
   k0_pay11 (k0_pay4 x0 x1) (k0_pay5 i) (k0_pay6 x2) (k0_pay7 x3) a.2.1,
   k0_pay12 (k0_pay5 i) (k0_pay6 x2) (k0_pay7 x3) a.2.2)
/-- What the second kernel's columns are reset to. -/
def initB1 : Acc1 F := (k1_pay3, k1_pay4)
/-- One point of the second kernel on the blocks it is handed. -/
def stepB1 (i : grid1.Coords) (x0 : Vec F S512x128 .f32) (x1 : Vec F S1024x128 .f32) (x2 : Vec F S512x1 .i32) (x3 : Vec F S1x1024 .i32)
    (x4 x5 : Vec F S512x1 .f32) (b : Acc1 F) : Acc1 F :=
  (k1_pay10 (k1_pay5 x0 x1) (k1_pay6 i) (k1_pay7 x2) (k1_pay8 x3) x4 b.1,
   k1_pay1 (k1_pay11 (k1_pay5 x0 x1) (k1_pay7 x2) (k1_pay8 x3) x5 b.2))

theorem hz2 : (![0, 0] : Fin 2 → ℕ) = fun _ => 0 := by funext a; fin_cases a <;> rfl

theorem ld0_S512x128 {Val : EltTy → Type} {e : EltTy} (inb : ∀ a, (![0, 0] : Fin 2 → ℕ) a + (![512, 128] : Fin 2 → ℕ) a ≤ S512x128.size a) (X : S512x128.Idx → Val e) :
    View.ld X (Rect.unit (s := S512x128) ![0, 0] ![512, 128] inb) = X := View.ld_unit_zero (S := S512x128) hz2 inb X
theorem ld0_S1024x128 {Val : EltTy → Type} {e : EltTy} (inb : ∀ a, (![0, 0] : Fin 2 → ℕ) a + (![1024, 128] : Fin 2 → ℕ) a ≤ S1024x128.size a) (X : S1024x128.Idx → Val e) :
    View.ld X (Rect.unit (s := S1024x128) ![0, 0] ![1024, 128] inb) = X := View.ld_unit_zero (S := S1024x128) hz2 inb X
theorem ld0_S512x1 {Val : EltTy → Type} {e : EltTy} (inb : ∀ a, (![0, 0] : Fin 2 → ℕ) a + (![512, 1] : Fin 2 → ℕ) a ≤ S512x1.size a) (X : S512x1.Idx → Val e) :
    View.ld X (Rect.unit (s := S512x1) ![0, 0] ![512, 1] inb) = X := View.ld_unit_zero (S := S512x1) hz2 inb X
theorem ld0_S1x1024 {Val : EltTy → Type} {e : EltTy} (inb : ∀ a, (![0, 0] : Fin 2 → ℕ) a + (![1, 1024] : Fin 2 → ℕ) a ≤ S1x1024.size a) (X : S1x1024.Idx → Val e) :
    View.ld X (Rect.unit (s := S1x1024) ![0, 0] ![1, 1024] inb) = X := View.ld_unit_zero (S := S1x1024) hz2 inb X
theorem rc0_S512x1 {Val : EltTy → Type} [∀ e, Nonempty (Val e)] {sg : RefSig} {κ : Kind} {sp : Space} {e : EltTy} (v : View sg κ sp S512x1 e)
    (inb : ∀ a, (![0, 0] : Fin 2 → ℕ) a + (![512, 1] : Fin 2 → ℕ) a ≤ S512x1.size a) (w : S512x1.Idx → Val e) :
    v.readCov [(⟨Rect.unit (s := S512x1) ![0, 0] ![512, 1] inb, w⟩ : View.Piece Val S512x1 e)] (Rect.unit (s := S512x1) ![0, 0] ![512, 1] inb).toLoadRect = w :=
  View.readCov_unit_zero (S := S512x1) v hz2 inb w

theorem read0_A_S0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x1 .i32) (x3 : Vec F S1x1024 .i32)
    {sp : Space} (v : View sig .tc sp S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 hc0 hc1 x0 x1 x2 x3 ).1) = (stepB0 i x0 x1 x2 x3 initB0).1 := by
  unfold kernelRun0_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_A_S1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x1 .i32) (x3 : Vec F S1x1024 .i32)
    {sp : Space} (v : View sig .tc sp S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 hc0 hc1 x0 x1 x2 x3 ).2.1) = (stepB0 i x0 x1 x2 x3 initB0).2.1 := by
  unfold kernelRun0_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_A_S2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i) (x0 : Vec F S512x128 .f32) (x1 : Vec F S1024x128 .f32) (x2 : Vec F S512x1 .i32) (x3 : Vec F S1x1024 .i32)
    {sp : Space} (v : View sig .tc sp S512x1 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 hc0 hc1 x0 x1 x2 x3 ).2.2.1) = (stepB0 i x0 x1 x2 x3 initB0).2.2 := by
  unfold kernelRun0_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_B_S0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2).1) = (stepB0 i x0 x1 x2 x3 (xs0, xs1, xs2)).1 := by
  unfold kernelRun0_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_B_S1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.1) = (stepB0 i x0 x1 x2 x3 (xs0, xs1, xs2)).2.1 := by
  unfold kernelRun0_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_B_S2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 hc0 hc1 x0 x1 x2 x3 xs0 xs1 xs2).2.2.1) = (stepB0 i x0 x1 x2 x3 (xs0, xs1, xs2)).2.2 := by
  unfold kernelRun0_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_O0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).1) = (stepB0 i x0 x1 x2 x3 (xs0, xs1, xs2)).1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_O1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.1) = (stepB0 i x0 x1 x2 x3 (xs0, xs1, xs2)).2.1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_O2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.1) = (stepB0 i x0 x1 x2 x3 (xs0, xs1, xs2)).2.2 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_S0 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.1) = (stepB0 i x0 x1 x2 x3 (xs0, xs1, xs2)).1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_S1 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.1) = (stepB0 i x0 x1 x2 x3 (xs0, xs1, xs2)).2.1 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read0_C_S2 (c : Dev nD) (i : grid0.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i) (x0 : Vec F S512x128 .f32) (x1 : Vec F S1024x128 .f32) (x2 : Vec F S512x1 .i32) (x3 : Vec F S1x1024 .i32) (xs0 : Vec F S512x1 .f32) (xs1 : Vec F S512x1 .f32) (xs2 : Vec F S512x1 .f32)
    {sp : Space} (v : View sig .tc sp S512x1 .f32) (f : v.ty.Contents (Elt F)) :
    v.read (Elt F) (v.writes (Elt F) f (kernelRun0_C c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1) = (stepB0 i x0 x1 x2 x3 (xs0, xs1, xs2)).2.2 := by
  unfold kernelRun0_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_A_S0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32)
    {sp : Space} (v : View sig .tc sp S512x1 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 arg11 harg11 hc0 hc1 x0 x1 x2 x3 x4 x5 x6 ).1) = (stepB1 i x0 x1 x2 x3 x4 x5 initB1).1 := by
  unfold kernelRun1_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_A_S1 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32)
    {sp : Space} (v : View sig .tc sp S512x1 .f32) (f : v.ty.Contents (Elt F)) :
    v.read (Elt F) (v.writes (Elt F) f (kernelRun1_A c i arg2 harg2 arg3 harg3 arg4 harg4 arg5 harg5 arg6 harg6 arg7 harg7 arg8 harg8 arg9 harg9 arg10 harg10 arg11 harg11 hc0 hc1 x0 x1 x2 x3 x4 x5 x6 ).2.1) = (stepB1 i x0 x1 x2 x3 x4 x5 initB1).2 := by
  unfold kernelRun1_A
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_B_S0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).1) = (stepB1 i x0 x1 x2 x3 x4 x5 (xs0, xs1)).1 := by
  unfold kernelRun1_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_B_S1 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : ¬cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1) = (stepB1 i x0 x1 x2 x3 x4 x5 (xs0, xs1)).2 := by
  unfold kernelRun1_B
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_C_O0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1) = k1_pay2 x6 (stepB1 i x0 x1 x2 x3 x4 x5 (xs0, xs1)).1 (stepB1 i x0 x1 x2 x3 x4 x5 (xs0, xs1)).2 := by
  unfold kernelRun1_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_C_S0 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1) = (stepB1 i x0 x1 x2 x3 x4 x5 (xs0, xs1)).1 := by
  unfold kernelRun1_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

theorem read1_C_S1 (c : Dev nD) (i : grid1.Coords) (arg2 : Memref sig .tc .vmem S512x128 .f32) (harg2 : arg2.IsWhole) (arg3 : Memref sig .tc .vmem S1024x128 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond1_0 i) (hc1 : cond1_1 i) (x0 : Vec F S512x128 .f32) (x1 : Vec F S1024x128 .f32) (x2 : Vec F S512x1 .i32) (x3 : Vec F S1x1024 .i32) (x4 : Vec F S512x1 .f32) (x5 : Vec F S512x1 .f32) (x6 : Vec F S512x1 .f32) (xs0 : Vec F S512x1 .f32) (xs1 : Vec F S512x1 .f32)
    {sp : Space} (v : View sig .tc sp S512x1 .f32) (f : v.ty.Contents (Elt F)) :
    v.read (Elt F) (v.writes (Elt F) f (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1) = (stepB1 i x0 x1 x2 x3 x4 x5 (xs0, xs1)).2 := by
  unfold kernelRun1_C
  dsimp only
  sl_unfold_words
  rw [View.read_writes_eq_canon _ _ _ (View.cover_of_tiledL _ S512x1.size (by sl_kernel_rfl)), View.canon_cons_unit_zero hz2]
  simp only [rc0_S512x1, View.readAt_eq_ld, harg2.read_unread, harg3.read_unread, harg4.read_unread, harg5.read_unread, harg6.read_unread, harg7.read_unread, harg8.read_unread, harg9.read_unread, harg10.read_unread, harg11.read_unread, ld0_S512x128, ld0_S1024x128, ld0_S512x1, ld0_S1x1024]
  rfl

end Cert.KernelIdeal.Hand

end
-- ==== Proof.KIFrame0.lean ====
/-
  Kernel 0 as a pipeline, at a parameter V (the buffers' contents when its region is entered): the blocks its windows
  read, the running columns after each grid point (reset at the first of a row block's eight points), the proof data —
  every input's buffer at its block, the outputs at the running values, the scratch columns carried in the invariant —
  and the body obligation at every point, by the case the point is in.
-/
import proofs.«172070_j13786845020972_1_alg».proof.Proof.KIPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The running columns after point n: reset at the first point of each row block, then updated point by point. -/
def accF0 (c : Dev nD) : (n : ℕ) → n < cfg0.N → Acc0 F
  | 0, hn => stepB0 (grid0.coords ⟨0, hn⟩) (iblk0 V c 0 ⟨0, hn⟩) (iblk0 V c 1 ⟨0, hn⟩) (iblk0 V c 2 ⟨0, hn⟩) (iblk0 V c 3 ⟨0, hn⟩) initB0
  | n + 1, hn => stepB0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (if (n + 1) % 8 = 0 then initB0 else accF0 c n (Nat.lt_of_succ_lt hn))

theorem accF0_first (c : Dev nD) (t : Fin cfg0.N) (h : t.val % 8 = 0) :
    accF0 V c t.val t.isLt = stepB0 (grid0.coords t) (iblk0 V c 0 t) (iblk0 V c 1 t) (iblk0 V c 2 t) (iblk0 V c 3 t) initB0 := by
  obtain ⟨n, hn⟩ := t
  cases n with
  | zero => rfl
  | succ k => simp only [accF0, if_pos h]

theorem accF0_next (c : Dev nD) (t : Fin cfg0.N) (h : ¬t.val % 8 = 0) :
    accF0 V c t.val t.isLt = stepB0 (grid0.coords t) (iblk0 V c 0 t) (iblk0 V c 1 t) (iblk0 V c 2 t) (iblk0 V c 3 t) (accF0 V c (t.val - 1) (Nat.lt_of_le_of_lt (Nat.sub_le _ _) t.isLt)) := by
  obtain ⟨n, hn⟩ := t
  cases n with
  | zero => exact absurd rfl h
  | succ k => simp only [accF0, if_neg h, Nat.add_sub_cancel]

/-- The region invariant before position n: before the first point the region's own; afterwards the scratch columns at
    the running values the point before left, beside what gives the region's invariant back. -/
def PhiS0 (c : Dev nD) : (n : ℕ) → n ≤ cfg0.N → sProp 𝕄
  | 0, _ => Pipeline.ΦA spec0 c
  | n + 1, hn => iprop(owns (c : Thread nD τ) scM0_0 fullShare ((accF0 V c n hn).1) ∗ owns (c : Thread nD τ) scM0_1 fullShare ((accF0 V c n hn).2.1) ∗ owns (c : Thread nD τ) scM0_2 fullShare ((accF0 V c n hn).2.2) ∗ Back0 c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0_0 fullShare ((accF0 V c n hn).1) ∗ owns (c : Thread nD τ) scM0_1 fullShare ((accF0 V c n hn).2.1) ∗ owns (c : Thread nD τ) scM0_2 fullShare ((accF0 V c n hn).2.2) ∗ Back0 c) := rfl
theorem PhiS0_pos (c : Dev nD) (n : ℕ) (h : n ≤ cfg0.N) (hz : n ≠ 0) :
    PhiS0 V c n h = iprop(owns (c : Thread nD τ) scM0_0 fullShare ((accF0 V c (n - 1) (by omega)).1) ∗ owns (c : Thread nD τ) scM0_1 fullShare ((accF0 V c (n - 1) (by omega)).2.1) ∗ owns (c : Thread nD τ) scM0_2 fullShare ((accF0 V c (n - 1) (by omega)).2.2) ∗ Back0 c) := by
  cases n with
  | zero => exact absurd rfl hz
  | succ n => rfl

/-- The proof data of pipeline 0 on core c. The two windows on the embedding matrix hold complementary halves of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (accF0 V c t.val t.isLt).1
    | ⟨5, _⟩ => (accF0 V c t.val t.isLt).2.1
    | ⟨6, _⟩ => (accF0 V c t.val t.isLt).2.2
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (accF0 V c t.val t.isLt).1 := by dsimp only [dat0]
theorem after0_5 (c : Dev nD) (t : Fin cfg0.N) : (dat0 V c).after 5 t = (accF0 V c t.val t.isLt).2.1 := by dsimp only [dat0]
theorem after0_6 (c : Dev nD) (t : Fin cfg0.N) : (dat0 V c).after 6 t = (accF0 V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in; that
    case's run applies; the invariant hands the body the scratch columns at what the point before left (at anything at
    the first point of a row block) and takes them back at this point's running values, which the run's stores read
    back as; an idle output is handed back untouched, a live one holds the value written out. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt N_0
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [Dat.leavesExact_idle (dat0 V c) 5 t (idleAt0_5 t hc1) (noFlush0_5 t hc1)]
    rw [Dat.leavesExact_idle (dat0 V c) 6 t (idleAt0_6 t hc1) (noFlush0_6 t hc1)]
    rw [accF0_first V c t h0]
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA0_split c) $$ HΦ
      icases HΦ' with ⟨HS0, HS1, HS2, HB⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_A_S0 c (grid0.coords t) _ _ _ _ _ _ _ _ _ _ _ _ _ _ _ _ _ _ _ _ hc0 hc1 (iblk0 V c 0 t) (iblk0 V c 1 t) (iblk0 V c 2 t) (iblk0 V c 3 t) _ _
        isplitl [HS1]
        · unfold owns; iexists _; isplitr
          swap; · iexact HS1
          ipureintro; exact read0_A_S1 c (grid0.coords t) _ _ _ _ _ _ _ _ _ _ _ _ _ _ _ _ _ _ _ _ hc0 hc1 (iblk0 V c 0 t) (iblk0 V c 1 t) (iblk0 V c 2 t) (iblk0 V c 3 t) _ _
        isplitl [HS2]
        · unfold owns; iexists _; isplitr
          swap; · iexact HS2
          ipureintro; exact read0_A_S2 c (grid0.coords t) _ _ _ _ _ _ _ _ _ _ _ _ _ _ _ _ _ _ _ _ hc0 hc1 (iblk0 V c 0 t) (iblk0 V c 1 t) (iblk0 V c 2 t) (iblk0 V c 3 t) _ _
        iexact HB
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS0_castSucc V c t, PhiS0_pos V c _ _ hz]
      iintro ⟨⟨HS0, HS1, HS2, HB⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ hc0 hc1 (iblk0 V c 0 t) (iblk0 V c 1 t) (iblk0 V c 2 t) (iblk0 V c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_A_S0 c (grid0.coords t) _ _ _ _ _ _ _ _ _ _ _ _ _ _ _ _ _ _ _ _ hc0 hc1 (iblk0 V c 0 t) (iblk0 V c 1 t) (iblk0 V c 2 t) (iblk0 V c 3 t) _ _
        isplitl [HS1]
        · unfold owns; iexists _; isplitr
          swap; · iexact HS1
          ipureintro; exact read0_A_S1 c (grid0.coords t) _ _ _ _ _ _ _ _ _ _ _ _ _ _ _ _ _ _ _ _ hc0 hc1 (iblk0 V c 0 t) (iblk0 V c 1 t) (iblk0 V c 2 t) (iblk0 V c 3 t) _ _
        isplitl [HS2]
        · unfold owns; iexists _; isplitr
          swap; · iexact HS2
          ipureintro; exact read0_A_S2 c (grid0.coords t) _ _ _ _ _ _ _ _ _ _ _ _ _ _ _ _ _ _ _ _ hc0 hc1 (iblk0 V c 0 t) (iblk0 V c 1 t) (iblk0 V c 2 t) (iblk0 V c 3 t) _ _
        iexact HB
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hc0 : ¬cond0_0 (grid0.coords t) := fun h => h0 ((hcond0_0 t).mp h)
    have hz : t.val ≠ 0 := fun h => h0 (by rw [h])
    by_cases h1 : t.val % 8 = 7
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4_C t hc1], after0_4]
      rw [show (dat0 V c).leavesExact 5 t = owns (c : Thread nD τ) (ms0_5 t) fullShare ((dat0 V c).after 5 t) from by
        unfold Dat.leavesExact; rw [liveAt0_5_C t hc1], after0_5]
      rw [show (dat0 V c).leavesExact 6 t = owns (c : Thread nD τ) (ms0_6 t) fullShare ((dat0 V c).after 6 t) from by
        unfold Dat.leavesExact; rw [liveAt0_6_C t hc1], after0_6]
      rw [accF0_next V c t h0]
      rw [PhiS0_castSucc V c t, PhiS0_pos V c _ _ hz]
      iintro ⟨⟨HS0, HS1, HS2, HB⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ hc0 hc1 (iblk0 V c 0 t) (iblk0 V c 1 t) (iblk0 V c 2 t) (iblk0 V c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_C_S0 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS1]
        · unfold owns; iexists _; isplitr
          swap; · iexact HS1
          ipureintro; exact read0_C_S1 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS2]
        · unfold owns; iexists _; isplitr
          swap; · iexact HS2
          ipureintro; exact read0_C_S2 c (grid0.coords t) _ _ _ _ _ _ _ _ _ _ _ _ _ _ _ _ _ _ _ _ hc0 hc1 (iblk0 V c 0 t) (iblk0 V c 1 t) (iblk0 V c 2 t) (iblk0 V c 3 t) _ _ _ _ _
        iexact HB
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact read0_C_O0 c (grid0.coords t) _ _ _ _ _ _ _ _ _ _ _ _ _ _ _ _ _ _ _ _ hc0 hc1 (iblk0 V c 0 t) (iblk0 V c 1 t) (iblk0 V c 2 t) (iblk0 V c 3 t) _ _ _ _ _
      isplitl [H5]
      · unfold owns; iexists _; isplitr
        swap; · iexact H5
        ipureintro; exact read0_C_O1 c (grid0.coords t) _ _ _ _ _ _ _ _ _ _ _ _ _ _ _ _ _ _ _ _ hc0 hc1 (iblk0 V c 0 t) (iblk0 V c 1 t) (iblk0 V c 2 t) (iblk0 V c 3 t) _ _ _ _ _
      unfold owns; iexists _; isplitr
      swap; · iexact H6
      ipureintro; exact read0_C_O2 c (grid0.coords t) _ _ _ _ _ _ _ _ _ _ _ _ _ _ _ _ _ _ _ _ hc0 hc1 (iblk0 V c 0 t) (iblk0 V c 1 t) (iblk0 V c 2 t) (iblk0 V c 3 t) _ _ _ _ _
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      rw [Dat.leavesExact_idle (dat0 V c) 6 t (idleAt0_6 t hc1) (noFlush0_6 t hc1)]
      rw [accF0_next V c t h0]
      rw [PhiS0_castSucc V c t, PhiS0_pos V c _ _ hz]
      iintro ⟨⟨HS0, HS1, HS2, HB⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ hc0 hc1 (iblk0 V c 0 t) (iblk0 V c 1 t) (iblk0 V c 2 t) (iblk0 V c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 HB]
      · isplitl [HS0]
        · unfold owns; iexists _; isplitr
          swap; · iexact HS0
          ipureintro; exact read0_B_S0 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS1]
        · unfold owns; iexists _; isplitr
          swap; · iexact HS1
          ipureintro; exact read0_B_S1 c (grid0.coords t) _ _ _ _ _ _ _ _ _ _ _ _ _ _ _ _ _ _ _ _ hc0 hc1 (iblk0 V c 0 t) (iblk0 V c 1 t) (iblk0 V c 2 t) (iblk0 V c 3 t) _ _ _ _ _
        isplitl [HS2]
        · unfold owns; iexists _; isplitr
          swap; · iexact HS2
          ipureintro; exact read0_B_S2 c (grid0.coords t) _ _ _ _ _ _ _ _ _ _ _ _ _ _ _ _ _ _ _ _ hc0 hc1 (iblk0 V c 0 t) (iblk0 V c 1 t) (iblk0 V c 2 t) (iblk0 V c 3 t) _ _ _ _ _
        iexact HB
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the region's own back: the scratch columns' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  unfold Back0
  iintro ⟨HS0, HS1, HS2, HB⟩
  iapply HB
  isplitl [HS0]; · iexists _; iexact HS0
  isplitl [HS1]; · iexists _; iexact HS1
  iexists _; iexact HS2

end

end Cert.KernelIdeal.Hand

end
-- ==== Proof.KIFrame1.lean ====
/-
  Kernel 1 as a pipeline, at a parameter V (the buffers' contents when its region is entered): the blocks its windows
  read, the running columns after each grid point (reset at the first of a row block's eight points), the proof data —
  every input's buffer at its block, the output at the running value, the scratch columns carried in the invariant —
  and the body obligation at every point, by the case the point is in.
-/
import proofs.«172070_j13786845020972_1_alg».proof.Proof.KIPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The running columns after point n: reset at the first point of each row block, then updated point by point. -/
def accF1 (c : Dev nD) : (n : ℕ) → n < cfg1.N → Acc1 F
  | 0, hn => stepB1 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) initB1
  | n + 1, hn => stepB1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (if (n + 1) % 8 = 0 then initB1 else accF1 c n (Nat.lt_of_succ_lt hn))

theorem accF1_first (c : Dev nD) (t : Fin cfg1.N) (h : t.val % 8 = 0) :
    accF1 V c t.val t.isLt = stepB1 (grid1.coords t) (iblk1 V c 0 t) (iblk1 V c 1 t) (iblk1 V c 2 t) (iblk1 V c 3 t) (iblk1 V c 4 t) (iblk1 V c 5 t) initB1 := by
  obtain ⟨n, hn⟩ := t
  cases n with
  | zero => rfl
  | succ k => simp only [accF1, if_pos h]

theorem accF1_next (c : Dev nD) (t : Fin cfg1.N) (h : ¬t.val % 8 = 0) :
    accF1 V c t.val t.isLt = stepB1 (grid1.coords t) (iblk1 V c 0 t) (iblk1 V c 1 t) (iblk1 V c 2 t) (iblk1 V c 3 t) (iblk1 V c 4 t) (iblk1 V c 5 t) (accF1 V c (t.val - 1) (Nat.lt_of_le_of_lt (Nat.sub_le _ _) t.isLt)) := by
  obtain ⟨n, hn⟩ := t
  cases n with
  | zero => exact absurd rfl h
  | succ k => simp only [accF1, if_neg h, Nat.add_sub_cancel]

/-- The region invariant before position n: before the first point the region's own; afterwards the scratch columns at
    the running values the point before left, beside what gives the region's invariant back. -/
def PhiS1 (c : Dev nD) : (n : ℕ) → n ≤ cfg1.N → sProp 𝕄
  | 0, _ => Pipeline.ΦA spec1 c
  | n + 1, hn => iprop(owns (c : Thread nD τ) scM1_0 fullShare ((accF1 V c n hn).1) ∗ owns (c : Thread nD τ) scM1_1 fullShare ((accF1 V c n hn).2) ∗ Back1 c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1_0 fullShare ((accF1 V c n hn).1) ∗ owns (c : Thread nD τ) scM1_1 fullShare ((accF1 V c n hn).2) ∗ Back1 c) := rfl
theorem PhiS1_pos (c : Dev nD) (n : ℕ) (h : n ≤ cfg1.N) (hz : n ≠ 0) :
    PhiS1 V c n h = iprop(owns (c : Thread nD τ) scM1_0 fullShare ((accF1 V c (n - 1) (by omega)).1) ∗ owns (c : Thread nD τ) scM1_1 fullShare ((accF1 V c (n - 1) (by omega)).2) ∗ Back1 c) := by
  cases n with
  | zero => exact absurd rfl hz
  | succ n => rfl

/-- The proof data of pipeline 1 on core c. The two windows on the embedding matrix hold complementary halves of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay2 (iblk1 V c 6 t) (accF1 V c t.val t.isLt).1 (accF1 V c t.val t.isLt).2
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = k1_pay2 (iblk1 V c 6 t) (accF1 V c t.val t.isLt).1 (accF1 V c t.val t.isLt).2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; the closed forms say which case the point is in; that
    case's run applies; the invariant hands the body the scratch columns at what the point before left (at anything at
    the first point of a row block) and takes them back at this point's running values, which the run's stores read
    back as; an idle output is handed back untouched, a live one holds the value written out. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt N_1
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t hc1) (noFlush1_7 t hc1)]
    rw [accF1_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := (PhiA1_split c) $$ HΦ
      icases HΦ' with ⟨HS0, HS1, HB⟩
      iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HB]
      · isplitl [HS0]
        · unfold owns; iexists _; isplitr
          swap; · iexact HS0
          ipureintro; exact read1_A_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        isplitl [HS1]
        · unfold owns; iexists _; isplitr
          swap; · iexact HS1
          ipureintro; exact read1_A_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨HS0, HS1, HB⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 HB]
      · isplitl [HS0]
        · unfold owns; iexists _; isplitr
          swap; · iexact HS0
          ipureintro; exact read1_A_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        isplitl [HS1]
        · unfold owns; iexists _; isplitr
          swap; · iexact HS1
          ipureintro; exact read1_A_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hc0 : ¬cond1_0 (grid1.coords t) := fun h => h0 ((hcond1_0 t).mp h)
    have hz : t.val ≠ 0 := fun h => h0 (by rw [h])
    by_cases h1 : t.val % 8 = 7
    · have hc1 : cond1_1 (grid1.coords t) := (hcond1_1 t).mpr h1
      rw [show (dat1 V c).leavesExact 7 t = owns (c : Thread nD τ) (ms1_7 t) fullShare ((dat1 V c).after 7 t) from by
        unfold Dat.leavesExact; rw [liveAt1_7_C t hc1], after1_7]
      rw [accF1_next V c t h0]
      rw [PhiS1_castSucc V c t, PhiS1_pos V c _ _ hz]
      iintro ⟨⟨HS0, HS1, HB⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, ⟨%e7, H7⟩, ⟨%es0, HS0⟩, ⟨%es1, HS1⟩⟩
      isplitl [HS0 HS1 HB]
      · isplitl [HS0]
        · unfold owns; iexists _; isplitr
          swap; · iexact HS0
          ipureintro; exact read1_C_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        isplitl [HS1]
        · unfold owns; iexists _; isplitr
          swap; · iexact HS1
          ipureintro; exact read1_C_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact read1_C_O0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
    · have hc1 : ¬cond1_1 (grid1.coords t) := fun h => h1 ((hcond1_1 t).mp h)
      rw [Dat.leavesExact_idle (dat1 V c) 7 t (idleAt1_7 t hc1) (noFlush1_7 t hc1)]
      rw [accF1_next V c t h0]
      rw [PhiS1_castSucc V c t, PhiS1_pos V c _ _ hz]
      iintro ⟨⟨HS0, HS1, HB⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 HB]
      · isplitl [HS0]
        · unfold owns; iexists _; isplitr
          swap; · iexact HS0
          ipureintro; exact read1_B_S0 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        isplitl [HS1]
        · unfold owns; iexists _; isplitr
          swap; · iexact HS1
          ipureintro; exact read1_B_S1 c (grid1.coords t) _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) (iblk1 V c 6 t) _ _ _ _
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's own back: the scratch columns' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold Back1
  iintro ⟨HS0, HS1, HB⟩
  iapply HB
  isplitl [HS0]; · iexists _; iexact HS0
  iexists _; iexact HS1

end

end Cert.KernelIdeal.Hand

end
-- ==== Proof.KIShare.lean ====
/-
  A region's arrays and the core's unscoped buffers, when two windows read one array.
  Both pipelines read the embedding matrix through two windows (a row block and a column block). At a region's entry
  the matrix's buffer, held whole at the full share, is dealt to the two windows as the two halves of the full share;
  at the exit the halves, which hold the same contents, are joined back. Every other array belongs to one window and
  is held at the full share throughout.
-/
import proofs.«172070_j13786845020972_1_alg».proof.Proof.KIShared
import Idealize.ShloMosaic.Rules.PointsTo

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Pipeline 0 -/

/-- The distinct buffers behind pipeline 0's arrays, one by one. -/
theorem arrBufs0_eq (c : Dev nD) (V : (b : Ref sig .tc) → Buf (Elt F) ((c : Thread nD τ).loc b)) :
    (Pipeline.arrBufs spec0 c V : sProp 𝕄) = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2_0) ↦{fullShare} V main_v2_0) ∗ (((c : Thread nD τ).loc main_v2_1) ↦{fullShare} V main_v2_1) ∗ (((c : Thread nD τ).loc main_v2_2) ↦{fullShare} V main_v2_2)) := by
  unfold Pipeline.arrBufs
  exact bigSep_eq_bigSepL_of_eq [main_arg0, main_v0, main_v1, main_v2_0, main_v2_1, main_v2_2] (by decide) (by decide) _

/-- Pipeline 0's arrays at contents Fn, window by window, for proof data that deals the embedding matrix to its two
    windows as the two halves of the full share. -/
theorem arrays0_eq {c : Dev nD} (dat : Dat τ (Elt F) Unit ℕ (UR sig nD τ) ℕ cfg0 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare)
    (Fn : (w : Fin cfg0.W) → Buf (Elt F) ((cfg0.win w).arr.view.loc (c : Thread nD τ))) :
    (dat.arrays Fn : sProp 𝕄) = iprop((((c : Thread nD τ).loc main_arg0) ↦{fullShare.left} Fn 0) ∗ (((c : Thread nD τ).loc main_arg0) ↦{fullShare.right} Fn 1) ∗ (((c : Thread nD τ).loc main_v0) ↦{fullShare} Fn 2) ∗ (((c : Thread nD τ).loc main_v1) ↦{fullShare} Fn 3) ∗ (((c : Thread nD τ).loc main_v2_0) ↦{fullShare} Fn 4) ∗ (((c : Thread nD τ).loc main_v2_1) ↦{fullShare} Fn 5) ∗ (((c : Thread nD τ).loc main_v2_2) ↦{fullShare} Fn 6)) := by
  have e : (dat.arrays Fn : sProp 𝕄) = bigSep Finset.univ fun w : Fin cfg0.W => (((c : Thread nD τ).loc (Pipeline.arrRef spec0 w)) ↦{dat.share w} Fn w : sProp 𝕄) := by
    unfold Dat.arrays
    exact bigSep_congr fun w _ => by rw [(arr_whole0 w).set_eq_univ]
  rw [e, bigSep_W0, h0, h1, h2, h3, h4, h5, h6]

/-- ENTRY: the core's unscoped buffers at contents V are pipeline 0's arrays at V and the rest. -/
theorem entry0 {c : Dev nD} (dat : Dat τ (Elt F) Unit ℕ (UR sig nD τ) ℕ cfg0 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare)
    (V : (b : Ref sig .tc) → Buf (Elt F) ((c : Thread nD τ).loc b))
    (Fn : (w : Fin cfg0.W) → Buf (Elt F) ((cfg0.win w).arr.view.loc (c : Thread nD τ))) (hF : ∀ w, Fn w = V (Pipeline.arrRef spec0 w)) :
    (unscopedBufs c V : sProp 𝕄) ⊢ iprop(dat.arrays Fn ∗ Pipeline.unscopedRest spec0 c V) := by
  have hs := Pipeline.unscopedBufs_split₀ (Ix := Unit) (Name := ℕ) (U := UR sig nD τ) (Lvl := ℕ) cfgs (0 : Fin 2) winFacts₀0.arr_unscoped c V
  rw [show (unscopedBufs c V : sProp 𝕄) = iprop(Pipeline.arrBufs spec0 c V ∗ Pipeline.unscopedRest spec0 c V) from hs]
  refine sep_mono ?_ .rfl
  rw [arrBufs0_eq, arrays0_eq dat h0 h1 h2 h3 h4 h5 h6, hF 0, hF 1, hF 2, hF 3, hF 4, hF 5, hF 6]
  iintro ⟨B0, B1, B2, B3, B4, B5⟩
  ihave Hh := (pointsTo_share (PosShare.mem_left_op_right fullShare)).1 $$ B0
  icases Hh with ⟨A0, A1⟩
  isplitl [A0]; · iexact A0
  isplitl [A1]; · iexact A1
  isplitl [B1]; · iexact B1
  isplitl [B2]; · iexact B2
  isplitl [B3]; · iexact B3
  isplitl [B4]; · iexact B4
  iexact B5

/-- EXIT: pipeline 0's arrays at contents Fn and the rest at V are the core's unscoped buffers at any valuation V'
    that has the arrays at Fn and agrees with V off them. -/
theorem exit0 {c : Dev nD} (dat : Dat τ (Elt F) Unit ℕ (UR sig nD τ) ℕ cfg0 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare)
    (V V' : (b : Ref sig .tc) → Buf (Elt F) ((c : Thread nD τ).loc b))
    (Fn : (w : Fin cfg0.W) → Buf (Elt F) ((cfg0.win w).arr.view.loc (c : Thread nD τ))) (hF : ∀ w, Fn w = V' (Pipeline.arrRef spec0 w))
    (hrest : ∀ b, b ∉ Finset.univ.image (Pipeline.arrRef spec0) → V' b = V b) :
    iprop(dat.arrays Fn ∗ Pipeline.unscopedRest spec0 c V) ⊢ (unscopedBufs c V' : sProp 𝕄) := by
  have hs := Pipeline.unscopedBufs_split₀ (Ix := Unit) (Name := ℕ) (U := UR sig nD τ) (Lvl := ℕ) cfgs (0 : Fin 2) winFacts₀0.arr_unscoped c V'
  rw [show (unscopedBufs c V' : sProp 𝕄) = iprop(Pipeline.arrBufs spec0 c V' ∗ Pipeline.unscopedRest spec0 c V') from hs]
  refine sep_mono ?_ (Entails.of_eq ?_)
  · rw [arrBufs0_eq, arrays0_eq dat h0 h1 h2 h3 h4 h5 h6, hF 0, hF 1, hF 2, hF 3, hF 4, hF 5, hF 6]
    iintro ⟨A0, A1, A2, A3, A4, A5, A6⟩
    isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    iexact A6
  · unfold Pipeline.unscopedRest
    exact bigSep_congr fun b hb => by rw [hrest b (Finset.mem_sdiff.mp hb).2]

/-! ## Pipeline 1 -/

/-- The distinct buffers behind pipeline 1's arrays, one by one. -/
theorem arrBufs1_eq (c : Dev nD) (V : (b : Ref sig .tc) → Buf (Elt F) ((c : Thread nD τ).loc b)) :
    (Pipeline.arrBufs spec1 c V : sProp 𝕄) = iprop((((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v2_0) ↦{fullShare} V main_v2_0) ∗ (((c : Thread nD τ).loc main_v2_1) ↦{fullShare} V main_v2_1) ∗ (((c : Thread nD τ).loc main_v2_2) ↦{fullShare} V main_v2_2) ∗ (((c : Thread nD τ).loc main_v3) ↦{fullShare} V main_v3)) := by
  unfold Pipeline.arrBufs
  exact bigSep_eq_bigSepL_of_eq [main_arg0, main_v0, main_v1, main_v2_0, main_v2_1, main_v2_2, main_v3] (by decide) (by decide) _

/-- Pipeline 1's arrays at contents Fn, window by window, for proof data that deals the embedding matrix to its two
    windows as the two halves of the full share. -/
theorem arrays1_eq {c : Dev nD} (dat : Dat τ (Elt F) Unit ℕ (UR sig nD τ) ℕ cfg1 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare) (h7 : dat.share 7 = fullShare)
    (Fn : (w : Fin cfg1.W) → Buf (Elt F) ((cfg1.win w).arr.view.loc (c : Thread nD τ))) :
    (dat.arrays Fn : sProp 𝕄) = iprop((((c : Thread nD τ).loc main_arg0) ↦{fullShare.left} Fn 0) ∗ (((c : Thread nD τ).loc main_arg0) ↦{fullShare.right} Fn 1) ∗ (((c : Thread nD τ).loc main_v0) ↦{fullShare} Fn 2) ∗ (((c : Thread nD τ).loc main_v1) ↦{fullShare} Fn 3) ∗ (((c : Thread nD τ).loc main_v2_0) ↦{fullShare} Fn 4) ∗ (((c : Thread nD τ).loc main_v2_1) ↦{fullShare} Fn 5) ∗ (((c : Thread nD τ).loc main_v2_2) ↦{fullShare} Fn 6) ∗ (((c : Thread nD τ).loc main_v3) ↦{fullShare} Fn 7)) := by
  have e : (dat.arrays Fn : sProp 𝕄) = bigSep Finset.univ fun w : Fin cfg1.W => (((c : Thread nD τ).loc (Pipeline.arrRef spec1 w)) ↦{dat.share w} Fn w : sProp 𝕄) := by
    unfold Dat.arrays
    exact bigSep_congr fun w _ => by rw [(arr_whole1 w).set_eq_univ]
  rw [e, bigSep_W1, h0, h1, h2, h3, h4, h5, h6, h7]

/-- ENTRY: the core's unscoped buffers at contents V are pipeline 1's arrays at V and the rest. -/
theorem entry1 {c : Dev nD} (dat : Dat τ (Elt F) Unit ℕ (UR sig nD τ) ℕ cfg1 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare) (h7 : dat.share 7 = fullShare)
    (V : (b : Ref sig .tc) → Buf (Elt F) ((c : Thread nD τ).loc b))
    (Fn : (w : Fin cfg1.W) → Buf (Elt F) ((cfg1.win w).arr.view.loc (c : Thread nD τ))) (hF : ∀ w, Fn w = V (Pipeline.arrRef spec1 w)) :
    (unscopedBufs c V : sProp 𝕄) ⊢ iprop(dat.arrays Fn ∗ Pipeline.unscopedRest spec1 c V) := by
  have hs := Pipeline.unscopedBufs_split₀ (Ix := Unit) (Name := ℕ) (U := UR sig nD τ) (Lvl := ℕ) cfgs (1 : Fin 2) winFacts₀1.arr_unscoped c V
  rw [show (unscopedBufs c V : sProp 𝕄) = iprop(Pipeline.arrBufs spec1 c V ∗ Pipeline.unscopedRest spec1 c V) from hs]
  refine sep_mono ?_ .rfl
  rw [arrBufs1_eq, arrays1_eq dat h0 h1 h2 h3 h4 h5 h6 h7, hF 0, hF 1, hF 2, hF 3, hF 4, hF 5, hF 6, hF 7]
  iintro ⟨B0, B1, B2, B3, B4, B5, B6⟩
  ihave Hh := (pointsTo_share (PosShare.mem_left_op_right fullShare)).1 $$ B0
  icases Hh with ⟨A0, A1⟩
  isplitl [A0]; · iexact A0
  isplitl [A1]; · iexact A1
  isplitl [B1]; · iexact B1
  isplitl [B2]; · iexact B2
  isplitl [B3]; · iexact B3
  isplitl [B4]; · iexact B4
  isplitl [B5]; · iexact B5
  iexact B6

/-- EXIT: pipeline 1's arrays at contents Fn and the rest at V are the core's unscoped buffers at any valuation V'
    that has the arrays at Fn and agrees with V off them. -/
theorem exit1 {c : Dev nD} (dat : Dat τ (Elt F) Unit ℕ (UR sig nD τ) ℕ cfg1 c) (h0 : dat.share 0 = fullShare.left) (h1 : dat.share 1 = fullShare.right) (h2 : dat.share 2 = fullShare) (h3 : dat.share 3 = fullShare) (h4 : dat.share 4 = fullShare) (h5 : dat.share 5 = fullShare) (h6 : dat.share 6 = fullShare) (h7 : dat.share 7 = fullShare)
    (V V' : (b : Ref sig .tc) → Buf (Elt F) ((c : Thread nD τ).loc b))
    (Fn : (w : Fin cfg1.W) → Buf (Elt F) ((cfg1.win w).arr.view.loc (c : Thread nD τ))) (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  have hs := Pipeline.unscopedBufs_split₀ (Ix := Unit) (Name := ℕ) (U := UR sig nD τ) (Lvl := ℕ) cfgs (1 : Fin 2) winFacts₀1.arr_unscoped c V'
  rw [show (unscopedBufs c V' : sProp 𝕄) = iprop(Pipeline.arrBufs spec1 c V' ∗ Pipeline.unscopedRest spec1 c V') from hs]
  refine sep_mono ?_ (Entails.of_eq ?_)
  · rw [arrBufs1_eq, arrays1_eq dat h0 h1 h2 h3 h4 h5 h6 h7, hF 0, hF 1, hF 2, hF 3, hF 4, hF 5, hF 6, hF 7]
    iintro ⟨A0, A1, A2, A3, A4, A5, A6, A7⟩
    isplitl [A0 A1]
    · iapply (pointsTo_share (PosShare.mem_left_op_right fullShare)).2
      isplitl [A0]; · iexact A0
      iexact A1
    isplitl [A2]; · iexact A2
    isplitl [A3]; · iexact A3
    isplitl [A4]; · iexact A4
    isplitl [A5]; · iexact A5
    isplitl [A6]; · iexact A6
    iexact A7
  · unfold Pipeline.unscopedRest
    exact bigSep_congr fun b hb => by rw [hrest b (Finset.mem_sdiff.mp hb).2]

end Cert.KernelIdeal.Hand

end
-- ==== Proof.KIMain.lean ====
/-
  The whole run of @main: two host reshapes of the labels, the two pipelines, the host sum and division.
  Between two items every unscoped buffer of the core is held at a valuation: the launch contents, then what the
  reshapes leave, then the first pipeline's three result columns at what its write-backs leave, then the second
  pipeline's result column, then what the host tail leaves. Both pipelines read the embedding matrix through two
  windows; at a region's entry the matrix's buffer is dealt to them as two halves of the full share and joined again
  at the exit. Every execution terminates, and every final memory holds each unscoped buffer at the last valuation.
-/
import proofs.«172070_j13786845020972_1_alg».proof.Proof.KIFrame0
import proofs.«172070_j13786845020972_1_alg».proof.Proof.KIFrame1
import proofs.«172070_j13786845020972_1_alg».proof.Proof.Gen.KernelIdeal.Regions
import proofs.«172070_j13786845020972_1_alg».proof.Proof.KIShare

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the two reshapes (the first pipeline's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pipeline's exit (the second's entry): its three result columns at what its write-backs leave. -/
def W2 (c : Dev nD) : Valuation τ sig (Elt F) :=
  Function.update (Function.update (Function.update (W1 m ρ c) (Proc.devRef .tc main_v2_0) ((dat0 (V1 m ρ) c).arrAt 4 cfg0.N))
    (Proc.devRef .tc main_v2_1) ((dat0 (V1 m ρ) c).arrAt 5 cfg0.N)) (Proc.devRef .tc main_v2_2) ((dat0 (V1 m ρ) c).arrAt 6 cfg0.N)
abbrev V2 : (c : Dev nD) → (b : Ref sig .tc) → Buf (Elt F) ((c : Thread nD τ).loc b) := fun c b => W2 m ρ c b
/-- At the second pipeline's exit: its result column at what its write-backs leave. -/
def W3 (c : Dev nD) : Valuation τ sig (Elt F) :=
  Function.update (W2 m ρ c) (Proc.devRef .tc main_v3) ((dat1 (V2 m ρ) c).arrAt 7 cfg1.N)
abbrev V3 : (c : Dev nD) → (b : Ref sig .tc) → Buf (Elt F) ((c : Thread nD τ).loc b) := fun c b => W3 m ρ c b
/-- After the host tail. -/
abbrev W4 : Dev nD → Valuation τ sig (Elt F) := fun c => StableHlo.after hostOps2 (W3 m ρ c)

theorem W2_of (c : Dev nD) (r : Ref sig .tc) (h : r ∉ ([main_v2_0, main_v2_1, main_v2_2] : List (Ref sig .tc))) :
    W2 m ρ c (Proc.devRef .tc r) = W1 m ρ c (Proc.devRef .tc r) := by
  simp only [W2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
theorem W2_v2_0 (c : Dev nD) : W2 m ρ c (Proc.devRef .tc main_v2_0) = (dat0 (V1 m ρ) c).arrAt 4 cfg0.N := by
  simp only [W2, Function.update_of_ne (StableHlo.devRef_ne_of_ne (by decide) : (Proc.devRef .tc main_v2_0 : DevRef τ sig) ≠ Proc.devRef .tc main_v2_2), Function.update_of_ne (StableHlo.devRef_ne_of_ne (by decide) : (Proc.devRef .tc main_v2_0 : DevRef τ sig) ≠ Proc.devRef .tc main_v2_1), Function.update_self]
theorem W2_v2_1 (c : Dev nD) : W2 m ρ c (Proc.devRef .tc main_v2_1) = (dat0 (V1 m ρ) c).arrAt 5 cfg0.N := by
  simp only [W2, Function.update_of_ne (StableHlo.devRef_ne_of_ne (by decide) : (Proc.devRef .tc main_v2_1 : DevRef τ sig) ≠ Proc.devRef .tc main_v2_2), Function.update_self]
theorem W2_v2_2 (c : Dev nD) : W2 m ρ c (Proc.devRef .tc main_v2_2) = (dat0 (V1 m ρ) c).arrAt 6 cfg0.N := by
  simp only [W2, Function.update_self]
theorem W3_of (c : Dev nD) (r : Ref sig .tc) (h : r ∉ ([main_v3] : List (Ref sig .tc))) :
    W3 m ρ c (Proc.devRef .tc r) = W2 m ρ c (Proc.devRef .tc r) := by
  simp only [W3, Function.update_of_ne (StableHlo.devRef_ne_of_ne (List.ne_of_not_mem_cons h) : (Proc.devRef .tc r : DevRef τ sig) ≠ Proc.devRef .tc main_v3)]
theorem W3_v3 (c : Dev nD) : W3 m ρ c (Proc.devRef .tc main_v3) = (dat1 (V2 m ρ) c).arrAt 7 cfg1.N := by
  simp only [W3, Function.update_self]

/-- At the first pipeline's exit each of its arrays holds what the pipeline leaves. -/
theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of m ρ c main_arg0 (by decide)).symm)
  | ⟨1, _⟩ => ((dat0 (V1 m ρ) c).arrAt_in 1 rfl _).trans ((A_eq0 (V1 m ρ) c 1).trans (W2_of m ρ c main_arg0 (by decide)).symm)
  | ⟨2, _⟩ => ((dat0 (V1 m ρ) c).arrAt_in 2 rfl _).trans ((A_eq0 (V1 m ρ) c 2).trans (W2_of m ρ c main_v0 (by decide)).symm)
  | ⟨3, _⟩ => ((dat0 (V1 m ρ) c).arrAt_in 3 rfl _).trans ((A_eq0 (V1 m ρ) c 3).trans (W2_of m ρ c main_v1 (by decide)).symm)
  | ⟨4, _⟩ => (W2_v2_0 m ρ c).symm
  | ⟨5, _⟩ => (W2_v2_1 m ρ c).symm
  | ⟨6, _⟩ => (W2_v2_2 m ρ c).symm
theorem hrest0 (c : Dev nD) : ∀ b, b ∉ Finset.univ.image (Pipeline.arrRef spec0) → V2 m ρ c b = V1 m ρ c b :=
  fun b hb => W2_of m ρ c b (by
    intro hmem
    simp only [List.mem_cons, List.mem_nil_iff, or_false] at hmem
    rcases hmem with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of m ρ c main_arg0 (by decide)).symm)
  | ⟨1, _⟩ => ((dat1 (V2 m ρ) c).arrAt_in 1 rfl _).trans ((A_eq1 (V2 m ρ) c 1).trans (W3_of m ρ c main_arg0 (by decide)).symm)
  | ⟨2, _⟩ => ((dat1 (V2 m ρ) c).arrAt_in 2 rfl _).trans ((A_eq1 (V2 m ρ) c 2).trans (W3_of m ρ c main_v0 (by decide)).symm)
  | ⟨3, _⟩ => ((dat1 (V2 m ρ) c).arrAt_in 3 rfl _).trans ((A_eq1 (V2 m ρ) c 3).trans (W3_of m ρ c main_v1 (by decide)).symm)
  | ⟨4, _⟩ => ((dat1 (V2 m ρ) c).arrAt_in 4 rfl _).trans ((A_eq1 (V2 m ρ) c 4).trans (W3_of m ρ c main_v2_0 (by decide)).symm)
  | ⟨5, _⟩ => ((dat1 (V2 m ρ) c).arrAt_in 5 rfl _).trans ((A_eq1 (V2 m ρ) c 5).trans (W3_of m ρ c main_v2_1 (by decide)).symm)
  | ⟨6, _⟩ => ((dat1 (V2 m ρ) c).arrAt_in 6 rfl _).trans ((A_eq1 (V2 m ρ) c 6).trans (W3_of m ρ c main_v2_2 (by decide)).symm)
  | ⟨7, _⟩ => (W3_v3 m ρ c).symm
theorem hrest1 (c : Dev nD) : ∀ b, b ∉ Finset.univ.image (Pipeline.arrRef spec1) → V3 m ρ c b = V2 m ρ c b :=
  fun b hb => W3_of m ρ c b (by
    intro hmem
    simp only [List.mem_cons, List.mem_nil_iff, or_false] at hmem
    subst hmem
    exact hb (Finset.mem_image.mpr ⟨7, Finset.mem_univ _, rfl⟩))

/-! ### The arguments end as launched; the result is the host tail of the second pipeline's column -/

theorem W4_main_arg0 (c : Dev nD) : W4 m ρ c (Proc.devRef .tc main_arg0) = m ((c : Thread nD τ).loc main_arg0) :=
  (StableHlo.after_of_writes_sub hostOps2 _ hostOps2_writes (by decide : main_arg0 ∉ hostOps2_W)).trans <|
    (W3_of m ρ c main_arg0 (by decide)).trans <| (W2_of m ρ c main_arg0 (by decide)).trans <|
      (StableHlo.after_of_writes_sub hostOps0 _ hostOps0_writes (by decide : main_arg0 ∉ hostOps0_W)).trans rfl
theorem W4_main_arg1 (c : Dev nD) : W4 m ρ c (Proc.devRef .tc main_arg1) = m ((c : Thread nD τ).loc main_arg1) :=
  (StableHlo.after_of_writes_sub hostOps2 _ hostOps2_writes (by decide : main_arg1 ∉ hostOps2_W)).trans <|
    (W3_of m ρ c main_arg1 (by decide)).trans <| (W2_of m ρ c main_arg1 (by decide)).trans <|
      (StableHlo.after_of_writes_sub hostOps0 _ hostOps0_writes (by decide : main_arg1 ∉ hostOps0_W)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- unification with the pinned configuration may unfold plain definitions in a metavariable's type
set_option backward.isDefEq.respectTransparency.types false in
/-- Pipeline 0 as a segment: entered from every unscoped buffer at W1, left at W2. Its arrays are dealt out of the
    unscoped buffers at the entry and joined back at the exit contents; the generator register goes into the region
    invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (dat0 (V1 m ρ) c) rfl rfl rfl rfl rfl rfl rfl (V1 m ρ c) (dat0 (V1 m ρ) c).A (fun w => A_eq0 (V1 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := exit0 (dat0 (V1 m ρ) c) rfl rfl rfl rfl rfl rfl rfl (V1 m ρ c) (V2 m ρ c) ((dat0 (V1 m ρ) c).arrAt · cfg0.N) (hF0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
/-- Pipeline 1 as a segment: entered from every unscoped buffer at W2, left at W3. Its arrays are dealt out of the
    unscoped buffers at the entry and joined back at the exit contents; the generator register goes into the region
    invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 (dat1 (V2 m ρ) c) rfl rfl rfl rfl rfl rfl rfl rfl (V2 m ρ c) (dat1 (V2 m ρ) c).A (fun w => A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := exit1 (dat1 (V2 m ρ) c) rfl rfl rfl rfl rfl rfl rfl rfl (V2 m ρ c) (V3 m ρ c) ((dat1 (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer of each core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Tile.lean ====
/-
  The two kernels' arithmetic, point by point, as pure functions of the argument arrays.

  The grid has 16 x 8 points; point n works on the row block n / 8 (512 rows) against the column block n % 8
  (1024 rows of the same matrix). Each point updates running per-row quantities kept between the points of one row
  block and reset at the first of its eight points: in the first kernel the hardest negative, the hardest positive
  and the has-a-positive flag; in the second the two partial losses, and at the last of the eight points the row
  block's loss. Here these are spelt over the kernels' own payload functions, with the blocks cut out of whole arrays
  by explicit coordinates; nothing here depends on how the blocks travel.
-/
import proofs.«172070_j13786845020972_1_alg».proof.Proof.Gen.KernelIdeal.Skeleton
import Idealize.ShloMosaic.Lib.ValueIdx

noncomputable section

namespace Cert.KernelIdeal.Tile

open Idealize.ShloMosaic Idealize.ShloMosaic.ValueIdx Cert.KernelIdeal Cert.KernelIdeal.Gen

variable {F : FTy → Type} [FloatOps F]

theorem gridN0 : grid0.N = 128 := by decide
theorem gridN1 : grid1.N = 128 := by decide

/-- The grid point with number n, in each kernel's grid. -/
def pt0 (n : ℕ) (hn : n < 128) : Fin grid0.N := ⟨n, by rw [gridN0]; exact hn⟩
def pt1 (n : ℕ) (hn : n < 128) : Fin grid1.N := ⟨n, by rw [gridN1]; exact hn⟩

/-- The 512 x 128 block of rows of the embedding matrix that point n reads as its row block. -/
def rowBlk (X : Vec F S8192x128 .f32) (n : ℕ) (hn : n < 128) : Vec F S512x128 .f32 :=
  fun y => X (ix2 (⟨512 * (n / 8) + (y 0).val, by have := idx2_lt0 y; omega⟩ : Fin 8192) (⟨(y 1).val, idx2_lt1 y⟩ : Fin 128))
/-- The 1024 x 128 block of rows of the embedding matrix that point n reads as its column block. -/
def colBlk (X : Vec F S8192x128 .f32) (n : ℕ) (hn : n < 128) : Vec F S1024x128 .f32 :=
  fun y => X (ix2 (⟨1024 * (n % 8) + (y 0).val, by have := idx2_lt0 y; omega⟩ : Fin 8192) (⟨(y 1).val, idx2_lt1 y⟩ : Fin 128))
/-- The row block's labels, from the labels laid out as a column. -/
def rowLab (T0 : Vec F S8192x1 .i32) (n : ℕ) (hn : n < 128) : Vec F S512x1 .i32 :=
  fun y => T0 (ix2 (⟨512 * (n / 8) + (y 0).val, by have := idx2_lt0 y; omega⟩ : Fin 8192) (⟨(y 1).val, idx2_lt1 y⟩ : Fin 1))
/-- The column block's labels, from the labels laid out as a row. -/
def colLab (T1 : Vec F S1x8192 .i32) (n : ℕ) (hn : n < 128) : Vec F S1x1024 .i32 :=
  fun y => T1 (ix2 (⟨(y 0).val, idx2_lt0 y⟩ : Fin 1) (⟨1024 * (n % 8) + (y 1).val, by have := idx2_lt1 y; omega⟩ : Fin 8192))
/-- The row block of a per-row column array (one float per row). -/
def rowCol (A : Vec F S8192x1 .f32) (n : ℕ) (hn : n < 128) : Vec F S512x1 .f32 :=
  fun y => A (ix2 (⟨512 * (n / 8) + (y 0).val, by have := idx2_lt0 y; omega⟩ : Fin 8192) (⟨(y 1).val, idx2_lt1 y⟩ : Fin 1))

/-! ## The first kernel: hardest negative, hardest positive, has-a-positive -/

abbrev Acc0 (F : FTy → Type) [FloatOps F] : Type := FVec F S512x1 .f32 × FVec F S512x1 .f32 × FVec F S512x1 .f32

/-- What the first kernel's three running columns are reset to. -/
def init0 : Acc0 F := (k0_pay1, k0_pay2, k0_pay3)

/-- One point of the first kernel: the three running columns after point n, from those before it. -/
def step0 (X : Vec F S8192x128 .f32) (T0 : Vec F S8192x1 .i32) (T1 : Vec F S1x8192 .i32) (n : ℕ) (hn : n < 128) (a : Acc0 F) : Acc0 F :=
  (k0_pay10 (k0_pay4 (rowBlk X n hn) (colBlk X n hn)) (k0_pay6 (rowLab T0 n hn)) (k0_pay7 (colLab T1 n hn)) a.1,
   k0_pay11 (k0_pay4 (rowBlk X n hn) (colBlk X n hn)) (k0_pay5 (grid0.coords (pt0 n hn))) (k0_pay6 (rowLab T0 n hn)) (k0_pay7 (colLab T1 n hn)) a.2.1,
   k0_pay12 (k0_pay5 (grid0.coords (pt0 n hn))) (k0_pay6 (rowLab T0 n hn)) (k0_pay7 (colLab T1 n hn)) a.2.2)

/-- The three running columns after point n: reset at the first point of each row block, then updated point by point. -/
def acc0 (X : Vec F S8192x128 .f32) (T0 : Vec F S8192x1 .i32) (T1 : Vec F S1x8192 .i32) : (n : ℕ) → n < 128 → Acc0 F
  | 0, hn => step0 X T0 T1 0 hn init0
  | n + 1, hn => step0 X T0 T1 (n + 1) hn (if (n + 1) % 8 = 0 then init0 else acc0 X T0 T1 n (Nat.lt_of_succ_lt hn))

theorem acc0_first (X : Vec F S8192x128 .f32) (T0 : Vec F S8192x1 .i32) (T1 : Vec F S1x8192 .i32) (n : ℕ) (hn : n < 128) (h : n % 8 = 0) :
    acc0 X T0 T1 n hn = step0 X T0 T1 n hn init0 := by
  cases n with
  | zero => rfl
  | succ k => simp only [acc0, if_pos h]

theorem acc0_next (X : Vec F S8192x128 .f32) (T0 : Vec F S8192x1 .i32) (T1 : Vec F S1x8192 .i32) (n : ℕ) (hn : n < 128) (h : n % 8 ≠ 0) :
    acc0 X T0 T1 n hn = step0 X T0 T1 n hn (acc0 X T0 T1 (n - 1) (by omega)) := by
  cases n with
  | zero => exact absurd rfl h
  | succ k => simp only [acc0, if_neg h, Nat.add_sub_cancel]

/-! ## The second kernel: the two partial losses and the row loss -/

abbrev Acc1 (F : FTy → Type) [FloatOps F] : Type := FVec F S512x1 .f32 × FVec F S512x1 .f32

/-- What the second kernel's two running columns are reset to. -/
def init1 : Acc1 F := (k1_pay3, k1_pay4)

/-- One point of the second kernel: the two running columns after point n, from those before it; MN and MP are the
    first kernel's hardest-negative and hardest-positive columns. -/
def step1 (X : Vec F S8192x128 .f32) (T0 : Vec F S8192x1 .i32) (T1 : Vec F S1x8192 .i32) (MN MP : Vec F S8192x1 .f32)
    (n : ℕ) (hn : n < 128) (b : Acc1 F) : Acc1 F :=
  (k1_pay10 (k1_pay5 (rowBlk X n hn) (colBlk X n hn)) (k1_pay6 (grid1.coords (pt1 n hn))) (k1_pay7 (rowLab T0 n hn)) (k1_pay8 (colLab T1 n hn)) (rowCol MN n hn) b.1,
   k1_pay1 (k1_pay11 (k1_pay5 (rowBlk X n hn) (colBlk X n hn)) (k1_pay7 (rowLab T0 n hn)) (k1_pay8 (colLab T1 n hn)) (rowCol MP n hn) b.2))

/-- The two running columns after point n. -/
def acc1 (X : Vec F S8192x128 .f32) (T0 : Vec F S8192x1 .i32) (T1 : Vec F S1x8192 .i32) (MN MP : Vec F S8192x1 .f32) : (n : ℕ) → n < 128 → Acc1 F
  | 0, hn => step1 X T0 T1 MN MP 0 hn init1
  | n + 1, hn => step1 X T0 T1 MN MP (n + 1) hn (if (n + 1) % 8 = 0 then init1 else acc1 X T0 T1 MN MP n (Nat.lt_of_succ_lt hn))

theorem acc1_first (X : Vec F S8192x128 .f32) (T0 : Vec F S8192x1 .i32) (T1 : Vec F S1x8192 .i32) (MN MP : Vec F S8192x1 .f32) (n : ℕ) (hn : n < 128) (h : n % 8 = 0) :
    acc1 X T0 T1 MN MP n hn = step1 X T0 T1 MN MP n hn init1 := by
  cases n with
  | zero => rfl
  | succ k => simp only [acc1, if_pos h]

theorem acc1_next (X : Vec F S8192x128 .f32) (T0 : Vec F S8192x1 .i32) (T1 : Vec F S1x8192 .i32) (MN MP : Vec F S8192x1 .f32) (n : ℕ) (hn : n < 128) (h : n % 8 ≠ 0) :
    acc1 X T0 T1 MN MP n hn = step1 X T0 T1 MN MP n hn (acc1 X T0 T1 MN MP (n - 1) (by omega)) := by
  cases n with
  | zero => exact absurd rfl h
  | succ k => simp only [acc1, if_neg h, Nat.add_sub_cancel]

/-- The row block's loss, written at the last point of a row block (n % 8 = 7): the two partial losses added where the
    has-a-positive flag HP is set, zero elsewhere. -/
def loss1 (X : Vec F S8192x128 .f32) (T0 : Vec F S8192x1 .i32) (T1 : Vec F S1x8192 .i32) (MN MP HP : Vec F S8192x1 .f32)
    (n : ℕ) (hn : n < 128) : FVec F S512x1 .f32 :=
  k1_pay2 (rowCol HP n hn) (acc1 X T0 T1 MN MP n hn).1 (acc1 X T0 T1 MN MP n hn).2

end Cert.KernelIdeal.Tile

end
-- ==== Proof.KBlocks.lean ====
/-
  The blocks the pipelines move are the blocks cut out by explicit coordinates.

  The grid has 16 x 8 points; point t pairs row block t / 8 with column block t % 8. Each window's block at point t is
  the rectangle of its array at block index times block size, so an element (y0, y1) of the block sits in the array
  at (index0 * size0 + y0, index1 * size1 + y1). The index maps give (t / 8, 0) for the windows that move with the
  row block (the embedding matrix's 512 rows, their labels, the per-row columns), (t % 8, 0) for the column block of
  the embedding matrix (1024 rows) and (0, t % 8) for the column block's labels. Both kernels have the same four
  input windows; the second has three more, the first kernel's per-row results.
-/
import proofs.«172070_j13786845020972_1_alg».proof.Proof.Gen.KernelIdeal.Launch
import proofs.«172070_j13786845020972_1_alg».proof.Proof.Tile

noncomputable section

namespace Cert.KernelIdeal.KBlocks

open Idealize.ShloMosaic Idealize.ShloMosaic.ValueIdx Cert.KernelIdeal Cert.KernelIdeal.Gen

variable {F : FTy → Type} [FloatOps F]

/-- The block index of window 0 of the first kernel at point t is (t / 8, 0). -/
theorem idx0_0 : ∀ t : Fin cfg0.N, win0_0.index t (0 : Fin 2) = t.val / 8 ∧ win0_0.index t (1 : Fin 2) = 0 :=
  (by decide +kernel : ∀ t : Fin grid0.N, _)

/-- Window 0 of the first kernel reads the row block of the embedding matrix. -/
theorem blk0_0 (X : Vec F S8192x128 .f32) (t : Fin cfg0.N) :
    ((cfg0.win 0).blk t).view.read (Elt F) X = Tile.rowBlk X t.val (lt_of_lt_of_eq t.isLt Gen.N_0) := by
  funext y
  obtain ⟨e0, e1⟩ := idx0_0 t
  show X (((cfg0.win 0).blk t).view.emb y) = X (ix2 _ _)
  refine congrArg X (funext fun a => Fin.ext ?_)
  match a with
  | ⟨0, _⟩ =>
    show win0_0.index t (0 : Fin 2) * 512 + 1 * (y 0).val = 512 * (t.val / 8) + (y 0).val
    omega
  | ⟨1, _⟩ =>
    show win0_0.index t (1 : Fin 2) * 128 + 1 * (y 1).val = (y 1).val
    omega

/-- The block index of window 1 of the first kernel at point t is (t % 8, 0). -/
theorem idx0_1 : ∀ t : Fin cfg0.N, win0_1.index t (0 : Fin 2) = t.val % 8 ∧ win0_1.index t (1 : Fin 2) = 0 :=
  (by decide +kernel : ∀ t : Fin grid0.N, _)

/-- Window 1 of the first kernel reads the column block of the embedding matrix. -/
theorem blk0_1 (X : Vec F S8192x128 .f32) (t : Fin cfg0.N) :
    ((cfg0.win 1).blk t).view.read (Elt F) X = Tile.colBlk X t.val (lt_of_lt_of_eq t.isLt Gen.N_0) := by
  funext y
  obtain ⟨e0, e1⟩ := idx0_1 t
  show X (((cfg0.win 1).blk t).view.emb y) = X (ix2 _ _)
  refine congrArg X (funext fun a => Fin.ext ?_)
  match a with
  | ⟨0, _⟩ =>
    show win0_1.index t (0 : Fin 2) * 1024 + 1 * (y 0).val = 1024 * (t.val % 8) + (y 0).val
    omega
  | ⟨1, _⟩ =>
    show win0_1.index t (1 : Fin 2) * 128 + 1 * (y 1).val = (y 1).val
    omega

/-- The block index of window 2 of the first kernel at point t is (t / 8, 0). -/
theorem idx0_2 : ∀ t : Fin cfg0.N, win0_2.index t (0 : Fin 2) = t.val / 8 ∧ win0_2.index t (1 : Fin 2) = 0 :=
  (by decide +kernel : ∀ t : Fin grid0.N, _)

/-- Window 2 of the first kernel reads the row block's labels. -/
theorem blk0_2 (T0 : Vec F S8192x1 .i32) (t : Fin cfg0.N) :
    ((cfg0.win 2).blk t).view.read (Elt F) T0 = Tile.rowLab T0 t.val (lt_of_lt_of_eq t.isLt Gen.N_0) := by
  funext y
  obtain ⟨e0, e1⟩ := idx0_2 t
  show T0 (((cfg0.win 2).blk t).view.emb y) = T0 (ix2 _ _)
  refine congrArg T0 (funext fun a => Fin.ext ?_)
  match a with
  | ⟨0, _⟩ =>
    show win0_2.index t (0 : Fin 2) * 512 + 1 * (y 0).val = 512 * (t.val / 8) + (y 0).val
    omega
  | ⟨1, _⟩ =>
    show win0_2.index t (1 : Fin 2) * 1 + 1 * (y 1).val = (y 1).val
    omega

/-- The block index of window 3 of the first kernel at point t is (0, t % 8). -/
theorem idx0_3 : ∀ t : Fin cfg0.N, win0_3.index t (0 : Fin 2) = 0 ∧ win0_3.index t (1 : Fin 2) = t.val % 8 :=
  (by decide +kernel : ∀ t : Fin grid0.N, _)

/-- Window 3 of the first kernel reads the column block's labels. -/
theorem blk0_3 (T1 : Vec F S1x8192 .i32) (t : Fin cfg0.N) :
    ((cfg0.win 3).blk t).view.read (Elt F) T1 = Tile.colLab T1 t.val (lt_of_lt_of_eq t.isLt Gen.N_0) := by
  funext y
  obtain ⟨e0, e1⟩ := idx0_3 t
  show T1 (((cfg0.win 3).blk t).view.emb y) = T1 (ix2 _ _)
  refine congrArg T1 (funext fun a => Fin.ext ?_)
  match a with
  | ⟨0, _⟩ =>
    show win0_3.index t (0 : Fin 2) * 1 + 1 * (y 0).val = (y 0).val
    omega
  | ⟨1, _⟩ =>
    show win0_3.index t (1 : Fin 2) * 1024 + 1 * (y 1).val = 1024 * (t.val % 8) + (y 1).val
    omega

/-- The block index of window 0 of the second kernel at point t is (t / 8, 0). -/
theorem idx1_0 : ∀ t : Fin cfg1.N, win1_0.index t (0 : Fin 2) = t.val / 8 ∧ win1_0.index t (1 : Fin 2) = 0 :=
  (by decide +kernel : ∀ t : Fin grid1.N, _)

/-- Window 0 of the second kernel reads the row block of the embedding matrix. -/
theorem blk1_0 (X : Vec F S8192x128 .f32) (t : Fin cfg1.N) :
    ((cfg1.win 0).blk t).view.read (Elt F) X = Tile.rowBlk X t.val (lt_of_lt_of_eq t.isLt Gen.N_1) := by
  funext y
  obtain ⟨e0, e1⟩ := idx1_0 t
  show X (((cfg1.win 0).blk t).view.emb y) = X (ix2 _ _)
  refine congrArg X (funext fun a => Fin.ext ?_)
  match a with
  | ⟨0, _⟩ =>
    show win1_0.index t (0 : Fin 2) * 512 + 1 * (y 0).val = 512 * (t.val / 8) + (y 0).val
    omega
  | ⟨1, _⟩ =>
    show win1_0.index t (1 : Fin 2) * 128 + 1 * (y 1).val = (y 1).val
    omega

/-- The block index of window 1 of the second kernel at point t is (t % 8, 0). -/
theorem idx1_1 : ∀ t : Fin cfg1.N, win1_1.index t (0 : Fin 2) = t.val % 8 ∧ win1_1.index t (1 : Fin 2) = 0 :=
  (by decide +kernel : ∀ t : Fin grid1.N, _)

/-- Window 1 of the second kernel reads the column block of the embedding matrix. -/
theorem blk1_1 (X : Vec F S8192x128 .f32) (t : Fin cfg1.N) :
    ((cfg1.win 1).blk t).view.read (Elt F) X = Tile.colBlk X t.val (lt_of_lt_of_eq t.isLt Gen.N_1) := by
  funext y
  obtain ⟨e0, e1⟩ := idx1_1 t
  show X (((cfg1.win 1).blk t).view.emb y) = X (ix2 _ _)
  refine congrArg X (funext fun a => Fin.ext ?_)
  match a with
  | ⟨0, _⟩ =>
    show win1_1.index t (0 : Fin 2) * 1024 + 1 * (y 0).val = 1024 * (t.val % 8) + (y 0).val
    omega
  | ⟨1, _⟩ =>
    show win1_1.index t (1 : Fin 2) * 128 + 1 * (y 1).val = (y 1).val
    omega

/-- The block index of window 2 of the second kernel at point t is (t / 8, 0). -/
theorem idx1_2 : ∀ t : Fin cfg1.N, win1_2.index t (0 : Fin 2) = t.val / 8 ∧ win1_2.index t (1 : Fin 2) = 0 :=
  (by decide +kernel : ∀ t : Fin grid1.N, _)

/-- Window 2 of the second kernel reads the row block's labels. -/
theorem blk1_2 (T0 : Vec F S8192x1 .i32) (t : Fin cfg1.N) :
    ((cfg1.win 2).blk t).view.read (Elt F) T0 = Tile.rowLab T0 t.val (lt_of_lt_of_eq t.isLt Gen.N_1) := by
  funext y
  obtain ⟨e0, e1⟩ := idx1_2 t
  show T0 (((cfg1.win 2).blk t).view.emb y) = T0 (ix2 _ _)
  refine congrArg T0 (funext fun a => Fin.ext ?_)
  match a with
  | ⟨0, _⟩ =>
    show win1_2.index t (0 : Fin 2) * 512 + 1 * (y 0).val = 512 * (t.val / 8) + (y 0).val
    omega
  | ⟨1, _⟩ =>
    show win1_2.index t (1 : Fin 2) * 1 + 1 * (y 1).val = (y 1).val
    omega

/-- The block index of window 3 of the second kernel at point t is (0, t % 8). -/
theorem idx1_3 : ∀ t : Fin cfg1.N, win1_3.index t (0 : Fin 2) = 0 ∧ win1_3.index t (1 : Fin 2) = t.val % 8 :=
  (by decide +kernel : ∀ t : Fin grid1.N, _)

/-- Window 3 of the second kernel reads the column block's labels. -/
theorem blk1_3 (T1 : Vec F S1x8192 .i32) (t : Fin cfg1.N) :
    ((cfg1.win 3).blk t).view.read (Elt F) T1 = Tile.colLab T1 t.val (lt_of_lt_of_eq t.isLt Gen.N_1) := by
  funext y
  obtain ⟨e0, e1⟩ := idx1_3 t
  show T1 (((cfg1.win 3).blk t).view.emb y) = T1 (ix2 _ _)
  refine congrArg T1 (funext fun a => Fin.ext ?_)
  match a with
  | ⟨0, _⟩ =>
    show win1_3.index t (0 : Fin 2) * 1 + 1 * (y 0).val = (y 0).val
    omega
  | ⟨1, _⟩ =>
    show win1_3.index t (1 : Fin 2) * 1024 + 1 * (y 1).val = 1024 * (t.val % 8) + (y 1).val
    omega

/-- The block index of window 4 of the second kernel at point t is (t / 8, 0). -/
theorem idx1_4 : ∀ t : Fin cfg1.N, win1_4.index t (0 : Fin 2) = t.val / 8 ∧ win1_4.index t (1 : Fin 2) = 0 :=
  (by decide +kernel : ∀ t : Fin grid1.N, _)

/-- Window 4 of the second kernel reads the row block of its per-row column. -/
theorem blk1_4 (A : Vec F S8192x1 .f32) (t : Fin cfg1.N) :
    ((cfg1.win 4).blk t).view.read (Elt F) A = Tile.rowCol A t.val (lt_of_lt_of_eq t.isLt Gen.N_1) := by
  funext y
  obtain ⟨e0, e1⟩ := idx1_4 t
  show A (((cfg1.win 4).blk t).view.emb y) = A (ix2 _ _)
  refine congrArg A (funext fun a => Fin.ext ?_)
  match a with
  | ⟨0, _⟩ =>
    show win1_4.index t (0 : Fin 2) * 512 + 1 * (y 0).val = 512 * (t.val / 8) + (y 0).val
    omega
  | ⟨1, _⟩ =>
    show win1_4.index t (1 : Fin 2) * 1 + 1 * (y 1).val = (y 1).val
    omega

/-- The block index of window 5 of the second kernel at point t is (t / 8, 0). -/
theorem idx1_5 : ∀ t : Fin cfg1.N, win1_5.index t (0 : Fin 2) = t.val / 8 ∧ win1_5.index t (1 : Fin 2) = 0 :=
  (by decide +kernel : ∀ t : Fin grid1.N, _)

/-- Window 5 of the second kernel reads the row block of its per-row column. -/
theorem blk1_5 (A : Vec F S8192x1 .f32) (t : Fin cfg1.N) :
    ((cfg1.win 5).blk t).view.read (Elt F) A = Tile.rowCol A t.val (lt_of_lt_of_eq t.isLt Gen.N_1) := by
  funext y
  obtain ⟨e0, e1⟩ := idx1_5 t
  show A (((cfg1.win 5).blk t).view.emb y) = A (ix2 _ _)
  refine congrArg A (funext fun a => Fin.ext ?_)
  match a with
  | ⟨0, _⟩ =>
    show win1_5.index t (0 : Fin 2) * 512 + 1 * (y 0).val = 512 * (t.val / 8) + (y 0).val
    omega
  | ⟨1, _⟩ =>
    show win1_5.index t (1 : Fin 2) * 1 + 1 * (y 1).val = (y 1).val
    omega

/-- The block index of window 6 of the second kernel at point t is (t / 8, 0). -/
theorem idx1_6 : ∀ t : Fin cfg1.N, win1_6.index t (0 : Fin 2) = t.val / 8 ∧ win1_6.index t (1 : Fin 2) = 0 :=
  (by decide +kernel : ∀ t : Fin grid1.N, _)

/-- Window 6 of the second kernel reads the row block of its per-row column. -/
theorem blk1_6 (A : Vec F S8192x1 .f32) (t : Fin cfg1.N) :
    ((cfg1.win 6).blk t).view.read (Elt F) A = Tile.rowCol A t.val (lt_of_lt_of_eq t.isLt Gen.N_1) := by
  funext y
  obtain ⟨e0, e1⟩ := idx1_6 t
  show A (((cfg1.win 6).blk t).view.emb y) = A (ix2 _ _)
  refine congrArg A (funext fun a => Fin.ext ?_)
  match a with
  | ⟨0, _⟩ =>
    show win1_6.index t (0 : Fin 2) * 512 + 1 * (y 0).val = 512 * (t.val / 8) + (y 0).val
    omega
  | ⟨1, _⟩ =>
    show win1_6.index t (1 : Fin 2) * 1 + 1 * (y 1).val = (y 1).val
    omega

end Cert.KernelIdeal.KBlocks

end
-- ==== Proof.KBridge.lean ====
/-
  The running columns of the two pipelines are the running columns spelt over whole arrays.

  At every grid point each input window's block, read off its array as the region finds it, is the block cut out of
  that array by explicit coordinates; the point's grid coordinates are those of the point with the same number. So one
  step of a kernel on the blocks it is handed is one step on the blocks cut out of the arrays, and, both recursions
  resetting at the first of a row block's eight points and stepping elsewhere, the running columns agree at every
  point; with them the row loss written at the last point of a row block.
-/
import proofs.«172070_j13786845020972_1_alg».proof.Proof.KIFrame0
import proofs.«172070_j13786845020972_1_alg».proof.Proof.KIFrame1
import proofs.«172070_j13786845020972_1_alg».proof.Proof.KBlocks
import proofs.«172070_j13786845020972_1_alg».proof.Proof.Tile

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

section
variable (V : (c : Dev nD) → (b : Ref sig .tc) → Buf (Elt F) ((c : Thread nD τ).loc b))

/-- One step of the first kernel on the blocks its windows read is one step on the blocks cut out of the arrays. -/
theorem stepB0_tile (c : Dev nD) (t : Fin cfg0.N) (a : Acc0 F) :
    stepB0 (grid0.coords t) (iblk0 V c 0 t) (iblk0 V c 1 t) (iblk0 V c 2 t) (iblk0 V c 3 t) a
      = Tile.step0 (V c main_arg0) (V c main_v0) (V c main_v1) t.val (lt_of_lt_of_eq t.isLt Gen.N_0) a := by
  have h0 : iblk0 V c 0 t = Tile.rowBlk (V c main_arg0) t.val (lt_of_lt_of_eq t.isLt Gen.N_0) := KBlocks.blk0_0 _ t
  have h1 : iblk0 V c 1 t = Tile.colBlk (V c main_arg0) t.val (lt_of_lt_of_eq t.isLt Gen.N_0) := KBlocks.blk0_1 _ t
  have h2 : iblk0 V c 2 t = Tile.rowLab (V c main_v0) t.val (lt_of_lt_of_eq t.isLt Gen.N_0) := KBlocks.blk0_2 _ t
  have h3 : iblk0 V c 3 t = Tile.colLab (V c main_v1) t.val (lt_of_lt_of_eq t.isLt Gen.N_0) := KBlocks.blk0_3 _ t
  rw [h0, h1, h2, h3]
  rfl

/-- The first kernel's running columns, point by point. -/
theorem bridge0 (c : Dev nD) (n : ℕ) (hn : n < cfg0.N) :
    accF0 V c n hn = Tile.acc0 (V c main_arg0) (V c main_v0) (V c main_v1) n (lt_of_lt_of_eq hn Gen.N_0) := by
  induction n using Nat.strong_induction_on with
  | _ n ih =>
    by_cases h : n % 8 = 0
    · rw [Tile.acc0_first _ _ _ n _ h]
      exact (accF0_first V c ⟨n, hn⟩ h).trans (stepB0_tile V c ⟨n, hn⟩ initB0)
    · rw [Tile.acc0_next _ _ _ n _ h]
      refine (accF0_next V c ⟨n, hn⟩ h).trans ?_
      dsimp only
      rw [ih (n - 1) (by omega)]
      exact stepB0_tile V c ⟨n, hn⟩ _

/-- One step of the second kernel on the blocks its windows read is one step on the blocks cut out of the arrays. -/
theorem stepB1_tile (c : Dev nD) (t : Fin cfg1.N) (b : Acc1 F) :
    stepB1 (grid1.coords t) (iblk1 V c 0 t) (iblk1 V c 1 t) (iblk1 V c 2 t) (iblk1 V c 3 t) (iblk1 V c 4 t) (iblk1 V c 5 t) b
      = Tile.step1 (V c main_arg0) (V c main_v0) (V c main_v1) (V c main_v2_0) (V c main_v2_1) t.val
          (lt_of_lt_of_eq t.isLt Gen.N_1) b := by
  have h0 : iblk1 V c 0 t = Tile.rowBlk (V c main_arg0) t.val (lt_of_lt_of_eq t.isLt Gen.N_1) := KBlocks.blk1_0 _ t
  have h1 : iblk1 V c 1 t = Tile.colBlk (V c main_arg0) t.val (lt_of_lt_of_eq t.isLt Gen.N_1) := KBlocks.blk1_1 _ t
  have h2 : iblk1 V c 2 t = Tile.rowLab (V c main_v0) t.val (lt_of_lt_of_eq t.isLt Gen.N_1) := KBlocks.blk1_2 _ t
  have h3 : iblk1 V c 3 t = Tile.colLab (V c main_v1) t.val (lt_of_lt_of_eq t.isLt Gen.N_1) := KBlocks.blk1_3 _ t
  have h4 : iblk1 V c 4 t = Tile.rowCol (V c main_v2_0) t.val (lt_of_lt_of_eq t.isLt Gen.N_1) := KBlocks.blk1_4 _ t
  have h5 : iblk1 V c 5 t = Tile.rowCol (V c main_v2_1) t.val (lt_of_lt_of_eq t.isLt Gen.N_1) := KBlocks.blk1_5 _ t
  rw [h0, h1, h2, h3, h4, h5]
  rfl

/-- The second kernel's running columns, point by point. -/
theorem bridge1 (c : Dev nD) (n : ℕ) (hn : n < cfg1.N) :
    accF1 V c n hn = Tile.acc1 (V c main_arg0) (V c main_v0) (V c main_v1) (V c main_v2_0) (V c main_v2_1) n
      (lt_of_lt_of_eq hn Gen.N_1) := by
  induction n using Nat.strong_induction_on with
  | _ n ih =>
    by_cases h : n % 8 = 0
    · rw [Tile.acc1_first _ _ _ _ _ n _ h]
      exact (accF1_first V c ⟨n, hn⟩ h).trans (stepB1_tile V c ⟨n, hn⟩ initB1)
    · rw [Tile.acc1_next _ _ _ _ _ n _ h]
      refine (accF1_next V c ⟨n, hn⟩ h).trans ?_
      dsimp only
      rw [ih (n - 1) (by omega)]
      exact stepB1_tile V c ⟨n, hn⟩ _

/-- The row loss the second kernel writes at a point, over whole arrays. -/
theorem bridge_loss (c : Dev nD) (t : Fin cfg1.N) :
    k1_pay2 (iblk1 V c 6 t) (accF1 V c t.val t.isLt).1 (accF1 V c t.val t.isLt).2
      = Tile.loss1 (V c main_arg0) (V c main_v0) (V c main_v1) (V c main_v2_0) (V c main_v2_1) (V c main_v2_2) t.val
          (lt_of_lt_of_eq t.isLt Gen.N_1) := by
  have h6 : iblk1 V c 6 t = Tile.rowCol (V c main_v2_2) t.val (lt_of_lt_of_eq t.isLt Gen.N_1) := KBlocks.blk1_6 _ t
  rw [h6, bridge1 V c t.val t.isLt]
  rfl

end

end Cert.KernelIdeal.Hand

end
-- ==== Proof.Spec.lean ====
/-
  The specification: batch-wise hard-mining triplet loss over 8192 embeddings of width 128 with integer labels, as one
  function of the two argument arrays on the extended reals.

  Row r of the embedding matrix is divided by its Euclidean norm clamped below at a small constant; the similarity of
  rows r and q is the inner product of the two normalised rows. A pair (r, q) is POSITIVE when the labels agree and
  r ≠ q, NEGATIVE when the labels differ. Per row: the largest similarity over the negatives and over the positives
  (a fold of max from -∞), whether a positive exists, the sum over the hard positives (similarity below the hardest
  negative plus a margin) of one minus the similarity, the sum over the hard negatives (similarity above
  max(floor, hardest positive) minus the margin) of the similarity; a row without positives contributes nothing.
  The result is the sum of the rows' losses divided by the number of rows.
-/
import Idealize.ShloMosaic.PureOps.Ideal
import Idealize.ShloMosaic.Lib.ValueIdx

noncomputable section

open scoped BigOperators

namespace Cert.Spec

open Idealize.ShloMosaic Idealize.ShloMosaic.ValueIdx

/-- -∞ as the programs spell it. -/
abbrev NINF : EReal := Ideal.ofBits .f32 0xFF800000#32
/-- The lower clamp of a norm. -/
abbrev EPS : EReal := Ideal.ofBits .f32 0x2B8CBCCC#32
/-- The margin. -/
abbrev MARGIN : EReal := Ideal.ofBits .f32 0x3DCCCCCD#32
/-- The floor of the negative threshold. -/
abbrev FLOOR : EReal := Ideal.ofBits .f32 0x3F19999A#32
/-- One. -/
abbrev ONE : EReal := Ideal.ofBits .f32 0x3F800000#32
/-- The number of rows, as the divisor. -/
abbrev NROWS : EReal := Ideal.ofBits .f32 0x46000000#32

/-- The embedding matrix by coordinates. -/
def xOf (X : (⟨2, ![8192, 128]⟩ : Shape).Idx → EReal) : Fin 8192 → Fin 128 → EReal := fun r k => X (ix2 r k)
/-- The labels by coordinate. -/
def tOf (T : (⟨1, ![8192]⟩ : Shape).Idx → BitVec 32) : Fin 8192 → BitVec 32 := fun r => T (ix1 r)

variable (x : Fin 8192 → Fin 128 → EReal) (tg : Fin 8192 → BitVec 32)

/-- The clamped Euclidean norm of row r. -/
def nrm (r : Fin 8192) : EReal := max (Ideal.sqrt (∑ k : Fin 128, x r k * x r k)) EPS
/-- An entry of the normalised row. -/
def xn (r : Fin 8192) (k : Fin 128) : EReal := Ideal.div (x r k) (nrm x r)
/-- The similarity of rows r and q. -/
def sim (r q : Fin 8192) : EReal := ∑ k : Fin 128, xn x r k * xn x q k
/-- A positive pair: equal labels, off the diagonal. -/
def pos (r q : Fin 8192) : Prop := tg r = tg q ∧ r ≠ q
/-- A negative pair: different labels. -/
def neg (r q : Fin 8192) : Prop := tg r ≠ tg q

instance (r q : Fin 8192) : Decidable (pos tg r q) := by unfold pos; infer_instance
instance (r q : Fin 8192) : Decidable (neg tg r q) := by unfold neg; infer_instance

/-- The hardest negative of row r. -/
def maxNeg (r : Fin 8192) : EReal :=
  (Finset.univ : Finset (Fin 8192)).fold max NINF (fun q => if neg tg r q then sim x r q else NINF)
/-- The hardest positive of row r. -/
def maxPos (r : Fin 8192) : EReal :=
  (Finset.univ : Finset (Fin 8192)).fold max NINF (fun q => if pos tg r q then sim x r q else NINF)
/-- Row r has a positive. -/
def hasPos (r : Fin 8192) : Prop := ∃ q : Fin 8192, pos tg r q
/-- The loss over the hard positives of row r. -/
def posLoss (r : Fin 8192) : EReal :=
  ∑ q : Fin 8192, if pos tg r q ∧ sim x r q < maxNeg x tg r + MARGIN then ONE - sim x r q else 0
/-- The loss over the hard negatives of row r. -/
def negLoss (r : Fin 8192) : EReal :=
  ∑ q : Fin 8192, if neg tg r q ∧ max FLOOR (maxPos x tg r) - MARGIN < sim x r q then sim x r q else 0

open Classical in
/-- The loss of row r. -/
def rowLoss (r : Fin 8192) : EReal := if hasPos tg r then posLoss x tg r + negLoss x tg r else 0

/-- The batch loss. -/
def result : EReal := Ideal.div (∑ r : Fin 8192, rowLoss x tg r) NROWS

end Cert.Spec

end
-- ==== Proof.KLayout.lean ====
/-
  Reading a few layout operations and lane reductions at an index given by coordinates.

  A vector of length a viewed as a column [a, 1] reads, at (i, u), the vector at i; a column [a, 1] spread over b lanes
  reads, at (p, c), the column at (p, 0); the sum (the maximum) over the lanes of an [a, b] array reads, at row p, the
  sum (the fold of max from the starting value) over k of the array at (p, k).
-/
import Idealize.ShloMosaic.Lib.ValueLayout
import Idealize.ShloMosaic.PureOps.Ideal.Laws

noncomputable section

open scoped BigOperators

namespace Cert.KernelIdeal.KLayout

open Idealize.ShloMosaic Idealize.ShloMosaic.ValueIdx

variable {α : Type}

/-- A vector [a] viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Row p with lane k put back is the index (p, k). -/
theorem lift_ix1 {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The sum over the lanes of an [a, b] array, at row p. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_ix1 h p k)

/-- The maximum over the lanes of an [a, b] array, at row p: the fold of max from -∞ over the lanes. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k : Fin b => src (ix2 p k) := funext fun k => congrArg src (lift_ix1 h p k)
  rw [e]
  rfl

end Cert.KernelIdeal.KLayout

end
-- ==== Proof.KBits.lean ====
/-
  One-bit masks as propositions, and the three float words the first kernel's masks are filled with.

  A select on a bit is the if-then-else on "the bit is 1"; the exclusive or of a bit with 1 is 1 exactly when the bit is
  not 1. The word 0xFF800000 denotes -∞, the bottom of the extended reals; 0x3F800000 denotes 1.
-/
import Idealize.ShloMosaic.Lib.Affine
import Idealize.ShloMosaic.Lib.ValueIdx
import Idealize.ShloMosaic.PureOps.Ideal.Laws
import Idealize.ShloMosaic.PureOps.IdealRules

noncomputable section

namespace Cert.KernelIdeal.KBits

open Idealize.ShloMosaic Idealize.ShloMosaic.ValueIdx

/-- A select on a bit is the if-then-else on "the bit is 1". -/
theorem select_eq_ite {α : Type} (c : BitVec 1) (a b : α) : Scalar.select c a b = if c = 1#1 then a else b := rfl

/-- The exclusive or of a bit with 1 is 1 exactly when the bit is not 1. -/
theorem xori_one_eq_one (x : BitVec 1) : IntOp.xori x 1#1 = 1#1 ↔ ¬x = 1#1 := by revert x; decide

/-- The word of -∞ denotes the bottom of the extended reals. -/
theorem ninf_eq_bot : Ideal.ofBits .f32 0xFF800000#32 = ⊥ := by simp [Ideal.ofBits, Ideal.ieee]

/-- The word of 1.0 denotes 1. -/
theorem one_eq_one : Ideal.ofBits .f32 0x3F800000#32 = 1 := IdealRules.sign_bit.ideal_onePat .f32

end Cert.KernelIdeal.KBits

end
-- ==== Proof.KSim.lean ====
/-
  The first kernel's tile quantities, read at an entry.

  Grid point n works on the rows 512 * (n / 8) + p (p < 512) against the columns 1024 * (n % 8) + q (q < 1024) of the
  8192 x 8192 similarity matrix. At entry (p, q) of its tile: the product of the two normalised blocks is the
  similarity of that row and that column; the diagonal mask holds exactly when row and column are the same index of
  the whole matrix; the two label tiles hold the row's label and the column's label; hence the positive mask (equal
  labels, off the diagonal) and the negated equal-labels mask are the specification's positive and negative pairs.
-/
import proofs.«172070_j13786845020972_1_alg».proof.Proof.Tile
import proofs.«172070_j13786845020972_1_alg».proof.Proof.Spec
import proofs.«172070_j13786845020972_1_alg».proof.Proof.KLayout
import proofs.«172070_j13786845020972_1_alg».proof.Proof.KBits

noncomputable section

open scoped BigOperators

namespace Cert.KernelIdeal.KSim

open Idealize.ShloMosaic Idealize.ShloMosaic.ValueIdx Cert.KernelIdeal Cert.KernelIdeal.Gen Cert.KernelIdeal.KLayout Cert.KernelIdeal.KBits

/-- The row of the whole matrix under row p of point n's tile. -/
abbrev row (n : ℕ) (hn : n < 128) (p : Fin 512) : Fin 8192 := ⟨512 * (n / 8) + p.val, by have := p.isLt; omega⟩
/-- The column of the whole matrix under column q of point n's tile. -/
abbrev col (n : ℕ) (hn : n < 128) (q : Fin 1024) : Fin 8192 := ⟨1024 * (n % 8) + q.val, by have := q.isLt; omega⟩

/-! ## The blocks at an entry -/

theorem rowBlk_apply (X : Vec Ideal S8192x128 .f32) (n : ℕ) (hn : n < 128) (p : Fin 512) (k : Fin 128) :
    Tile.rowBlk X n hn (ix2 p k) = X (ix2 (row n hn p) k) := rfl
theorem colBlk_apply (X : Vec Ideal S8192x128 .f32) (n : ℕ) (hn : n < 128) (q : Fin 1024) (k : Fin 128) :
    Tile.colBlk X n hn (ix2 q k) = X (ix2 (col n hn q) k) := rfl
theorem rowLab_apply (T0 : Vec Ideal S8192x1 .i32) (n : ℕ) (hn : n < 128) (p : Fin 512) (u : Fin 1) :
    Tile.rowLab T0 n hn (ix2 p u) = T0 (ix2 (row n hn p) u) := rfl
theorem colLab_apply (T1 : Vec Ideal S1x8192 .i32) (n : ℕ) (hn : n < 128) (u : Fin 1) (q : Fin 1024) :
    Tile.colLab T1 n hn (ix2 u q) = T1 (ix2 u (col n hn q)) := rfl

/-! ## A block's rows divided by their clamped norms -/

/-- An entry of a block with 128 lanes after each row is divided by its Euclidean norm clamped below. -/
theorem normalised_apply {a : ℕ} (v : FVec Ideal ⟨2, ![a, 128]⟩ .f32)
    (hr : (⟨2, ![a, 128]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, 128]⟩)
    (p : Fin a) (k : Fin 128) :
    divf v (broadcastTo ⟨2, ![a, 128]⟩ (maximumf (sqrt (shapeCast ⟨2, ![a, 1]⟩
        (multiReduction .add [1] ⟨1, ![a]⟩ (mulf v v) 0x00000000#32 hr hφ hacc) hc))
        (broadcast ⟨2, ![a, 1]⟩ (Scalar.ofBits .f32 0x2B8CBCCC#32))) hb) (ix2 p k)
      = Ideal.div (v (ix2 p k))
          (max (Ideal.sqrt (∑ k' : Fin 128, v (ix2 p k') * v (ix2 p k'))) (Ideal.ofBits .f32 0x2B8CBCCC#32)) := by
  rw [divf_apply, broadcastTo_a1_ab_apply, maximumf_apply]
  show Ideal.div _ (max (Ideal.sqrt (shapeCast ⟨2, ![a, 1]⟩ _ hc (ix2 p (0 : Fin 1)))) (Ideal.ofBits .f32 0x2B8CBCCC#32)) = _
  rw [shapeCast_a_a1_apply, rowSum_apply]
  rfl

/-! ## The similarity tile -/

/-- The kernel's product contracts the 128 lanes of a [512, 128] block with the 128 rows of a [128, 1024] block. -/
abbrev D := dot_S512x128_S128x1024_S512x1024_1_0_0_1_n_n

theorem lhs_0 (i : S512x1024.Idx) (c : D.contr.Idx) : (D.lhsIdx i c 0).val = (i 0).val := by
  unfold DotDims.lhsIdx
  rw [dif_neg (show ¬(0 : Fin S512x128.rank) ∈ D.lhsBatch by decide),
    dif_pos (show (0 : Fin S512x128.rank) ∈ D.lhsNonContracting by decide)]
  rfl
theorem lhs_1 (i : S512x1024.Idx) (c : D.contr.Idx) : (D.lhsIdx i c 1).val = (c ⟨0, by decide⟩).val :=
  D.lhsIdx_val_of_single rfl i c
theorem rhs_0 (i : S512x1024.Idx) (c : D.contr.Idx) : (D.rhsIdx i c 0).val = (c ⟨0, by decide⟩).val :=
  D.rhsIdx_val_of_single rfl i c
theorem rhs_1 (i : S512x1024.Idx) (c : D.contr.Idx) : (D.rhsIdx i c 1).val = (i 1).val := by
  unfold DotDims.rhsIdx
  rw [dif_neg (show ¬(1 : Fin S128x1024.rank) ∈ D.rhsBatch by decide),
    dif_pos (show (1 : Fin S128x1024.rank) ∈ D.rhsNonContracting by decide)]
  rfl

theorem lhsIdx_eq (p : Fin 512) (q : Fin 1024) (k : Fin 128) :
    D.lhsIdx (ix2 p q) ((contrEquiv1 D 128 rfl rfl).symm k) = ix2 p k := by
  have hk := contrEquiv1_symm_val D 128 rfl rfl k
  funext a
  refine Fin.ext ?_
  match a with
  | ⟨0, _⟩ => exact lhs_0 _ _
  | ⟨1, _⟩ => exact (lhs_1 _ _).trans hk

theorem rhsIdx_eq (p : Fin 512) (q : Fin 1024) (k : Fin 128) :
    D.rhsIdx (ix2 p q) ((contrEquiv1 D 128 rfl rfl).symm k) = ix2 k q := by
  have hk := contrEquiv1_symm_val D 128 rfl rfl k
  funext a
  refine Fin.ext ?_
  match a with
  | ⟨0, _⟩ => exact (rhs_0 _ _).trans hk
  | ⟨1, _⟩ => exact rhs_1 _ _

/-- The product of a normalised row block with a normalised column block, transposed, at (p, q): the sum over the
    128 lanes of the products of the two normalised rows. -/
theorem pay4_apply (v3 : Vec Ideal S512x128 .f32) (v13 : Vec Ideal S1024x128 .f32) (p : Fin 512) (q : Fin 1024) :
    k0_pay4 v3 v13 (ix2 p q)
      = ∑ k : Fin 128,
          Ideal.div (v3 (ix2 p k)) (max (Ideal.sqrt (∑ k' : Fin 128, v3 (ix2 p k') * v3 (ix2 p k'))) (Ideal.ofBits .f32 0x2B8CBCCC#32))
          * Ideal.div (v13 (ix2 q k)) (max (Ideal.sqrt (∑ k' : Fin 128, v13 (ix2 q k') * v13 (ix2 q k'))) (Ideal.ofBits .f32 0x2B8CBCCC#32)) := by
  unfold k0_pay4
  dsimp only
  refine (Ideal.matmul_constant_zero_apply _ none _ _ (ix2 p q)).trans ?_
  rw [← Equiv.sum_comp (contrEquiv1 D 128 rfl rfl).symm]
  refine Finset.sum_congr rfl fun k _ => ?_
  rw [lhsIdx_eq, rhsIdx_eq, truncf_apply, transpose_ix2_apply, truncf_apply, normalised_apply, normalised_apply]

theorem sim_tile (X : Vec Ideal S8192x128 .f32) (n : ℕ) (hn : n < 128) (p : Fin 512) (q : Fin 1024) :
    k0_pay4 (Tile.rowBlk X n hn) (Tile.colBlk X n hn) (ix2 p q)
      = Cert.Spec.sim (Cert.Spec.xOf X) (row n hn p) (col n hn q) := by
  rw [pay4_apply]
  rfl

/-! ## The grid point's coordinates -/

/-- Point n of the 16 x 8 grid has first coordinate n / 8 … -/
theorem coords0 (n : ℕ) (hn : n < 128) : ((grid0.coords (Tile.pt0 n hn)) 0).val = n / 8 := by
  have hs : grid0.stride 0 = 8 := by decide
  show n / grid0.stride 0 % 16 = n / 8
  rw [hs]; omega
/-- … and second coordinate n % 8. -/
theorem coords1 (n : ℕ) (hn : n < 128) : ((grid0.coords (Tile.pt0 n hn)) 1).val = n % 8 := by
  have hs : grid0.stride 1 = 1 := by decide
  show n / grid0.stride 1 % 8 = n % 8
  rw [hs, Nat.div_one]

/-! ## The diagonal mask -/

/-- The diagonal mask at (p, q) compares, as 32-bit words, p + 512 * (first coordinate) with q + 1024 * (second). -/
theorem pay5_apply (i : grid0.Coords) (p : Fin 512) (q : Fin 1024) :
    k0_pay5 i (ix2 p q)
      = IntOp.cmpi .eq (BitVec.ofNat 32 p.val + BitVec.ofNat 32 (i 0).val * 512#32)
          (BitVec.ofNat 32 q.val + BitVec.ofNat 32 (i 1).val * 1024#32) := by
  unfold k0_pay5
  dsimp only
  show IntOp.cmpi .eq (IntOp.addi (iota .tc S512x1024 32 [0] _ (ix2 p q)) _) (IntOp.addi (iota .tc S512x1024 32 [1] _ (ix2 p q)) _) = _
  rw [iota_single_apply, iota_single_apply]
  rfl

/-- No wrap: both words are below 8192, so they are equal exactly when row and column are the same index. -/
theorem eye_tile (n : ℕ) (hn : n < 128) (p : Fin 512) (q : Fin 1024) :
    k0_pay5 (grid0.coords (Tile.pt0 n hn)) (ix2 p q) = 1#1 ↔ row n hn p = col n hn q := by
  rw [pay5_apply, IntOp.cmpi_eq, coords0, coords1]
  have hp := p.isLt
  have hq := q.isLt
  constructor
  · intro h
    refine Fin.ext ?_
    show 512 * (n / 8) + p.val = 1024 * (n % 8) + q.val
    have h' := congrArg BitVec.toNat h
    simp only [BitVec.toNat_add, BitVec.toNat_mul, BitVec.toNat_ofNat] at h'
    omega
  · intro h
    have h' : 512 * (n / 8) + p.val = 1024 * (n % 8) + q.val := congrArg Fin.val h
    refine BitVec.eq_of_toNat_eq ?_
    simp only [BitVec.toNat_add, BitVec.toNat_mul, BitVec.toNat_ofNat]
    omega

/-! ## The label tiles -/

theorem rowlab_tile (T0 : Vec Ideal S8192x1 .i32) (n : ℕ) (hn : n < 128) (p : Fin 512) (q : Fin 1024) :
    k0_pay6 (Tile.rowLab T0 n hn) (ix2 p q) = T0 (ix2 (row n hn p) (0 : Fin 1)) := by
  unfold k0_pay6
  rw [broadcastTo_a1_ab_apply, shapeCast_self]
  rfl

theorem collab_tile (T1 : Vec Ideal S1x8192 .i32) (n : ℕ) (hn : n < 128) (p : Fin 512) (q : Fin 1024) :
    k0_pay7 (Tile.colLab T1 n hn) (ix2 p q) = T1 (ix2 (0 : Fin 1) (col n hn q)) := by
  unfold k0_pay7
  rw [broadcastTo_1b_ab_apply, shapeCast_self]
  rfl

/-! ## The positive and the negative mask -/

/-- The positive mask at an entry: the two label tiles agree there and the diagonal mask is off. -/
theorem pay9_apply (v33 : IVec S512x1024 1) (v38 v39 : IVec S512x1024 32) (j : S512x1024.Idx) :
    k0_pay9 v33 v38 v39 j = 1#1 ↔ v38 j = v39 j ∧ ¬v33 j = 1#1 := by
  show IntOp.andi (IntOp.cmpi .eq (v38 j) (v39 j)) (IntOp.xori (v33 j) 1#1) = 1#1 ↔ _
  rw [IntOp.andi_eq_one, IntOp.cmpi_eq, xori_one_eq_one]

/-- The negated equal-labels mask at an entry: the two label tiles differ there. -/
theorem negmask_apply (v38 v39 : IVec S512x1024 32) (j : S512x1024.Idx) :
    xori (k0_pay8 v38 v39) (constantI S512x1024 1 1#1) j = 1#1 ↔ ¬v38 j = v39 j := by
  show IntOp.xori (IntOp.cmpi .eq (v38 j) (v39 j)) 1#1 = 1#1 ↔ _
  rw [xori_one_eq_one, IntOp.cmpi_eq]

theorem pos_tile (T0 : Vec Ideal S8192x1 .i32) (T1 : Vec Ideal S1x8192 .i32) (tg : Fin 8192 → BitVec 32)
    (hT0 : ∀ r : Fin 8192, T0 (ix2 r (0 : Fin 1)) = tg r) (hT1 : ∀ r : Fin 8192, T1 (ix2 (0 : Fin 1) r) = tg r)
    (n : ℕ) (hn : n < 128) (p : Fin 512) (q : Fin 1024) :
    k0_pay9 (k0_pay5 (grid0.coords (Tile.pt0 n hn))) (k0_pay6 (Tile.rowLab T0 n hn)) (k0_pay7 (Tile.colLab T1 n hn)) (ix2 p q) = 1#1
      ↔ Cert.Spec.pos tg (row n hn p) (col n hn q) := by
  rw [pay9_apply, rowlab_tile, collab_tile, hT0, hT1]
  exact and_congr Iff.rfl (not_congr (eye_tile n hn p q))

theorem neg_tile (T0 : Vec Ideal S8192x1 .i32) (T1 : Vec Ideal S1x8192 .i32) (tg : Fin 8192 → BitVec 32)
    (hT0 : ∀ r : Fin 8192, T0 (ix2 r (0 : Fin 1)) = tg r) (hT1 : ∀ r : Fin 8192, T1 (ix2 (0 : Fin 1) r) = tg r)
    (n : ℕ) (hn : n < 128) (p : Fin 512) (q : Fin 1024) :
    xori (k0_pay8 (k0_pay6 (Tile.rowLab T0 n hn)) (k0_pay7 (Tile.colLab T1 n hn))) (constantI S512x1024 1 1#1) (ix2 p q) = 1#1
      ↔ Cert.Spec.neg tg (row n hn p) (col n hn q) := by
  rw [negmask_apply, rowlab_tile, collab_tile, hT0, hT1]
  exact Iff.rfl

end Cert.KernelIdeal.KSim

end
-- ==== Proof.KStep0.lean ====
/-
  One grid point of the first kernel, read at a row.

  At row p of its tile, a point replaces the running hardest negative by its maximum with the fold of max, from -∞,
  over the tile's 1024 columns of the similarity where the pair is negative (and -∞ elsewhere); the running hardest
  positive likewise over the positive pairs; and the running flag by its maximum with 1 if some column of the tile is a
  positive of the row, else 0 (the largest of the 0/1 indicators, from -∞, compared with 0 and converted back to a
  float). The three columns start at -∞, -∞ and 0.
-/
import proofs.«172070_j13786845020972_1_alg».proof.Proof.KSim

noncomputable section

open scoped BigOperators

namespace Cert.KernelIdeal.KStep0

open Idealize.ShloMosaic Idealize.ShloMosaic.ValueIdx Cert.KernelIdeal Cert.KernelIdeal.Gen Cert.KernelIdeal.KLayout
  Cert.KernelIdeal.KBits Cert.KernelIdeal.KSim

/-! ## The starting columns -/

theorem pay1_apply (j : S512x1.Idx) : k0_pay1 (F := Ideal) j = Cert.Spec.NINF := by
  unfold k0_pay1
  rw [shapeCast_self]
  rfl
theorem pay2_apply (j : S512x1.Idx) : k0_pay2 (F := Ideal) j = Cert.Spec.NINF := by
  unfold k0_pay2
  rw [shapeCast_self]
  rfl
theorem pay3_apply (j : S512x1.Idx) : k0_pay3 (F := Ideal) j = 0 := by
  unfold k0_pay3
  rw [shapeCast_self]
  exact Ideal.ofBits_zero_f32

/-! ## The three updates over arbitrary tiles -/

/-- The hardest-negative update at row p. -/
theorem pay10_apply (v24 : FVec Ideal S512x1024 .f32) (v38 v39 : IVec S512x1024 32) (v61 : Vec Ideal S512x1 .f32)
    (p : Fin 512) (u : Fin 1) :
    k0_pay10 v24 v38 v39 v61 (ix2 p u)
      = max (v61 (ix2 p u)) ((Finset.univ : Finset (Fin 1024)).fold max Cert.Spec.NINF fun q =>
          if xori (k0_pay8 v38 v39) (constantI S512x1024 1 1#1) (ix2 p q) = 1#1 then v24 (ix2 p q) else Cert.Spec.NINF) := by
  unfold k0_pay10
  try dsimp only
  rw [shapeCast_self, maximumf_apply, shapeCast_a_a1_apply, rowMax_apply]
  rfl

/-- The hardest-positive update at row p. -/
theorem pay11_apply (v24 : FVec Ideal S512x1024 .f32) (v33 : IVec S512x1024 1) (v38 v39 : IVec S512x1024 32)
    (v66 : Vec Ideal S512x1 .f32) (p : Fin 512) (u : Fin 1) :
    k0_pay11 v24 v33 v38 v39 v66 (ix2 p u)
      = max (v66 (ix2 p u)) ((Finset.univ : Finset (Fin 1024)).fold max Cert.Spec.NINF fun q =>
          if k0_pay9 v33 v38 v39 (ix2 p q) = 1#1 then v24 (ix2 p q) else Cert.Spec.NINF) := by
  unfold k0_pay11
  try dsimp only
  rw [shapeCast_self, maximumf_apply, shapeCast_a_a1_apply, rowMax_apply]
  rfl

/-- A fold of max, from -∞, of 0/1 indicators is above 0 exactly when some indicator is 1; compared with 0 and converted
    back to a float, it is the indicator of "some m q holds". -/
theorem flag_eq (g : Fin 1024 → EReal) (m : Fin 1024 → Prop) [DecidablePred m]
    (hg : ∀ q, g q = if m q then Cert.Spec.ONE else Ideal.ofBits .f32 0x00000000#32) :
    (FloatOps.sitofp (F := Ideal) .f32
        ((FloatOps.cmpf (F := Ideal) (φ := .f32) .ogt ((Finset.univ : Finset (Fin 1024)).fold max Cert.Spec.NINF g)
          (Ideal.ofBits .f32 0x00000000#32)).setWidth 32) : EReal)
      = if ∃ q, m q then Cert.Spec.ONE else 0 := by
  have hlt : (0 : EReal) < (Finset.univ : Finset (Fin 1024)).fold max Cert.Spec.NINF g ↔ ∃ q, m q := by
    rw [Finset.lt_fold_max]
    constructor
    · rintro (h | ⟨q, -, h⟩)
      · rw [show Cert.Spec.NINF = ⊥ from ninf_eq_bot] at h
        exact absurd h not_lt_bot
      · by_contra hne
        have hq : ¬m q := fun hq => hne ⟨q, hq⟩
        rw [hg, if_neg hq, Ideal.ofBits_zero_f32] at h
        exact lt_irrefl _ h
    · rintro ⟨q, hq⟩
      refine .inr ⟨q, Finset.mem_univ _, ?_⟩
      rw [hg, if_pos hq, show Cert.Spec.ONE = 1 from one_eq_one]
      exact zero_lt_one
  have hc : FloatOps.cmpf (F := Ideal) (φ := .f32) .ogt ((Finset.univ : Finset (Fin 1024)).fold max Cert.Spec.NINF g)
      (Ideal.ofBits .f32 0x00000000#32) = BitVec.ofBool (decide (∃ q, m q)) := by
    show BitVec.ofBool (decide (Ideal.ofBits .f32 0x00000000#32 < _)) = _
    rw [Ideal.ofBits_zero_f32]
    exact congrArg BitVec.ofBool (decide_eq_decide.mpr hlt)
  rw [hc]
  by_cases h : ∃ q, m q
  · rw [if_pos h, decide_eq_true h, show Cert.Spec.ONE = 1 from one_eq_one]
    have e : ((BitVec.ofBool true).setWidth 32).toInt = 1 := by decide
    show ((((BitVec.ofBool true).setWidth 32).toInt : ℝ) : EReal) = 1
    rw [e]
    simp
  · rw [if_neg h, decide_eq_false h]
    have e : ((BitVec.ofBool false).setWidth 32).toInt = 0 := by decide
    show ((((BitVec.ofBool false).setWidth 32).toInt : ℝ) : EReal) = 0
    rw [e]
    simp

/-- The has-a-positive update at row p. -/
theorem pay12_apply (v33 : IVec S512x1024 1) (v38 v39 : IVec S512x1024 32) (v71 : Vec Ideal S512x1 .f32)
    (p : Fin 512) (u : Fin 1) :
    k0_pay12 v33 v38 v39 v71 (ix2 p u)
      = max (v71 (ix2 p u)) (if ∃ q : Fin 1024, k0_pay9 v33 v38 v39 (ix2 p q) = 1#1 then Cert.Spec.ONE else 0) := by
  unfold k0_pay12
  try dsimp only
  rw [shapeCast_self, maximumf_apply]
  refine congrArg (max _) ?_
  rw [sitofp_apply, extui_apply, shapeCast_a_a1_apply, cmpf_apply, rowMax_apply]
  exact flag_eq _ (fun q => k0_pay9 v33 v38 v39 (ix2 p q) = 1#1) (fun q => rfl)

/-! ## The three updates of point n in the specification's words -/

/-- What row r sees in column c for its hardest negative. -/
def fNeg (x : Fin 8192 → Fin 128 → EReal) (tg : Fin 8192 → BitVec 32) (r c : Fin 8192) : EReal :=
  if Cert.Spec.neg tg r c then Cert.Spec.sim x r c else Cert.Spec.NINF
/-- What row r sees in column c for its hardest positive. -/
def fPos (x : Fin 8192 → Fin 128 → EReal) (tg : Fin 8192 → BitVec 32) (r c : Fin 8192) : EReal :=
  if Cert.Spec.pos tg r c then Cert.Spec.sim x r c else Cert.Spec.NINF

section Step
variable (X : Vec Ideal S8192x128 .f32) (T0 : Vec Ideal S8192x1 .i32) (T1 : Vec Ideal S1x8192 .i32)
  (tg : Fin 8192 → BitVec 32)
  (hT0 : ∀ r : Fin 8192, T0 (ix2 r (0 : Fin 1)) = tg r) (hT1 : ∀ r : Fin 8192, T1 (ix2 (0 : Fin 1) r) = tg r)
  (n : ℕ) (hn : n < 128) (a : Tile.Acc0 Ideal) (p : Fin 512)

include hT0 hT1 in
theorem step0_neg :
    (Tile.step0 X T0 T1 n hn a).1 (ix2 p (0 : Fin 1))
      = max (a.1 (ix2 p (0 : Fin 1))) ((Finset.univ : Finset (Fin 1024)).fold max Cert.Spec.NINF fun q =>
          fNeg (Cert.Spec.xOf X) tg (row n hn p) (col n hn q)) := by
  show k0_pay10 (F := Ideal) _ _ _ a.1 (ix2 p (0 : Fin 1)) = _
  rw [pay10_apply]
  refine congrArg (max _) (congrArg (fun g => Finset.fold max Cert.Spec.NINF g Finset.univ) (funext fun q => ?_))
  rw [sim_tile]
  exact if_congr (neg_tile T0 T1 tg hT0 hT1 n hn p q) rfl rfl

include hT0 hT1 in
theorem step0_pos :
    (Tile.step0 X T0 T1 n hn a).2.1 (ix2 p (0 : Fin 1))
      = max (a.2.1 (ix2 p (0 : Fin 1))) ((Finset.univ : Finset (Fin 1024)).fold max Cert.Spec.NINF fun q =>
          fPos (Cert.Spec.xOf X) tg (row n hn p) (col n hn q)) := by
  show k0_pay11 (F := Ideal) _ _ _ _ a.2.1 (ix2 p (0 : Fin 1)) = _
  rw [pay11_apply]
  refine congrArg (max _) (congrArg (fun g => Finset.fold max Cert.Spec.NINF g Finset.univ) (funext fun q => ?_))
  rw [sim_tile]
  exact if_congr (pos_tile T0 T1 tg hT0 hT1 n hn p q) rfl rfl

include hT0 hT1 in
open Classical in
theorem step0_flag :
    (Tile.step0 X T0 T1 n hn a).2.2 (ix2 p (0 : Fin 1))
      = max (a.2.2 (ix2 p (0 : Fin 1)))
          (if ∃ q : Fin 1024, Cert.Spec.pos tg (row n hn p) (col n hn q) then Cert.Spec.ONE else 0) := by
  show k0_pay12 (F := Ideal) _ _ _ a.2.2 (ix2 p (0 : Fin 1)) = _
  rw [pay12_apply]
  refine congrArg (max _) ?_
  exact if_congr (exists_congr fun q => pos_tile T0 T1 tg hT0 hT1 n hn p q) rfl rfl

end Step

end Cert.KernelIdeal.KStep0

end
-- ==== Proof.KFold.lean ====
/-
  A fold of max over 8192 columns, taken block by block.

  The columns below 1024 * (j + 1) are the columns below 1024 * j together with the block 1024 * j + q, q < 1024. So the
  fold of max (from any starting value b) over the first j + 1 blocks is the maximum of the fold over the first j blocks
  and the fold over block j; over no block it is b, and over all eight blocks it is the fold over every column. The same
  splitting for "some column satisfies P", and the maximum of two 0/1 indicators as the indicator of the disjunction.
  Proved through the universal property of a fold of max: it is below c exactly when b and every value are.
-/
import Mathlib.Data.Finset.Fold
import Mathlib.Data.Fintype.Basic
import Mathlib.Order.Lattice

namespace Cert.KernelIdeal.KFold

variable {α : Type*} [LinearOrder α]

/-- The columns of the first j blocks of 1024. -/
def below (j : ℕ) : Finset (Fin 8192) := Finset.univ.filter fun c => c.val < 1024 * j

theorem mem_below {j : ℕ} {c : Fin 8192} : c ∈ below j ↔ c.val < 1024 * j := by
  unfold below
  rw [Finset.mem_filter]
  exact ⟨fun h => h.2, fun h => ⟨Finset.mem_univ _, h⟩⟩

/-- No block holds no column. -/
theorem below_zero : below 0 = ∅ :=
  Finset.filter_eq_empty_iff.mpr fun c _ h => by omega

/-- The eight blocks hold every column. -/
theorem below_eight : below 8 = Finset.univ :=
  Finset.filter_true_of_mem fun c _ => by have := c.isLt; omega

/-- Column q of block j. -/
abbrev blockCol (j : ℕ) (hj : j < 8) (q : Fin 1024) : Fin 8192 := ⟨1024 * j + q.val, by have := q.isLt; omega⟩

theorem fold_below_zero (b : α) (f : Fin 8192 → α) : (below 0).fold max b f = b := by
  rw [below_zero, Finset.fold_empty]

/-- The fold over the first j + 1 blocks is the maximum of the fold over the first j and the fold over block j. -/
theorem fold_below_succ (b : α) (f : Fin 8192 → α) (j : ℕ) (hj : j < 8) :
    (below (j + 1)).fold max b f
      = max ((below j).fold max b f) ((Finset.univ : Finset (Fin 1024)).fold max b fun q => f (blockCol j hj q)) := by
  refine eq_of_forall_ge_iff fun c => ?_
  rw [Finset.fold_max_le, max_le_iff, Finset.fold_max_le, Finset.fold_max_le]
  constructor
  · rintro ⟨hb, h⟩
    refine ⟨⟨hb, fun x hx => h x ?_⟩, hb, fun q _ => h _ ?_⟩
    · have := mem_below.mp hx
      exact mem_below.mpr (by omega)
    · refine mem_below.mpr ?_
      show 1024 * j + q.val < 1024 * (j + 1)
      have := q.isLt
      omega
  · rintro ⟨⟨hb, h1⟩, -, h2⟩
    refine ⟨hb, fun x hx => ?_⟩
    have hx' : x.val < 1024 * (j + 1) := mem_below.mp hx
    by_cases hlt : x.val < 1024 * j
    · exact h1 x (mem_below.mpr hlt)
    · have e : blockCol j hj ⟨x.val - 1024 * j, by omega⟩ = x :=
        Fin.ext (by show 1024 * j + (x.val - 1024 * j) = x.val; omega)
      have := h2 ⟨x.val - 1024 * j, by omega⟩ (Finset.mem_univ _)
      rwa [e] at this

/-- Some column of the first j + 1 blocks satisfies P exactly when one of the first j blocks or one of block j does. -/
theorem exists_below_succ (P : Fin 8192 → Prop) (j : ℕ) (hj : j < 8) :
    (∃ c ∈ below (j + 1), P c) ↔ (∃ c ∈ below j, P c) ∨ ∃ q : Fin 1024, P (blockCol j hj q) := by
  constructor
  · rintro ⟨x, hx, hP⟩
    have hx' : x.val < 1024 * (j + 1) := mem_below.mp hx
    by_cases hlt : x.val < 1024 * j
    · exact .inl ⟨x, mem_below.mpr hlt, hP⟩
    · have e : blockCol j hj ⟨x.val - 1024 * j, by omega⟩ = x :=
        Fin.ext (by show 1024 * j + (x.val - 1024 * j) = x.val; omega)
      exact .inr ⟨⟨x.val - 1024 * j, by omega⟩, by rw [e]; exact hP⟩
  · rintro (⟨x, hx, hP⟩ | ⟨q, hP⟩)
    · have := mem_below.mp hx
      exact ⟨x, mem_below.mpr (by omega), hP⟩
    · refine ⟨_, mem_below.mpr ?_, hP⟩
      show 1024 * j + q.val < 1024 * (j + 1)
      have := q.isLt
      omega

theorem not_exists_below_zero (P : Fin 8192 → Prop) : ¬∃ c ∈ below 0, P c := by
  rintro ⟨c, hc, -⟩
  rw [below_zero] at hc
  exact absurd hc (Finset.notMem_empty c)

theorem exists_below_eight (P : Fin 8192 → Prop) : (∃ c ∈ below 8, P c) ↔ ∃ c, P c := by
  rw [below_eight]
  exact ⟨fun ⟨c, _, h⟩ => ⟨c, h⟩, fun ⟨c, h⟩ => ⟨c, Finset.mem_univ _, h⟩⟩

/-- The maximum of two indicators with values z ≤ o is the indicator of the disjunction. -/
theorem max_ite_or {z o : α} (h : z ≤ o) (A B : Prop) [Decidable A] [Decidable B] [Decidable (A ∨ B)] :
    max (if A then o else z) (if B then o else z) = if A ∨ B then o else z := by
  by_cases hA : A <;> by_cases hB : B <;> simp [hA, hB, h]

end Cert.KernelIdeal.KFold
-- ==== Proof.KVal0.lean ====
/-
  The first kernel's three running columns after the last point of a row block.

  Point n = 8 * i + j of the grid works on row block i against column block j. Read at row p, the three running
  columns after point n hold what the row has seen in the first j + 1 blocks of 1024 columns: the fold of max, from -∞,
  of the similarity over its negatives there, the same over its positives, and 1 or 0 as a positive exists there or
  not. At j = 0 the columns restart from -∞, -∞ and 0, which is what no block gives; each point adds its block
  (a fold of max over a union of blocks is the maximum of the folds; "some column" splits likewise). After j = 7 all
  8192 columns have been seen: the hardest negative, the hardest positive and the has-a-positive flag of the row.
-/
import proofs.«172070_j13786845020972_1_alg».proof.Proof.KStep0
import proofs.«172070_j13786845020972_1_alg».proof.Proof.KFold

noncomputable section

open scoped BigOperators

namespace Cert.KernelIdeal.KVal0

open Idealize.ShloMosaic Idealize.ShloMosaic.ValueIdx Cert.KernelIdeal Cert.KernelIdeal.Gen Cert.KernelIdeal.KBits
  Cert.KernelIdeal.KSim Cert.KernelIdeal.KStep0 Cert.KernelIdeal.KFold

/-- The three running columns read at row p. -/
def read3 (a : Tile.Acc0 Ideal) (p : Fin 512) : EReal × EReal × EReal :=
  (a.1 (ix2 p (0 : Fin 1)), a.2.1 (ix2 p (0 : Fin 1)), a.2.2 (ix2 p (0 : Fin 1)))

open Classical in
/-- What row r has seen in the first j blocks of columns. -/
def seen (x : Fin 8192 → Fin 128 → EReal) (tg : Fin 8192 → BitVec 32) (r : Fin 8192) (j : ℕ) : EReal × EReal × EReal :=
  ((below j).fold max Cert.Spec.NINF (fNeg x tg r), (below j).fold max Cert.Spec.NINF (fPos x tg r),
    if ∃ c ∈ below j, Cert.Spec.pos tg r c then Cert.Spec.ONE else 0)

theorem zero_le_ONE : (0 : EReal) ≤ Cert.Spec.ONE := by
  rw [show Cert.Spec.ONE = 1 from one_eq_one]
  exact zero_le_one

/-- The starting columns hold what no block gives. -/
theorem init_seen (x : Fin 8192 → Fin 128 → EReal) (tg : Fin 8192 → BitVec 32) (r : Fin 8192) (p : Fin 512) :
    read3 Tile.init0 p = seen x tg r 0 := by
  refine Prod.ext ?_ (Prod.ext ?_ ?_)
  · show k0_pay1 (F := Ideal) (ix2 p (0 : Fin 1)) = (below 0).fold max Cert.Spec.NINF (fNeg x tg r)
    rw [pay1_apply, fold_below_zero]
  · show k0_pay2 (F := Ideal) (ix2 p (0 : Fin 1)) = (below 0).fold max Cert.Spec.NINF (fPos x tg r)
    rw [pay2_apply, fold_below_zero]
  · show k0_pay3 (F := Ideal) (ix2 p (0 : Fin 1)) = _
    rw [pay3_apply]
    unfold seen
    dsimp only
    exact (if_neg (not_exists_below_zero _)).symm

section
variable (X : Vec Ideal S8192x128 .f32) (T0 : Vec Ideal S8192x1 .i32) (T1 : Vec Ideal S1x8192 .i32)
  (tg : Fin 8192 → BitVec 32)
  (hT0 : ∀ r : Fin 8192, T0 (ix2 r (0 : Fin 1)) = tg r) (hT1 : ∀ r : Fin 8192, T1 (ix2 (0 : Fin 1) r) = tg r)

include hT0 hT1 in
/-- One point adds its block of columns. -/
theorem step_seen (n : ℕ) (hn : n < 128) (a : Tile.Acc0 Ideal) (p : Fin 512)
    (h : read3 a p = seen (Cert.Spec.xOf X) tg (row n hn p) (n % 8)) :
    read3 (Tile.step0 X T0 T1 n hn a) p = seen (Cert.Spec.xOf X) tg (row n hn p) (n % 8 + 1) := by
  have h8 : n % 8 < 8 := Nat.mod_lt _ (by decide)
  have h1 : a.1 (ix2 p (0 : Fin 1)) = (below (n % 8)).fold max Cert.Spec.NINF (fNeg (Cert.Spec.xOf X) tg (row n hn p)) :=
    congrArg Prod.fst h
  have h2 : a.2.1 (ix2 p (0 : Fin 1)) = (below (n % 8)).fold max Cert.Spec.NINF (fPos (Cert.Spec.xOf X) tg (row n hn p)) :=
    congrArg (fun t => t.2.1) h
  have h3 := congrArg (fun t => t.2.2) h
  refine Prod.ext ?_ (Prod.ext ?_ ?_)
  · show (Tile.step0 X T0 T1 n hn a).1 (ix2 p (0 : Fin 1)) = _
    rw [step0_neg X T0 T1 tg hT0 hT1 n hn a p, h1]
    exact (fold_below_succ _ _ (n % 8) h8).symm
  · show (Tile.step0 X T0 T1 n hn a).2.1 (ix2 p (0 : Fin 1)) = _
    rw [step0_pos X T0 T1 tg hT0 hT1 n hn a p, h2]
    exact (fold_below_succ _ _ (n % 8) h8).symm
  · show (Tile.step0 X T0 T1 n hn a).2.2 (ix2 p (0 : Fin 1)) = _
    rw [step0_flag X T0 T1 tg hT0 hT1 n hn a p]
    refine (congrArg (fun t => max t _) h3).trans ?_
    refine (max_ite_or zero_le_ONE _ _).trans ?_
    exact if_congr (exists_below_succ _ (n % 8) h8).symm rfl rfl

include hT0 hT1 in
/-- After point n the columns hold what the rows of its row block have seen in the first n % 8 + 1 column blocks. -/
theorem acc0_seen (n : ℕ) : ∀ (hn : n < 128) (p : Fin 512),
    read3 (Tile.acc0 X T0 T1 n hn) p = seen (Cert.Spec.xOf X) tg (row n hn p) (n % 8 + 1) := by
  induction n with
  | zero =>
    intro hn p
    exact step_seen X T0 T1 tg hT0 hT1 0 hn Tile.init0 p (init_seen _ _ _ p)
  | succ k ih =>
    intro hn p
    by_cases h : (k + 1) % 8 = 0
    · rw [Tile.acc0_first X T0 T1 (k + 1) hn h]
      refine step_seen X T0 T1 tg hT0 hT1 (k + 1) hn Tile.init0 p ?_
      rw [h]
      exact init_seen _ _ _ p
    · rw [Tile.acc0_next X T0 T1 (k + 1) hn h]
      refine step_seen X T0 T1 tg hT0 hT1 (k + 1) hn _ p ?_
      have hk : k < 128 := by omega
      have e1 : row k hk p = row (k + 1) hn p :=
        Fin.ext (by show 512 * (k / 8) + p.val = 512 * ((k + 1) / 8) + p.val; omega)
      have e2 : k % 8 + 1 = (k + 1) % 8 := by omega
      refine (ih hk p).trans ?_
      rw [e1, e2]

end

open Classical in
/-- After the last point of a row block the three running columns hold the row's hardest negative, hardest positive
    and has-a-positive flag. -/
theorem acc0_spec (X : Vec Ideal S8192x128 .f32) (T0 : Vec Ideal S8192x1 .i32) (T1 : Vec Ideal S1x8192 .i32)
    (tg : Fin 8192 → BitVec 32)
    (hT0 : ∀ r : Fin 8192, T0 (ix2 r (0 : Fin 1)) = tg r) (hT1 : ∀ r : Fin 8192, T1 (ix2 (0 : Fin 1) r) = tg r)
    (n : ℕ) (hn : n < 128) (h7 : n % 8 = 7) (p : Fin 512) :
    (Tile.acc0 X T0 T1 n hn).1 (ix2 p (0 : Fin 1)) = Cert.Spec.maxNeg (Cert.Spec.xOf X) tg ⟨512 * (n / 8) + p.val, by omega⟩
    ∧ (Tile.acc0 X T0 T1 n hn).2.1 (ix2 p (0 : Fin 1)) = Cert.Spec.maxPos (Cert.Spec.xOf X) tg ⟨512 * (n / 8) + p.val, by omega⟩
    ∧ (Tile.acc0 X T0 T1 n hn).2.2 (ix2 p (0 : Fin 1))
        = (if Cert.Spec.hasPos tg ⟨512 * (n / 8) + p.val, by omega⟩ then Cert.Spec.ONE else 0) := by
  have h := acc0_seen X T0 T1 tg hT0 hT1 n hn p
  rw [h7] at h
  refine ⟨?_, ?_, ?_⟩
  · refine (congrArg Prod.fst h).trans ?_
    show (below 8).fold max Cert.Spec.NINF (fNeg (Cert.Spec.xOf X) tg (row n hn p)) = _
    rw [below_eight]
    rfl
  · refine (congrArg (fun t => t.2.1) h).trans ?_
    show (below 8).fold max Cert.Spec.NINF (fPos (Cert.Spec.xOf X) tg (row n hn p)) = _
    rw [below_eight]
    rfl
  · refine (congrArg (fun t => t.2.2) h).trans ?_
    exact if_congr (exists_below_eight _) rfl rfl

end Cert.KernelIdeal.KVal0

end
-- ==== Proof.KRead.lean ====
/-
  Small reading lemmas: one-bit words as propositions, and three layout operations read at an index.

  A one-bit word is 1 or 0. A select on it is the if-then-else on "the word is 1"; an equality test of two words is 1
  exactly when they are equal; the exclusive or with 1 is 1 exactly when the word is not 1; the and of two words is 1
  exactly when both are; and at the extended reals an ordered less-than or greater-than test is 1 exactly when the
  strict inequality holds.

  A vector of a entries viewed as a column [a, 1] reads its entry p at (p, 0); a column [a, 1] broadcast over b
  columns reads its row's entry at (p, q); and a sum of an [a, b] array along its second axis, from the zero word, is at
  p the sum over q of the entries (p, q).
-/
import Idealize.ShloMosaic.PureOps.Ideal.Laws
import Idealize.ShloMosaic.Lib.ValueLayout

noncomputable section

open scoped BigOperators

namespace Cert.KernelIdeal.KRead

open Idealize.ShloMosaic Idealize.ShloMosaic.ValueIdx

/-! ## One-bit words -/

/-- A select is the if-then-else on "the condition is 1". -/
theorem select_ite {α : Type} (c : BitVec 1) (a b : α) : Scalar.select c a b = if c = 1#1 then a else b := rfl

/-- An equality test of two words is 1 exactly when they are equal. -/
theorem cmpi_eq_iff {w : Nat} (a b : BitVec w) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun h1 => absurd h1 (by decide), fun h2 => absurd h2 h⟩

/-- The exclusive or with 1 is 1 exactly when the word is not 1. -/
theorem xori_one_iff (x : BitVec 1) : IntOp.xori x 1#1 = 1#1 ↔ ¬ x = 1#1 := by
  unfold IntOp.xori
  rcases BitVec.eq_zero_or_eq_one x with h | h <;> subst h <;> decide

/-- The and of two one-bit words is 1 exactly when both are. -/
theorem andi_iff (a b : BitVec 1) : IntOp.andi a b = 1#1 ↔ a = 1#1 ∧ b = 1#1 := by
  unfold IntOp.andi
  rcases BitVec.eq_zero_or_eq_one a with h | h <;> rcases BitVec.eq_zero_or_eq_one b with h' | h' <;> subst h <;> subst h' <;> decide

/-- An ordered less-than test at the extended reals is 1 exactly when the strict inequality holds. -/
theorem cmpf_olt_iff {φ : FTy} (a b : Ideal φ) : FloatOps.cmpf .olt a b = 1#1 ↔ (a : EReal) < b := by
  show Ideal.cmp .olt a b = 1#1 ↔ _
  unfold Ideal.cmp
  by_cases h : (a : EReal) < b <;> simp [h]

/-- An ordered greater-than test at the extended reals is 1 exactly when the strict inequality holds. -/
theorem cmpf_ogt_iff {φ : FTy} (a b : Ideal φ) : FloatOps.cmpf .ogt a b = 1#1 ↔ (b : EReal) < a := by
  show Ideal.cmp .ogt a b = 1#1 ↔ _
  unfold Ideal.cmp
  by_cases h : (b : EReal) < a <;> simp [h]

/-! ## Layout operations read at an index -/

variable {α : Type}

/-- A vector of a entries viewed as a column reads, at (p, 0), its entry p. -/
theorem col_cast_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast over b columns reads, at (p, q), the column's entry of row p. -/
theorem col_bcast_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum of an [a, b] array along its second axis, from the zero word, is at p the sum over q of the entries (p, q). -/
theorem row_sum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  show ∑ q : Fin b, src (h.lift (ix1 p) q) = _
  refine Finset.sum_congr rfl fun q _ => congrArg src ?_
  funext ax
  match ax with
  | ⟨0, _⟩ => rfl
  | ⟨1, _⟩ => rfl

end Cert.KernelIdeal.KRead

end
-- ==== Proof.KStep1.lean ====
/-
  The second kernel's arithmetic read at a row.

  At one grid point the kernel holds a 512 x 1024 tile of similarities, the tile's diagonal mask, the row and column
  labels broadcast over the tile, and the row block's hardest negative and hardest positive. Its first running column
  gains, at row p, the sum over the tile's columns q of one minus the similarity where the pair is a positive (equal
  labels, off the diagonal) and the similarity is below the hardest negative plus the margin; its second gains the sum
  of the similarities where the labels differ and the similarity is above max(floor, hardest positive) minus the
  margin. Both columns start at zero, and the row loss is their sum where the has-a-positive flag exceeds one half,
  zero elsewhere.
-/
import proofs.«172070_j13786845020972_1_alg».proof.Proof.Gen.KernelIdeal.Skeleton
import proofs.«172070_j13786845020972_1_alg».proof.Proof.Spec
import proofs.«172070_j13786845020972_1_alg».proof.Proof.KRead

noncomputable section

open scoped BigOperators

namespace Cert.KernelIdeal.KStep1

open Idealize.ShloMosaic Idealize.ShloMosaic.ValueIdx Cert.KernelIdeal Cert.KernelIdeal.Gen Cert.KernelIdeal.KRead

/-- The first running column after one point, at row p. -/
theorem pay10_apply (v24 : FVec Ideal S512x1024 .f32) (v33 : IVec S512x1024 1) (v38 v39 : IVec S512x1024 32)
    (v44 v70 : Vec Ideal S512x1 .f32) (p : Fin 512) :
    k1_pay10 v24 v33 v38 v39 v44 v70 (ix2 p (0 : Fin 1))
      = v70 (ix2 p (0 : Fin 1)) + ∑ q : Fin 1024,
          (if (v38 (ix2 p q) = v39 (ix2 p q) ∧ ¬ v33 (ix2 p q) = 1#1) ∧ v24 (ix2 p q) < v44 (ix2 p (0 : Fin 1)) + Cert.Spec.MARGIN
            then Cert.Spec.ONE - v24 (ix2 p q) else 0) := by
  unfold k1_pay10 k1_pay9
  simp only [shapeCast_self]
  rw [addf_apply]
  refine congrArg (v70 (ix2 p (0 : Fin 1)) + ·) ?_
  rw [col_cast_apply]
  refine (row_sum_apply _ _ _ _ p).trans ?_
  refine Finset.sum_congr rfl fun q _ => ?_
  rw [select_apply, select_ite, andi, andi]
  refine if_congr ?_ rfl Ideal.ofBits_zero_f32
  rw [andi_iff, andi_iff]
  refine and_congr (and_congr (cmpi_eq_iff _ _) (xori_one_iff _)) ?_
  rw [cmpf_apply, cmpf_olt_iff, col_bcast_apply, addf_apply, broadcast_apply]
  exact Iff.rfl

/-- The second running column after one point, at row p. -/
theorem pay11_apply (v24 : FVec Ideal S512x1024 .f32) (v38 v39 : IVec S512x1024 32)
    (v46 v75 : Vec Ideal S512x1 .f32) (p : Fin 512) :
    k1_pay11 v24 v38 v39 v46 v75 (ix2 p (0 : Fin 1))
      = v75 (ix2 p (0 : Fin 1)) + ∑ q : Fin 1024,
          (if (¬ v38 (ix2 p q) = v39 (ix2 p q))
                ∧ max Cert.Spec.FLOOR (v46 (ix2 p (0 : Fin 1))) - Cert.Spec.MARGIN < v24 (ix2 p q)
            then v24 (ix2 p q) else 0) := by
  unfold k1_pay11 k1_pay9
  simp only [shapeCast_self]
  rw [addf_apply]
  refine congrArg (v75 (ix2 p (0 : Fin 1)) + ·) ?_
  rw [col_cast_apply]
  refine (row_sum_apply _ _ _ _ p).trans ?_
  refine Finset.sum_congr rfl fun q _ => ?_
  rw [select_apply, select_ite, andi]
  refine if_congr ?_ rfl Ideal.ofBits_zero_f32
  rw [andi_iff]
  refine and_congr ((xori_one_iff _).trans (not_congr (cmpi_eq_iff _ _))) ?_
  rw [cmpf_apply, cmpf_ogt_iff, col_bcast_apply, subf_apply, maximumf_apply, broadcast_apply, broadcast_apply]
  exact Iff.rfl

/-- The row loss at row p: the two columns added where the flag exceeds one half, zero elsewhere. -/
theorem pay2_apply (hp a b : Vec Ideal S512x1 .f32) (p : Fin 512) :
    k1_pay2 hp a b (ix2 p (0 : Fin 1))
      = if Ideal.ofBits .f32 0x3F000000#32 < hp (ix2 p (0 : Fin 1))
          then a (ix2 p (0 : Fin 1)) + b (ix2 p (0 : Fin 1)) else 0 := by
  unfold k1_pay2
  simp only [shapeCast_self]
  rw [select_apply, select_ite]
  refine if_congr ?_ rfl Ideal.ofBits_zero_f32
  rw [cmpf_apply, cmpf_ogt_iff, broadcast_apply]
  exact Iff.rfl

/-- The cast of the second column to its own shape changes nothing. -/
theorem pay1_eq (v : FVec Ideal S512x1 .f32) : k1_pay1 v = v := by
  unfold k1_pay1
  exact shapeCast_self _ _

/-- The first running column starts at zero. -/
theorem pay3_apply (j : S512x1.Idx) : k1_pay3 (F := Ideal) j = 0 := by
  unfold k1_pay3
  simp only [shapeCast_self]
  exact Ideal.ofBits_zero_f32

/-- The second running column starts at zero. -/
theorem pay4_apply (j : S512x1.Idx) : k1_pay4 (F := Ideal) j = 0 := by
  unfold k1_pay4
  simp only [shapeCast_self]
  exact Ideal.ofBits_zero_f32

end Cert.KernelIdeal.KStep1

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.KSum1.lean ====
/-
  Two pieces of arithmetic for the second kernel's row loss.

  The 8192 columns are 8 consecutive blocks of 1024: a sum over the blocks of the sums inside each block is the sum
  over all columns (in any commutative additive monoid, so for the extended reals with their infinities).

  The has-a-positive flag is the word of one or the zero word, and the kernel tests it against the word of one half:
  one half is below one and not below zero.
-/
import proofs.«172070_j13786845020972_1_alg».proof.Proof.LibTileSum
import proofs.«172070_j13786845020972_1_alg».proof.Proof.Spec
import Idealize.ShloMosaic.Lib.IdealHost

noncomputable section

open scoped BigOperators

namespace Cert.KernelIdeal.KSum1

open Idealize.ShloMosaic

/-- A sum over the 8 blocks of 1024 columns is the sum over the 8192 columns. -/
theorem sum_blocks {β : Type*} [AddCommMonoid β] (g : ℕ → β) :
    ∑ s ∈ Finset.range 8, ∑ q : Fin 1024, g (1024 * s + q.val) = ∑ c : Fin 8192, g c.val :=
  Cert.TileSum.sum_tiles 8 1024 g

/-- The word 0x3F000000 is one half. -/
theorem ofBits_half_f32 : Ideal.ofBits .f32 0x3F000000#32 = (((1 : ℝ) / 2 : ℝ) : EReal) := by
  simp [Ideal.ofBits, Ideal.ieee, -EReal.coe_mul]; norm_num

/-- One half is below one. -/
theorem half_lt_one : Ideal.ofBits .f32 0x3F000000#32 < Cert.Spec.ONE := by
  show Ideal.ofBits .f32 0x3F000000#32 < Ideal.ofBits .f32 0x3F800000#32
  rw [ofBits_half_f32, Ideal.ofBits_one_f32, show (1 : EReal) = ((1 : ℝ) : EReal) by norm_cast]
  exact EReal.coe_lt_coe_iff.mpr (by norm_num)

/-- One half is not below zero. -/
theorem not_half_lt_zero : ¬ Ideal.ofBits .f32 0x3F000000#32 < (0 : EReal) := by
  rw [ofBits_half_f32, show (0 : EReal) = ((0 : ℝ) : EReal) by norm_cast]
  exact fun h => absurd (EReal.coe_lt_coe_iff.mp h) (by norm_num)

end Cert.KernelIdeal.KSum1

end
-- ==== Proof.KVal1.lean ====
/-
  The second kernel's row losses are the specification's.

  Fix a row block i and a row p of it, r = 512 i + p. At the point of the grid that pairs row block i with column block
  s the kernel's similarity tile holds, at (p, q), the similarity of rows r and 1024 s + q; its label tiles hold the
  labels of r and of 1024 s + q; its diagonal mask is set exactly where r = 1024 s + q. So the first running column
  gains at row p the sum, over the columns of block s, of the specification's positive-loss term of row r, and the
  second the sum of its negative-loss terms. Both columns start at zero at the block's first point; after its eight
  points they hold the sums over the eight blocks of 1024 columns, which are the sums over all 8192 columns: the
  positive loss and the negative loss of row r. The has-a-positive flag is one or zero and is tested against one half,
  so the stored value is their sum when row r has a positive and zero otherwise: the row loss.
-/
import proofs.«172070_j13786845020972_1_alg».proof.Proof.Tile
import proofs.«172070_j13786845020972_1_alg».proof.Proof.Spec
import proofs.«172070_j13786845020972_1_alg».proof.Proof.KStep1
import proofs.«172070_j13786845020972_1_alg».proof.Proof.KSum1
import proofs.«172070_j13786845020972_1_alg».proof.Proof.KSim

noncomputable section

open scoped BigOperators

namespace Cert.KernelIdeal.KVal1

open Idealize.ShloMosaic Idealize.ShloMosaic.ValueIdx Cert.KernelIdeal Cert.KernelIdeal.Gen Cert.KernelIdeal.Tile
open Cert.KernelIdeal.KRead Cert.KernelIdeal.KStep1 Cert.KernelIdeal.KSum1 Cert.KernelIdeal.KSim

/-! ## The second kernel's tiles

The second kernel computes its similarity tile, its diagonal mask and its label tiles by the same operations as the
first, so each reads as the first kernel's does. -/

/-- The similarity tile at (p, q) is the similarity of rows 512 (n / 8) + p and 1024 (n % 8) + q. -/
theorem sim_tile1 (X : Vec Ideal S8192x128 .f32) (n : ℕ) (hn : n < 128) (p : Fin 512) (q : Fin 1024) :
    k1_pay5 (F := Ideal) (rowBlk X n hn) (colBlk X n hn) (ix2 p q)
      = Cert.Spec.sim (Cert.Spec.xOf X) (row n hn p) (col n hn q) :=
  sim_tile X n hn p q

/-- The diagonal mask is set at (p, q) exactly where the two rows are one. -/
theorem eye_tile1 (n : ℕ) (hn : n < 128) (p : Fin 512) (q : Fin 1024) :
    k1_pay6 (grid1.coords (pt1 n hn)) (ix2 p q) = 1#1 ↔ row n hn p = col n hn q :=
  eye_tile n hn p q

/-- The row labels broadcast over the tile read, at (p, q), the label of row 512 (n / 8) + p. -/
theorem rowlab_tile1 (T0 : Vec Ideal S8192x1 .i32) (n : ℕ) (hn : n < 128) (p : Fin 512) (q : Fin 1024) :
    k1_pay7 (F := Ideal) (rowLab T0 n hn) (ix2 p q) = T0 (ix2 (row n hn p) (0 : Fin 1)) :=
  rowlab_tile T0 n hn p q

/-- The column labels broadcast over the tile read, at (p, q), the label of row 1024 (n % 8) + q. -/
theorem collab_tile1 (T1 : Vec Ideal S1x8192 .i32) (n : ℕ) (hn : n < 128) (p : Fin 512) (q : Fin 1024) :
    k1_pay8 (F := Ideal) (colLab T1 n hn) (ix2 p q) = T1 (ix2 (0 : Fin 1) (col n hn q)) :=
  collab_tile T1 n hn p q

/-! ## The specification's terms by column number -/

section Terms
variable (x : Fin 8192 → Fin 128 → EReal) (tg : Fin 8192 → BitVec 32)

/-- The positive-loss term of row r at column number c (zero past the last column). -/
def gpos (r : Fin 8192) (c : ℕ) : EReal :=
  if h : c < 8192 then
    (if Cert.Spec.pos tg r ⟨c, h⟩ ∧ Cert.Spec.sim x r ⟨c, h⟩ < Cert.Spec.maxNeg x tg r + Cert.Spec.MARGIN
      then Cert.Spec.ONE - Cert.Spec.sim x r ⟨c, h⟩ else 0)
  else 0

/-- The negative-loss term of row r at column number c (zero past the last column). -/
def gneg (r : Fin 8192) (c : ℕ) : EReal :=
  if h : c < 8192 then
    (if Cert.Spec.neg tg r ⟨c, h⟩ ∧ max Cert.Spec.FLOOR (Cert.Spec.maxPos x tg r) - Cert.Spec.MARGIN < Cert.Spec.sim x r ⟨c, h⟩
      then Cert.Spec.sim x r ⟨c, h⟩ else 0)
  else 0

theorem sum_gpos (r : Fin 8192) : ∑ c : Fin 8192, gpos x tg r c.val = Cert.Spec.posLoss x tg r := by
  unfold Cert.Spec.posLoss
  refine Finset.sum_congr rfl fun c _ => ?_
  unfold gpos
  rw [dif_pos c.isLt]

theorem sum_gneg (r : Fin 8192) : ∑ c : Fin 8192, gneg x tg r c.val = Cert.Spec.negLoss x tg r := by
  unfold Cert.Spec.negLoss
  refine Finset.sum_congr rfl fun c _ => ?_
  unfold gneg
  rw [dif_pos c.isLt]

end Terms

/-! ## One point, the eight points of a row block, and the row loss -/

section Run
variable (X : Vec Ideal S8192x128 .f32) (T0 : Vec Ideal S8192x1 .i32) (T1 : Vec Ideal S1x8192 .i32)
  (tg : Fin 8192 → BitVec 32)
  (hT0 : ∀ r : Fin 8192, T0 (ix2 r (0 : Fin 1)) = tg r) (hT1 : ∀ r : Fin 8192, T1 (ix2 (0 : Fin 1) r) = tg r)
  (MN MP : Vec Ideal S8192x1 .f32)
  (hMN : ∀ r : Fin 8192, MN (ix2 r (0 : Fin 1)) = Cert.Spec.maxNeg (Cert.Spec.xOf X) tg r)
  (hMP : ∀ r : Fin 8192, MP (ix2 r (0 : Fin 1)) = Cert.Spec.maxPos (Cert.Spec.xOf X) tg r)

include hT0 hT1 hMN in
/-- One point: the first column gains the positive-loss terms of the point's column block. -/
theorem step_fst (n : ℕ) (hn : n < 128) (b : Acc1 Ideal) (p : Fin 512) (r : Fin 8192) (hr : r.val = 512 * (n / 8) + p.val) :
    (step1 X T0 T1 MN MP n hn b).1 (ix2 p (0 : Fin 1))
      = b.1 (ix2 p (0 : Fin 1)) + ∑ q : Fin 1024, gpos (Cert.Spec.xOf X) tg r (1024 * (n % 8) + q.val) := by
  obtain rfl : r = row n hn p := Fin.ext hr
  show k1_pay10 _ _ _ _ _ _ (ix2 p (0 : Fin 1)) = _
  rw [pay10_apply]
  refine congrArg (b.1 (ix2 p (0 : Fin 1)) + ·) (Finset.sum_congr rfl fun q _ => ?_)
  have hc : 1024 * (n % 8) + q.val < 8192 := by omega
  have hmn : rowCol MN n hn (ix2 p (0 : Fin 1)) = Cert.Spec.maxNeg (Cert.Spec.xOf X) tg (row n hn p) := hMN _
  unfold gpos
  rw [dif_pos hc, sim_tile1, rowlab_tile1, collab_tile1, hT0, hT1, hmn]
  refine if_congr (and_congr (and_congr Iff.rfl ?_) Iff.rfl) rfl rfl
  exact not_congr (eye_tile1 n hn p q)

include hT0 hT1 hMP in
/-- One point: the second column gains the negative-loss terms of the point's column block. -/
theorem step_snd (n : ℕ) (hn : n < 128) (b : Acc1 Ideal) (p : Fin 512) (r : Fin 8192) (hr : r.val = 512 * (n / 8) + p.val) :
    (step1 X T0 T1 MN MP n hn b).2 (ix2 p (0 : Fin 1))
      = b.2 (ix2 p (0 : Fin 1)) + ∑ q : Fin 1024, gneg (Cert.Spec.xOf X) tg r (1024 * (n % 8) + q.val) := by
  obtain rfl : r = row n hn p := Fin.ext hr
  show k1_pay1 (k1_pay11 _ _ _ _ _) (ix2 p (0 : Fin 1)) = _
  rw [pay1_eq, pay11_apply]
  refine congrArg (b.2 (ix2 p (0 : Fin 1)) + ·) (Finset.sum_congr rfl fun q _ => ?_)
  have hc : 1024 * (n % 8) + q.val < 8192 := by omega
  have hmp : rowCol MP n hn (ix2 p (0 : Fin 1)) = Cert.Spec.maxPos (Cert.Spec.xOf X) tg (row n hn p) := hMP _
  unfold gneg
  rw [dif_pos hc, sim_tile1, rowlab_tile1, collab_tile1, hT0, hT1, hmp]
  exact if_congr Iff.rfl rfl rfl

include hT0 hT1 hMN in
/-- After the point numbered k among a row block's eight, the first column holds the positive-loss terms of the first
    k + 1 column blocks. -/
theorem acc1_fst : ∀ (k n : ℕ) (hn : n < 128), n % 8 = k → ∀ (p : Fin 512) (r : Fin 8192), r.val = 512 * (n / 8) + p.val →
    (acc1 X T0 T1 MN MP n hn).1 (ix2 p (0 : Fin 1))
      = ∑ s ∈ Finset.range (k + 1), ∑ q : Fin 1024, gpos (Cert.Spec.xOf X) tg r (1024 * s + q.val)
  | 0, n, hn, hk, p, r, hr => by
    rw [acc1_first X T0 T1 MN MP n hn hk, step_fst X T0 T1 tg hT0 hT1 MN MP hMN n hn init1 p r hr, hk,
      Finset.sum_range_one]
    show k1_pay3 (ix2 p (0 : Fin 1)) + _ = _
    rw [KStep1.pay3_apply, zero_add]
  | k + 1, n, hn, hk, p, r, hr => by
    have h0 : n % 8 ≠ 0 := by omega
    rw [acc1_next X T0 T1 MN MP n hn h0, step_fst X T0 T1 tg hT0 hT1 MN MP hMN n hn _ p r hr,
      acc1_fst k (n - 1) (by omega) (by omega) p r (by omega), hk, Finset.sum_range_succ _ (k + 1)]

include hT0 hT1 hMP in
/-- After the point numbered k among a row block's eight, the second column holds the negative-loss terms of the first
    k + 1 column blocks. -/
theorem acc1_snd : ∀ (k n : ℕ) (hn : n < 128), n % 8 = k → ∀ (p : Fin 512) (r : Fin 8192), r.val = 512 * (n / 8) + p.val →
    (acc1 X T0 T1 MN MP n hn).2 (ix2 p (0 : Fin 1))
      = ∑ s ∈ Finset.range (k + 1), ∑ q : Fin 1024, gneg (Cert.Spec.xOf X) tg r (1024 * s + q.val)
  | 0, n, hn, hk, p, r, hr => by
    rw [acc1_first X T0 T1 MN MP n hn hk, step_snd X T0 T1 tg hT0 hT1 MN MP hMP n hn init1 p r hr, hk,
      Finset.sum_range_one]
    show k1_pay4 (ix2 p (0 : Fin 1)) + _ = _
    rw [KStep1.pay4_apply, zero_add]
  | k + 1, n, hn, hk, p, r, hr => by
    have h0 : n % 8 ≠ 0 := by omega
    rw [acc1_next X T0 T1 MN MP n hn h0, step_snd X T0 T1 tg hT0 hT1 MN MP hMP n hn _ p r hr,
      acc1_snd k (n - 1) (by omega) (by omega) p r (by omega), hk, Finset.sum_range_succ _ (k + 1)]

end Run

/-- The second kernel's output column holds, at the last point of each row block, the specification's row losses. -/
theorem loss1_spec (X : Vec Ideal S8192x128 .f32) (T0 : Vec Ideal S8192x1 .i32) (T1 : Vec Ideal S1x8192 .i32)
    (tg : Fin 8192 → BitVec 32)
    (hT0 : ∀ r : Fin 8192, T0 (ix2 r (0 : Fin 1)) = tg r) (hT1 : ∀ r : Fin 8192, T1 (ix2 (0 : Fin 1) r) = tg r)
    (MN MP HP : Vec Ideal S8192x1 .f32)
    (hMN : ∀ r : Fin 8192, MN (ix2 r (0 : Fin 1)) = Cert.Spec.maxNeg (Cert.Spec.xOf X) tg r)
    (hMP : ∀ r : Fin 8192, MP (ix2 r (0 : Fin 1)) = Cert.Spec.maxPos (Cert.Spec.xOf X) tg r)
    (hHP : ∀ r : Fin 8192, HP (ix2 r (0 : Fin 1)) = (open Classical in if Cert.Spec.hasPos tg r then Cert.Spec.ONE else 0))
    (n : ℕ) (hn : n < 128) (h7 : n % 8 = 7) (p : Fin 512) :
    Tile.loss1 X T0 T1 MN MP HP n hn (ix2 p (0 : Fin 1))
      = Cert.Spec.rowLoss (Cert.Spec.xOf X) tg ⟨512 * (n / 8) + p.val, by omega⟩ := by
  have hhp : rowCol HP n hn (ix2 p (0 : Fin 1))
      = (open Classical in if Cert.Spec.hasPos tg (row n hn p) then Cert.Spec.ONE else 0) := hHP _
  show k1_pay2 (rowCol HP n hn) _ _ (ix2 p (0 : Fin 1)) = Cert.Spec.rowLoss (Cert.Spec.xOf X) tg (row n hn p)
  rw [pay2_apply, acc1_fst X T0 T1 tg hT0 hT1 MN MP hMN 7 n hn h7 p (row n hn p) rfl,
    acc1_snd X T0 T1 tg hT0 hT1 MN MP hMP 7 n hn h7 p (row n hn p) rfl, sum_blocks, sum_blocks, sum_gpos, sum_gneg, hhp]
  unfold Cert.Spec.rowLoss
  by_cases h : Cert.Spec.hasPos tg (row n hn p)
  · rw [if_pos h, if_pos h, if_pos half_lt_one]
  · rw [if_neg h, if_neg h, if_neg not_half_lt_zero]

end Cert.KernelIdeal.KVal1

end
-- ==== Proof.KCover.lean ====
/-
  From blocks to the array, for a column [8192, 1] written back in sixteen blocks of 512 rows.

  The grid's points run over 16 row blocks times 8 column blocks; a result column's window has the block of rows
  t / 8 at point t and is written back at the last point of each row block, t % 8 = 7. Row r of the column therefore
  lies in the block written back at point 8 * (r / 512) + 7, so the sixteen written blocks cover the column: if each is
  the matching block of one column G, the array ends holding G; row by row, if the block staged at such a point holds
  at row p the value of row 512 * (t / 8) + p, the array holds that value at every row.
-/
import proofs.«172070_j13786845020972_1_alg».proof.Proof.Gen.KernelIdeal.Launch
import proofs.«172070_j13786845020972_1_alg».proof.Proof.Gen.KernelIdeal.Points
import Idealize.ShloMosaic.Lib.Pipeline.Value
import Idealize.ShloMosaic.Lib.ValueIdx

noncomputable section

namespace Cert.KernelIdeal.KCover

open Idealize.ShloMosaic Idealize.ShloMosaic.TcCoe Idealize.ShloMosaic.ValueIdx Cert.KernelIdeal Cert.KernelIdeal.Gen
open Idealize.SL Idealize.SL.RA

variable {F : FTy → Type} [FloatOps F]
variable {Ix : Type} [DecidableEq Ix] {Name : Type} [DecidableEq Name] {U : Type} [URA U] {Lvl : Type}

/-- The row of the column under row p of the block of a point t of the first pipeline. -/
theorem row_lt0 (t : Fin cfg0.N) (p : Fin 512) : 512 * (t.val / 8) + p.val < 8192 := by
  have ht : t.val < 128 := Nat.lt_of_lt_of_eq t.isLt (N_0 : cfg0.N = 128)
  have := p.isLt
  omega
/-- The same for the second pipeline. -/
theorem row_lt1 (t : Fin cfg1.N) (p : Fin 512) : 512 * (t.val / 8) + p.val < 8192 := by
  have ht : t.val < 128 := Nat.lt_of_lt_of_eq t.isLt (N_1 : cfg1.N = 128)
  have := p.isLt
  omega

/-! ## Pipeline 0, window 4 -/

/-- Point t's block of window 4 is block t / 8 of the rows and the one block of the single lane. -/
theorem idx0_4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- An index of the column is in point t's block iff each coordinate is in the block's range on its axis. -/
theorem mem_blk0_4 (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v2_0).slice (win0_4.rect t)).set ↔ _
  rw [View.set_slice_whole, Rect.mem_set_unit]
  exact Iff.rfl

/-- Row r of the column lies in the block written back at the last point of its row block, 8 * (r / 512) + 7. -/
theorem cover0_4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 128 := N_0
  have ht : 8 * ((i 0).val / 512) + 7 < cfg0.N := by rw [hN]; omega
  refine ⟨⟨8 * ((i 0).val / 512) + 7, ht⟩, (flush0_4 _).mpr (by show (8 * ((i 0).val / 512) + 7) % 8 = 7; omega), ?_⟩
  obtain ⟨e0, e1⟩ := idx0_4 ⟨8 * ((i 0).val / 512) + 7, ht⟩
  rw [mem_blk0_4]
  intro a
  match a with
  | ⟨0, _⟩ =>
    show win0_4.index ⟨8 * ((i 0).val / 512) + 7, ht⟩ (0 : Fin 2) * 512 ≤ (i 0).val
      ∧ (i 0).val < win0_4.index ⟨8 * ((i 0).val / 512) + 7, ht⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_4.index ⟨8 * ((i 0).val / 512) + 7, ht⟩ (1 : Fin 2) * 1 ≤ (i 1).val
      ∧ (i 1).val < win0_4.index ⟨8 * ((i 0).val / 512) + 7, ht⟩ (1 : Fin 2) * 1 + 1
    rw [e1]
    omega

/-- The whole column from its blocks: if every point that writes back writes its block of one column G, the column
    ends holding G. -/
theorem arr0_4_eq (c : Dev nD) (dat : Pipeline.Dat τ (Elt F) Ix Name U Lvl cfg0 c)
    (G : Buf (Elt F) ((cfg0.win 4).arr.view.loc (c.tc : Thread nD τ)))
    (hG : ∀ t, (cfg0.win 4).flush t = true → dat.flushed 4 t = ((cfg0.win 4).blk t).view.read (Elt F) G) :
    dat.arrAt 4 cfg0.N = G :=
  dat.arrAt_eq_of_cover 4 G hG fun i => cover0_4 i

/-- The same row by row: if at every point t that writes back the staged block holds, at row p, the value g of row
    512 * (t / 8) + p, the column ends holding g. -/
theorem arr0_4_apply (c : Dev nD) (dat : Pipeline.Dat τ (Elt F) Ix Name U Lvl cfg0 c) (g : Fin 8192 → Elt F .f32)
    (h : ∀ (t : Fin cfg0.N) (h7 : t.val % 8 = 7) (p : Fin 512),
      dat.after 4 t (ix2 p (0 : Fin 1)) = g ⟨512 * (t.val / 8) + p.val, row_lt0 t p⟩)
    (r : Fin 8192) : dat.arrAt 4 cfg0.N (ix2 r (0 : Fin 1)) = g r := by
  have hG : ∀ t, (cfg0.win 4).flush t = true →
      dat.flushed 4 t = ((cfg0.win 4).blk t).view.read (Elt F) (fun i : S8192x1.Idx => g ⟨(i 0).val, (i 0).isLt⟩) := by
    intro t hf
    have h7 := (flush0_4 t).mp hf
    obtain ⟨e0, e1⟩ := idx0_4 t
    funext j
    have hj1 : (j 1).val < 1 := (j 1).isLt
    have hj0 : (j 0).val < 512 := (j 0).isLt
    have hx : (cfg0.win 4).xinj (cfg0.grid.coords t) j = ix2 (⟨(j 0).val, hj0⟩ : Fin 512) (0 : Fin 1) := by
      funext a
      match a with
      | ⟨0, _⟩ => rfl
      | ⟨1, _⟩ => exact Fin.ext (by show (j 1).val = 0; omega)
    show dat.after 4 t ((cfg0.win 4).xinj (cfg0.grid.coords t) j) = _
    rw [hx, h t h7 ⟨(j 0).val, hj0⟩, View.read_apply]
    refine congrArg g (Fin.ext ?_)
    show 512 * (t.val / 8) + (j 0).val = win0_4.index t (0 : Fin 2) * 512 + 1 * (j 0).val
    rw [e0]
    omega
  have e := arr0_4_eq c dat _ hG
  exact congrFun e (ix2 r (0 : Fin 1))

/-! ## Pipeline 0, window 5 -/

/-- Point t's block of window 5 is block t / 8 of the rows and the one block of the single lane. -/
theorem idx0_5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- An index of the column is in point t's block iff each coordinate is in the block's range on its axis. -/
theorem mem_blk0_5 (t : Fin cfg0.N) (i : S8192x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v2_1).slice (win0_5.rect t)).set ↔ _
  rw [View.set_slice_whole, Rect.mem_set_unit]
  exact Iff.rfl

/-- Row r of the column lies in the block written back at the last point of its row block, 8 * (r / 512) + 7. -/
theorem cover0_5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 128 := N_0
  have ht : 8 * ((i 0).val / 512) + 7 < cfg0.N := by rw [hN]; omega
  refine ⟨⟨8 * ((i 0).val / 512) + 7, ht⟩, (flush0_5 _).mpr (by show (8 * ((i 0).val / 512) + 7) % 8 = 7; omega), ?_⟩
  obtain ⟨e0, e1⟩ := idx0_5 ⟨8 * ((i 0).val / 512) + 7, ht⟩
  rw [mem_blk0_5]
  intro a
  match a with
  | ⟨0, _⟩ =>
    show win0_5.index ⟨8 * ((i 0).val / 512) + 7, ht⟩ (0 : Fin 2) * 512 ≤ (i 0).val
      ∧ (i 0).val < win0_5.index ⟨8 * ((i 0).val / 512) + 7, ht⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_5.index ⟨8 * ((i 0).val / 512) + 7, ht⟩ (1 : Fin 2) * 1 ≤ (i 1).val
      ∧ (i 1).val < win0_5.index ⟨8 * ((i 0).val / 512) + 7, ht⟩ (1 : Fin 2) * 1 + 1
    rw [e1]
    omega

/-- The whole column from its blocks: if every point that writes back writes its block of one column G, the column
    ends holding G. -/
theorem arr0_5_eq (c : Dev nD) (dat : Pipeline.Dat τ (Elt F) Ix Name U Lvl cfg0 c)
    (G : Buf (Elt F) ((cfg0.win 5).arr.view.loc (c.tc : Thread nD τ)))
    (hG : ∀ t, (cfg0.win 5).flush t = true → dat.flushed 5 t = ((cfg0.win 5).blk t).view.read (Elt F) G) :
    dat.arrAt 5 cfg0.N = G :=
  dat.arrAt_eq_of_cover 5 G hG fun i => cover0_5 i

/-- The same row by row: if at every point t that writes back the staged block holds, at row p, the value g of row
    512 * (t / 8) + p, the column ends holding g. -/
theorem arr0_5_apply (c : Dev nD) (dat : Pipeline.Dat τ (Elt F) Ix Name U Lvl cfg0 c) (g : Fin 8192 → Elt F .f32)
    (h : ∀ (t : Fin cfg0.N) (h7 : t.val % 8 = 7) (p : Fin 512),
      dat.after 5 t (ix2 p (0 : Fin 1)) = g ⟨512 * (t.val / 8) + p.val, row_lt0 t p⟩)
    (r : Fin 8192) : dat.arrAt 5 cfg0.N (ix2 r (0 : Fin 1)) = g r := by
  have hG : ∀ t, (cfg0.win 5).flush t = true →
      dat.flushed 5 t = ((cfg0.win 5).blk t).view.read (Elt F) (fun i : S8192x1.Idx => g ⟨(i 0).val, (i 0).isLt⟩) := by
    intro t hf
    have h7 := (flush0_5 t).mp hf
    obtain ⟨e0, e1⟩ := idx0_5 t
    funext j
    have hj1 : (j 1).val < 1 := (j 1).isLt
    have hj0 : (j 0).val < 512 := (j 0).isLt
    have hx : (cfg0.win 5).xinj (cfg0.grid.coords t) j = ix2 (⟨(j 0).val, hj0⟩ : Fin 512) (0 : Fin 1) := by
      funext a
      match a with
      | ⟨0, _⟩ => rfl
      | ⟨1, _⟩ => exact Fin.ext (by show (j 1).val = 0; omega)
    show dat.after 5 t ((cfg0.win 5).xinj (cfg0.grid.coords t) j) = _
    rw [hx, h t h7 ⟨(j 0).val, hj0⟩, View.read_apply]
    refine congrArg g (Fin.ext ?_)
    show 512 * (t.val / 8) + (j 0).val = win0_5.index t (0 : Fin 2) * 512 + 1 * (j 0).val
    rw [e0]
    omega
  have e := arr0_5_eq c dat _ hG
  exact congrFun e (ix2 r (0 : Fin 1))

/-! ## Pipeline 0, window 6 -/

/-- Point t's block of window 6 is block t / 8 of the rows and the one block of the single lane. -/
theorem idx0_6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- An index of the column is in point t's block iff each coordinate is in the block's range on its axis. -/
theorem mem_blk0_6 (t : Fin cfg0.N) (i : S8192x1.Idx) :
    i ∈ ((cfg0.win 6).blk t).view.set ↔ ∀ a : Fin 2, win0_6.index t a * S512x1.size a ≤ (i a).val
      ∧ (i a).val < win0_6.index t a * S512x1.size a + S512x1.size a := by
  show i ∈ ((View.whole main_v2_2).slice (win0_6.rect t)).set ↔ _
  rw [View.set_slice_whole, Rect.mem_set_unit]
  exact Iff.rfl

/-- Row r of the column lies in the block written back at the last point of its row block, 8 * (r / 512) + 7. -/
theorem cover0_6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 128 := N_0
  have ht : 8 * ((i 0).val / 512) + 7 < cfg0.N := by rw [hN]; omega
  refine ⟨⟨8 * ((i 0).val / 512) + 7, ht⟩, (flush0_6 _).mpr (by show (8 * ((i 0).val / 512) + 7) % 8 = 7; omega), ?_⟩
  obtain ⟨e0, e1⟩ := idx0_6 ⟨8 * ((i 0).val / 512) + 7, ht⟩
  rw [mem_blk0_6]
  intro a
  match a with
  | ⟨0, _⟩ =>
    show win0_6.index ⟨8 * ((i 0).val / 512) + 7, ht⟩ (0 : Fin 2) * 512 ≤ (i 0).val
      ∧ (i 0).val < win0_6.index ⟨8 * ((i 0).val / 512) + 7, ht⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_6.index ⟨8 * ((i 0).val / 512) + 7, ht⟩ (1 : Fin 2) * 1 ≤ (i 1).val
      ∧ (i 1).val < win0_6.index ⟨8 * ((i 0).val / 512) + 7, ht⟩ (1 : Fin 2) * 1 + 1
    rw [e1]
    omega

/-- The whole column from its blocks: if every point that writes back writes its block of one column G, the column
    ends holding G. -/
theorem arr0_6_eq (c : Dev nD) (dat : Pipeline.Dat τ (Elt F) Ix Name U Lvl cfg0 c)
    (G : Buf (Elt F) ((cfg0.win 6).arr.view.loc (c.tc : Thread nD τ)))
    (hG : ∀ t, (cfg0.win 6).flush t = true → dat.flushed 6 t = ((cfg0.win 6).blk t).view.read (Elt F) G) :
    dat.arrAt 6 cfg0.N = G :=
  dat.arrAt_eq_of_cover 6 G hG fun i => cover0_6 i

/-- The same row by row: if at every point t that writes back the staged block holds, at row p, the value g of row
    512 * (t / 8) + p, the column ends holding g. -/
theorem arr0_6_apply (c : Dev nD) (dat : Pipeline.Dat τ (Elt F) Ix Name U Lvl cfg0 c) (g : Fin 8192 → Elt F .f32)
    (h : ∀ (t : Fin cfg0.N) (h7 : t.val % 8 = 7) (p : Fin 512),
      dat.after 6 t (ix2 p (0 : Fin 1)) = g ⟨512 * (t.val / 8) + p.val, row_lt0 t p⟩)
    (r : Fin 8192) : dat.arrAt 6 cfg0.N (ix2 r (0 : Fin 1)) = g r := by
  have hG : ∀ t, (cfg0.win 6).flush t = true →
      dat.flushed 6 t = ((cfg0.win 6).blk t).view.read (Elt F) (fun i : S8192x1.Idx => g ⟨(i 0).val, (i 0).isLt⟩) := by
    intro t hf
    have h7 := (flush0_6 t).mp hf
    obtain ⟨e0, e1⟩ := idx0_6 t
    funext j
    have hj1 : (j 1).val < 1 := (j 1).isLt
    have hj0 : (j 0).val < 512 := (j 0).isLt
    have hx : (cfg0.win 6).xinj (cfg0.grid.coords t) j = ix2 (⟨(j 0).val, hj0⟩ : Fin 512) (0 : Fin 1) := by
      funext a
      match a with
      | ⟨0, _⟩ => rfl
      | ⟨1, _⟩ => exact Fin.ext (by show (j 1).val = 0; omega)
    show dat.after 6 t ((cfg0.win 6).xinj (cfg0.grid.coords t) j) = _
    rw [hx, h t h7 ⟨(j 0).val, hj0⟩, View.read_apply]
    refine congrArg g (Fin.ext ?_)
    show 512 * (t.val / 8) + (j 0).val = win0_6.index t (0 : Fin 2) * 512 + 1 * (j 0).val
    rw [e0]
    omega
  have e := arr0_6_eq c dat _ hG
  exact congrFun e (ix2 r (0 : Fin 1))

/-! ## Pipeline 1, window 7 -/

/-- Point t's block of window 7 is block t / 8 of the rows and the one block of the single lane. -/
theorem idx1_7 : ∀ t : Fin cfg1.N, win1_7.index t (0 : Fin 2) = t.val / 8 ∧ win1_7.index t (1 : Fin 2) = 0 :=
  (by decide +kernel : ∀ t : Fin grid1.N, win1_7.index t (0 : Fin 2) = t.val / 8 ∧ win1_7.index t (1 : Fin 2) = 0)

/-- An index of the column is in point t's block iff each coordinate is in the block's range on its axis. -/
theorem mem_blk1_7 (t : Fin cfg1.N) (i : S8192x1.Idx) :
    i ∈ ((cfg1.win 7).blk t).view.set ↔ ∀ a : Fin 2, win1_7.index t a * S512x1.size a ≤ (i a).val
      ∧ (i a).val < win1_7.index t a * S512x1.size a + S512x1.size a := by
  show i ∈ ((View.whole main_v3).slice (win1_7.rect t)).set ↔ _
  rw [View.set_slice_whole, Rect.mem_set_unit]
  exact Iff.rfl

/-- Row r of the column lies in the block written back at the last point of its row block, 8 * (r / 512) + 7. -/
theorem cover1_7 (i : S8192x1.Idx) :
    ∃ t : Fin cfg1.N, (cfg1.win 7).flush t = true ∧ i ∈ ((cfg1.win 7).blk t).view.set := by
  have hi0 : (i 0).val < 8192 := (i 0).isLt
  have hi1 : (i 1).val < 1 := (i 1).isLt
  have hN : cfg1.N = 128 := N_1
  have ht : 8 * ((i 0).val / 512) + 7 < cfg1.N := by rw [hN]; omega
  refine ⟨⟨8 * ((i 0).val / 512) + 7, ht⟩, (flush1_7 _).mpr (by show (8 * ((i 0).val / 512) + 7) % 8 = 7; omega), ?_⟩
  obtain ⟨e0, e1⟩ := idx1_7 ⟨8 * ((i 0).val / 512) + 7, ht⟩
  rw [mem_blk1_7]
  intro a
  match a with
  | ⟨0, _⟩ =>
    show win1_7.index ⟨8 * ((i 0).val / 512) + 7, ht⟩ (0 : Fin 2) * 512 ≤ (i 0).val
      ∧ (i 0).val < win1_7.index ⟨8 * ((i 0).val / 512) + 7, ht⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win1_7.index ⟨8 * ((i 0).val / 512) + 7, ht⟩ (1 : Fin 2) * 1 ≤ (i 1).val
      ∧ (i 1).val < win1_7.index ⟨8 * ((i 0).val / 512) + 7, ht⟩ (1 : Fin 2) * 1 + 1
    rw [e1]
    omega

/-- The whole column from its blocks: if every point that writes back writes its block of one column G, the column
    ends holding G. -/
theorem arr1_7_eq (c : Dev nD) (dat : Pipeline.Dat τ (Elt F) Ix Name U Lvl cfg1 c)
    (G : Buf (Elt F) ((cfg1.win 7).arr.view.loc (c.tc : Thread nD τ)))
    (hG : ∀ t, (cfg1.win 7).flush t = true → dat.flushed 7 t = ((cfg1.win 7).blk t).view.read (Elt F) G) :
    dat.arrAt 7 cfg1.N = G :=
  dat.arrAt_eq_of_cover 7 G hG fun i => cover1_7 i

/-- The same row by row: if at every point t that writes back the staged block holds, at row p, the value g of row
    512 * (t / 8) + p, the column ends holding g. -/
theorem arr1_7_apply (c : Dev nD) (dat : Pipeline.Dat τ (Elt F) Ix Name U Lvl cfg1 c) (g : Fin 8192 → Elt F .f32)
    (h : ∀ (t : Fin cfg1.N) (h7 : t.val % 8 = 7) (p : Fin 512),
      dat.after 7 t (ix2 p (0 : Fin 1)) = g ⟨512 * (t.val / 8) + p.val, row_lt1 t p⟩)
    (r : Fin 8192) : dat.arrAt 7 cfg1.N (ix2 r (0 : Fin 1)) = g r := by
  have hG : ∀ t, (cfg1.win 7).flush t = true →
      dat.flushed 7 t = ((cfg1.win 7).blk t).view.read (Elt F) (fun i : S8192x1.Idx => g ⟨(i 0).val, (i 0).isLt⟩) := by
    intro t hf
    have h7 := (flush1_7 t).mp hf
    obtain ⟨e0, e1⟩ := idx1_7 t
    funext j
    have hj1 : (j 1).val < 1 := (j 1).isLt
    have hj0 : (j 0).val < 512 := (j 0).isLt
    have hx : (cfg1.win 7).xinj (cfg1.grid.coords t) j = ix2 (⟨(j 0).val, hj0⟩ : Fin 512) (0 : Fin 1) := by
      funext a
      match a with
      | ⟨0, _⟩ => rfl
      | ⟨1, _⟩ => exact Fin.ext (by show (j 1).val = 0; omega)
    show dat.after 7 t ((cfg1.win 7).xinj (cfg1.grid.coords t) j) = _
    rw [hx, h t h7 ⟨(j 0).val, hj0⟩, View.read_apply]
    refine congrArg g (Fin.ext ?_)
    show 512 * (t.val / 8) + (j 0).val = win1_7.index t (0 : Fin 2) * 512 + 1 * (j 0).val
    rw [e0]
    omega
  have e := arr1_7_eq c dat _ hG
  exact congrFun e (ix2 r (0 : Fin 1))

end Cert.KernelIdeal.KCover

end
-- ==== Proof.KArr.lean ====
/-
  What the two pipelines leave in their result columns, over any contents of the buffers at their entry.

  Given the labels laid out as a column and as a row, the first pipeline's three result columns hold, at every row, the
  row's hardest negative, hardest positive and has-a-positive flag: at the last point of each row block the staged
  blocks are the running columns, which hold these values, and the sixteen written blocks cover the column. Given these
  three columns as well, the second pipeline's result column holds the row losses, in the same way.
-/
import proofs.«172070_j13786845020972_1_alg».proof.Proof.KBridge
import proofs.«172070_j13786845020972_1_alg».proof.Proof.KVal0
import proofs.«172070_j13786845020972_1_alg».proof.Proof.KVal1
import proofs.«172070_j13786845020972_1_alg».proof.Proof.KCover

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- An if-then-else does not depend on how its condition is decided. -/
theorem ite_inst {α : Type} (P : Prop) (d1 d2 : Decidable P) (a b : α) : @ite α P d1 a b = @ite α P d2 a b := by
  cases Subsingleton.elim d1 d2
  rfl

section
variable (V : (c : Dev nD) → (b : Ref sig .tc) → Buf (Elt Ideal) ((c : Thread nD τ).loc b)) (c : Dev nD)
  (tg : Fin 8192 → BitVec 32)
  (hT0 : ∀ r : Fin 8192, (V c main_v0 : Vec Ideal S8192x1 .i32) (ix2 r (0 : Fin 1)) = tg r)
  (hT1 : ∀ r : Fin 8192, (V c main_v1 : Vec Ideal S1x8192 .i32) (ix2 (0 : Fin 1) r) = tg r)

include hT0 hT1 in
/-- The first result column of the first pipeline holds the hardest negatives. -/
theorem arr0_maxNeg (r : Fin 8192) :
    (dat0 V c).arrAt 4 cfg0.N (ix2 r (0 : Fin 1)) = Cert.Spec.maxNeg (Cert.Spec.xOf (V c main_arg0)) tg r := by
  refine KCover.arr0_4_apply c (dat0 V c) (Cert.Spec.maxNeg (Cert.Spec.xOf (V c main_arg0)) tg) (fun t h7 p => ?_) r
  rw [after0_4, bridge0 V c t.val t.isLt]
  exact (KVal0.acc0_spec (V c main_arg0) (V c main_v0) (V c main_v1) tg hT0 hT1 t.val (lt_of_lt_of_eq t.isLt Gen.N_0) h7 p).1

include hT0 hT1 in
/-- The second holds the hardest positives. -/
theorem arr0_maxPos (r : Fin 8192) :
    (dat0 V c).arrAt 5 cfg0.N (ix2 r (0 : Fin 1)) = Cert.Spec.maxPos (Cert.Spec.xOf (V c main_arg0)) tg r := by
  refine KCover.arr0_5_apply c (dat0 V c) (Cert.Spec.maxPos (Cert.Spec.xOf (V c main_arg0)) tg) (fun t h7 p => ?_) r
  rw [after0_5, bridge0 V c t.val t.isLt]
  exact (KVal0.acc0_spec (V c main_arg0) (V c main_v0) (V c main_v1) tg hT0 hT1 t.val (lt_of_lt_of_eq t.isLt Gen.N_0) h7 p).2.1

include hT0 hT1 in
open Classical in
/-- The third holds the has-a-positive flags. -/
theorem arr0_hasPos (r : Fin 8192) :
    (dat0 V c).arrAt 6 cfg0.N (ix2 r (0 : Fin 1)) = (if Cert.Spec.hasPos tg r then Cert.Spec.ONE else 0) := by
  refine KCover.arr0_6_apply c (dat0 V c) (fun r => if Cert.Spec.hasPos tg r then Cert.Spec.ONE else 0) (fun t h7 p => ?_) r
  rw [after0_6, bridge0 V c t.val t.isLt]
  exact (KVal0.acc0_spec (V c main_arg0) (V c main_v0) (V c main_v1) tg hT0 hT1 t.val (lt_of_lt_of_eq t.isLt Gen.N_0) h7 p).2.2

include hT0 hT1 in
open Classical in
/-- The result column of the second pipeline holds the row losses. -/
theorem arr1_rowLoss
    (hMN : ∀ r : Fin 8192, (V c main_v2_0 : Vec Ideal S8192x1 .f32) (ix2 r (0 : Fin 1)) = Cert.Spec.maxNeg (Cert.Spec.xOf (V c main_arg0)) tg r)
    (hMP : ∀ r : Fin 8192, (V c main_v2_1 : Vec Ideal S8192x1 .f32) (ix2 r (0 : Fin 1)) = Cert.Spec.maxPos (Cert.Spec.xOf (V c main_arg0)) tg r)
    (hHP : ∀ r : Fin 8192, (V c main_v2_2 : Vec Ideal S8192x1 .f32) (ix2 r (0 : Fin 1)) = (if Cert.Spec.hasPos tg r then Cert.Spec.ONE else 0))
    (r : Fin 8192) :
    (dat1 V c).arrAt 7 cfg1.N (ix2 r (0 : Fin 1)) = Cert.Spec.rowLoss (Cert.Spec.xOf (V c main_arg0)) tg r := by
  refine KCover.arr1_7_apply c (dat1 V c) (Cert.Spec.rowLoss (Cert.Spec.xOf (V c main_arg0)) tg) (fun t h7 p => ?_) r
  rw [after1_7, bridge_loss V c t]
  exact KVal1.loss1_spec (V c main_arg0) (V c main_v0) (V c main_v1) tg hT0 hT1 (V c main_v2_0) (V c main_v2_1) (V c main_v2_2)
    hMN hMP (fun r => (hHP r).trans (ite_inst _ _ _ _ _)) t.val (lt_of_lt_of_eq t.isLt Gen.N_1) h7 p

end

end Cert.KernelIdeal.Hand

end
-- ==== Proof.KHost.lean ====
/-
  The host operations around the two kernels, over any contents of the buffers.

  Before the kernels the label vector is laid out twice, as a column [8192, 1] and as a row [1, 8192]: entry (r, 0) of
  the column and entry (0, r) of the row are the vector's entry r, and no argument is written. After the kernels the
  column of row losses is summed from zero and the sum divided by the number of rows; again no argument is written.
-/
import proofs.«172070_j13786845020972_1_alg».proof.Proof.Gen.KernelIdeal.Regions
import proofs.«172070_j13786845020972_1_alg».proof.Proof.KLayout

noncomputable section

namespace Cert.KernelIdeal.KHost

open Idealize.ShloMosaic Idealize.ShloMosaic.TcCoe Idealize.ShloMosaic.ValueIdx Cert.KernelIdeal Cert.KernelIdeal.Gen
  Cert.KernelIdeal.KLayout Idealize.ShloMosaic.StableHlo

variable {F : FTy → Type} [FloatOps F]

/-! ## Before the kernels: the two layouts of the labels -/

/-- The column of labels is the label vector viewed [8192, 1]. -/
theorem after0_v0 (W : Valuation τ sig (Elt F)) :
    StableHlo.after hostOps0 W (Proc.devRef .tc main_v0)
      = shapeCast S8192x1 (W (Proc.devRef .tc main_arg1)) shapeCasts_S8192_S8192x1 := by
  dsimp only [hostOps0]
  after_results
  rfl

/-- The row of labels is the label vector viewed [1, 8192]. -/
theorem after0_v1 (W : Valuation τ sig (Elt F)) :
    StableHlo.after hostOps0 W (Proc.devRef .tc main_v1)
      = shapeCast S1x8192 (W (Proc.devRef .tc main_arg1)) shapeCasts_S8192_S1x8192 := by
  dsimp only [hostOps0]
  after_results
  rfl

/-- Entry (r, 0) of the column is the vector's entry r. -/
theorem after0_v0_apply (W : Valuation τ sig (Elt F)) (r : Fin 8192) :
    (StableHlo.after hostOps0 W (Proc.devRef .tc main_v0)) (ix2 r (0 : Fin 1)) = (W (Proc.devRef .tc main_arg1)) (ix1 r) := by
  rw [after0_v0]
  exact shapeCast_a_a1_apply _ _ r 0

/-- Entry (0, r) of the row is the vector's entry r. -/
theorem after0_v1_apply (W : Valuation τ sig (Elt F)) (r : Fin 8192) :
    (StableHlo.after hostOps0 W (Proc.devRef .tc main_v1)) (ix2 (0 : Fin 1) r) = (W (Proc.devRef .tc main_arg1)) (ix1 r) := by
  rw [after0_v1]
  exact shapeCast_a_1a_apply _ _ 0 r

/-- A buffer the two layouts do not write keeps its contents. -/
theorem after0_of (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

theorem after0_arg0 (W : Valuation τ sig (Elt F)) :
    StableHlo.after hostOps0 W (Proc.devRef .tc main_arg0) = W (Proc.devRef .tc main_arg0) := after0_of W main_arg0 (by decide)
theorem after0_arg1 (W : Valuation τ sig (Elt F)) :
    StableHlo.after hostOps0 W (Proc.devRef .tc main_arg1) = W (Proc.devRef .tc main_arg1) := after0_of W main_arg1 (by decide)

/-! ## After the kernels: the mean of the row losses -/

/-- The result is the sum, from zero, of the column of row losses, divided by the number of rows. -/
theorem after2_v5 (W : Valuation τ sig (Elt F)) :
    StableHlo.after hostOps2 W (Proc.devRef .tc main_v5)
      = Host.divf (Host.reduceAdd (W (Proc.devRef .tc main_v3)) (constant S_ .f32 0x00000000#32) reducesTo_S8192x1_S_d0_1 h_S_)
          (constant S_ .f32 0x46000000#32) := by
  dsimp only [hostOps2]
  after_results

/-- A buffer the closing operations do not write keeps its contents. -/
theorem after2_of (W : Valuation τ sig (Elt F)) (r : Ref sig .tc) (h : r ∉ hostOps2_W) :
    StableHlo.after hostOps2 W (Proc.devRef .tc r) = W (Proc.devRef .tc r) :=
  StableHlo.after_of_writes_sub hostOps2 _ hostOps2_writes h

theorem after2_arg0 (W : Valuation τ sig (Elt F)) :
    StableHlo.after hostOps2 W (Proc.devRef .tc main_arg0) = W (Proc.devRef .tc main_arg0) := after2_of W main_arg0 (by decide)
theorem after2_arg1 (W : Valuation τ sig (Elt F)) :
    StableHlo.after hostOps2 W (Proc.devRef .tc main_arg1) = W (Proc.devRef .tc main_arg1) := after2_of W main_arg1 (by decide)
theorem after2_v3 (W : Valuation τ sig (Elt F)) :
    StableHlo.after hostOps2 W (Proc.devRef .tc main_v3) = W (Proc.devRef .tc main_v3) := after2_of W main_v3 (by decide)

end Cert.KernelIdeal.KHost

end
-- ==== Proof.KTail.lean ====
/-
  The host tail: the sum of the rows' losses divided by the number of rows.

  After the second kernel the program sums the column of 8192 row losses over both of its axes, starting from the
  zero word, and divides by the word of 8192. At the extended reals the sum over every index of the column is the
  initial value plus the sum over the rows (the second axis has one coordinate), and the initial value is zero; so the
  program's scalar is the specification's result once the column holds the specification's row losses.
-/
import proofs.«172070_j13786845020972_1_alg».proof.Proof.Gen.KernelIdeal
import proofs.«172070_j13786845020972_1_alg».proof.Proof.Spec
import Idealize.ShloMosaic.Lib.IdealHost

noncomputable section

open scoped BigOperators

namespace Cert.KernelIdeal

open Idealize.ShloMosaic Idealize.ShloMosaic.ValueIdx Cert.KernelIdeal.Gen

/-- The program's scalar result, from a column holding the specification's row losses. -/
theorem tail_spec (X : Vec Ideal S8192x128 .f32) (tg : Fin 8192 → BitVec 32) (RL : Vec Ideal S8192x1 .f32)
    (hRL : ∀ r : Fin 8192, RL (ix2 r (0 : Fin 1)) = Cert.Spec.rowLoss (Cert.Spec.xOf X) tg r) :
    Host.divf (F := Ideal)
        (Host.reduceAdd (F := Ideal) RL (constant (F := Ideal) S_ .f32 0x00000000#32) reducesTo_S8192x1_S_d0_1 h_S_)
        (constant (F := Ideal) S_ .f32 0x46000000#32)
      = fun _ => Cert.Spec.result (Cert.Spec.xOf X) tg := by
  funext j
  rw [hostDivf_apply, hostReduceAdd_apply, constant_apply, constant_apply,
    Ideal.hostReduceAdd_total reducesTo_S8192x1_S_d0_1 (fun b => b.elim0), Ideal.ofBits_zero_f32, zero_add,
    sum_idx2]
  unfold Cert.Spec.result
  refine congrArg (fun s => Ideal.div s Cert.Spec.NROWS) (Finset.sum_congr rfl fun r _ => ?_)
  rw [Fin.sum_univ_one]
  exact hRL r

end Cert.KernelIdeal

end
-- ==== Proof.KFinal.lean ====
/-
  The kernel program's result is the specification's batch loss.

  After the whole run every unscoped buffer of a core holds the last valuation. Reading it back: the host tail's scalar
  is the sum of the second pipeline's result column divided by the number of rows; that column holds the row losses,
  because the first pipeline's three columns hold each row's hardest negative, hardest positive and has-a-positive
  flag; these because the two layouts of the labels the reshapes leave hold each row's label, and the embedding matrix
  is never written. So the result buffer holds the batch loss of the launch's embedding matrix and labels, and the two
  arguments end as launched.
-/
import proofs.«172070_j13786845020972_1_alg».proof.Proof.KIMain
import proofs.«172070_j13786845020972_1_alg».proof.Proof.KArr
import proofs.«172070_j13786845020972_1_alg».proof.Proof.KHost
import proofs.«172070_j13786845020972_1_alg».proof.Proof.KTail

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

section
variable (m : (ℓ : Loc nD τ sig) → Buf (Elt Ideal) ℓ) (ρ : Dev nD → PrngReg) (c : Dev nD)

/-! ## The buffers the pipelines read, at each boundary -/

/-- The embedding matrix is as launched at the first pipeline's entry … -/
theorem V1_arg0 : V1 m ρ c main_arg0 = m ((c.tc : Thread nD τ).loc main_arg0) :=
  (KHost.after0_arg0 (W0 m ρ c)).trans rfl
/-- … and at the second's. -/
theorem V2_arg0 : V2 m ρ c main_arg0 = m ((c.tc : Thread nD τ).loc main_arg0) :=
  (W2_of m ρ c main_arg0 (by decide)).trans (V1_arg0 m ρ c)

/-- The column of labels holds each row's label at the first pipeline's entry … -/
theorem V1_v0 (r : Fin 8192) :
    (V1 m ρ c main_v0 : Vec Ideal S8192x1 .i32) (ix2 r (0 : Fin 1)) = Cert.Spec.tOf (m ((c.tc : Thread nD τ).loc main_arg1)) r :=
  KHost.after0_v0_apply (W0 m ρ c) r
/-- … and so does the row of labels … -/
theorem V1_v1 (r : Fin 8192) :
    (V1 m ρ c main_v1 : Vec Ideal S1x8192 .i32) (ix2 (0 : Fin 1) r) = Cert.Spec.tOf (m ((c.tc : Thread nD τ).loc main_arg1)) r :=
  KHost.after0_v1_apply (W0 m ρ c) r
/-- … and both at the second pipeline's entry. -/
theorem V2_v0 (r : Fin 8192) :
    (V2 m ρ c main_v0 : Vec Ideal S8192x1 .i32) (ix2 r (0 : Fin 1)) = Cert.Spec.tOf (m ((c.tc : Thread nD τ).loc main_arg1)) r :=
  (congrFun (W2_of m ρ c main_v0 (by decide)) (ix2 r (0 : Fin 1))).trans (V1_v0 m ρ c r)
theorem V2_v1 (r : Fin 8192) :
    (V2 m ρ c main_v1 : Vec Ideal S1x8192 .i32) (ix2 (0 : Fin 1) r) = Cert.Spec.tOf (m ((c.tc : Thread nD τ).loc main_arg1)) r :=
  (congrFun (W2_of m ρ c main_v1 (by decide)) (ix2 (0 : Fin 1) r)).trans (V1_v1 m ρ c r)

/-! ## The first pipeline's three columns at the second's entry -/

theorem V2_maxNeg (r : Fin 8192) :
    (V2 m ρ c main_v2_0 : Vec Ideal S8192x1 .f32) (ix2 r (0 : Fin 1))
      = Cert.Spec.maxNeg (Cert.Spec.xOf (V2 m ρ c main_arg0)) (Cert.Spec.tOf (m ((c.tc : Thread nD τ).loc main_arg1))) r :=
  (congrFun (W2_v2_0 m ρ c) (ix2 r (0 : Fin 1))).trans <|
    (arr0_maxNeg (V1 m ρ) c _ (V1_v0 m ρ c) (V1_v1 m ρ c) r).trans <|
      congrArg (fun X => Cert.Spec.maxNeg (Cert.Spec.xOf X) (Cert.Spec.tOf (m ((c.tc : Thread nD τ).loc main_arg1))) r)
        ((V1_arg0 m ρ c).trans (V2_arg0 m ρ c).symm)

theorem V2_maxPos (r : Fin 8192) :
    (V2 m ρ c main_v2_1 : Vec Ideal S8192x1 .f32) (ix2 r (0 : Fin 1))
      = Cert.Spec.maxPos (Cert.Spec.xOf (V2 m ρ c main_arg0)) (Cert.Spec.tOf (m ((c.tc : Thread nD τ).loc main_arg1))) r :=
  (congrFun (W2_v2_1 m ρ c) (ix2 r (0 : Fin 1))).trans <|
    (arr0_maxPos (V1 m ρ) c _ (V1_v0 m ρ c) (V1_v1 m ρ c) r).trans <|
      congrArg (fun X => Cert.Spec.maxPos (Cert.Spec.xOf X) (Cert.Spec.tOf (m ((c.tc : Thread nD τ).loc main_arg1))) r)
        ((V1_arg0 m ρ c).trans (V2_arg0 m ρ c).symm)

open Classical in
theorem V2_hasPos (r : Fin 8192) :
    (V2 m ρ c main_v2_2 : Vec Ideal S8192x1 .f32) (ix2 r (0 : Fin 1))
      = (if Cert.Spec.hasPos (Cert.Spec.tOf (m ((c.tc : Thread nD τ).loc main_arg1))) r then Cert.Spec.ONE else 0) :=
  (congrFun (W2_v2_2 m ρ c) (ix2 r (0 : Fin 1))).trans (arr0_hasPos (V1 m ρ) c _ (V1_v0 m ρ c) (V1_v1 m ρ c) r)

/-! ## The second pipeline's column and the result -/

/-- The column of row losses at the second pipeline's exit. -/
theorem W3_rowLoss (r : Fin 8192) :
    (W3 m ρ c (Proc.devRef .tc main_v3) : Vec Ideal S8192x1 .f32) (ix2 r (0 : Fin 1))
      = Cert.Spec.rowLoss (Cert.Spec.xOf (m ((c.tc : Thread nD τ).loc main_arg0))) (Cert.Spec.tOf (m ((c.tc : Thread nD τ).loc main_arg1))) r :=
  (congrFun (W3_v3 m ρ c) (ix2 r (0 : Fin 1))).trans <|
    (arr1_rowLoss (V2 m ρ) c _ (V2_v0 m ρ c) (V2_v1 m ρ c) (V2_maxNeg m ρ c) (V2_maxPos m ρ c) (V2_hasPos m ρ c) r).trans <|
      congrArg (fun X => Cert.Spec.rowLoss (Cert.Spec.xOf X) (Cert.Spec.tOf (m ((c.tc : Thread nD τ).loc main_arg1))) r) (V2_arg0 m ρ c)

/-- THE RESULT: the last valuation's result buffer holds the batch loss of the launch's arguments. -/
theorem result_eq :
    W4 (F := Ideal) m ρ c (Proc.devRef .tc main_v5)
      = fun _ => Cert.Spec.result (Cert.Spec.xOf (m ((c.tc : Thread nD τ).loc main_arg0))) (Cert.Spec.tOf (m ((c.tc : Thread nD τ).loc main_arg1))) :=
  (KHost.after2_v5 (W3 m ρ c)).trans
    (tail_spec (m ((c.tc : Thread nD τ).loc main_arg0)) (Cert.Spec.tOf (m ((c.tc : Thread nD τ).loc main_arg1)))
      (W3 m ρ c (Proc.devRef .tc main_v3)) (W3_rowLoss m ρ c))

end

/-- THE KERNEL PROGRAM'S RUN: every execution terminates; the result buffer ends holding the specification's batch loss
    of the launch's embedding matrix and labels, and the two arguments end as launched. -/
theorem ker_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5)
          = (fun _ => Cert.Spec.result (Cert.Spec.xOf (m ((c.tc : Thread Cert.KernelIdeal.nD Cert.KernelIdeal.τ).loc Cert.KernelIdeal.main_arg0)))
              (Cert.Spec.tOf (m ((c.tc : Thread Cert.KernelIdeal.nD Cert.KernelIdeal.τ).loc Cert.KernelIdeal.main_arg1))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run defs _ _).mono (fun r h c =>
    ⟨(h c _ (mem_uc main_v5 (by decide))).trans (result_eq m g c),
     (h c _ (mem_uc main_arg0 (by decide))).trans (W4_main_arg0 m g c),
     (h c _ (mem_uc main_arg1 (by decide))).trans (W4_main_arg1 m g c)⟩) (run_all m g)

end Cert.KernelIdeal.Hand

end
-- ==== Proof.RefSim.lean ====
/-
  The similarity matrix of the reference, entry by entry.

  Row r of the embedding matrix is divided by its clamped Euclidean norm: the norm is the square root of the row's sum of
  squares (the host sum starts from the zero word, which is 0), clamped below by the small constant; the quotient is the
  extended reals' division. The matrix product of the normalised matrix with its transpose has at (r, q) the sum over the
  128 columns of the products of the two normalised rows' entries: the similarity of rows r and q.
-/
import proofs.«172070_j13786845020972_1_alg».proof.Proof.RefRead
import proofs.«172070_j13786845020972_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx

/-- The one coordinate of an axis of extent one. -/
abbrev z1 : Fin 1 := ⟨0, Nat.one_pos⟩

/-! ### The operand indices of the layout operations, by coordinates -/

theorem i_call0_v1 (r : Fin 8192) (k : Fin 128) : idx_main_call0_v1 (ix1 r) k = ix2 r k := by
  funext a; match a with | ⟨0, _⟩ => rfl | ⟨1, _⟩ => rfl
theorem i_call0_v2 (r : Fin 8192) (z : Fin 1) : idx_main_call0_v2 (ix2 r z) = ix1 r := by
  funext a; match a with | ⟨0, _⟩ => rfl
theorem i_v3 (r : Fin 8192) (k : Fin 128) : idx_main_v3 (ix2 r k) = ix2 r z1 := by
  funext a; match a with | ⟨0, _⟩ => rfl | ⟨1, _⟩ => rfl
theorem i_v5 (k : Fin 128) (q : Fin 8192) : idx_main_v5 (ix2 k q) = ix2 q k := by
  funext a; match a with | ⟨0, _⟩ => rfl | ⟨1, _⟩ => rfl
theorem l_v6 (r q : Fin 8192) (k : Fin 128) : lidx_main_v6 (ix2 r q) k = ix2 r k := by
  funext a; match a with | ⟨0, _⟩ => rfl | ⟨1, _⟩ => rfl
theorem r_v6 (r q : Fin 8192) (k : Fin 128) : ridx_main_v6 (ix2 r q) k = ix2 k q := by
  funext a; match a with | ⟨0, _⟩ => rfl | ⟨1, _⟩ => rfl

variable (x0 : (⟨S8192x128, .f32⟩ : BufTy).Contents (Elt Ideal))

/-- The clamped norm of row r. -/
theorem v2_at (r : Fin 8192) : val_main_v2 (F := Ideal) x0 (ix2 r z1) = Spec.nrm (Spec.xOf x0) r := by
  rw [val_main_v2_apply, val_main_v0_apply, val_main_call0_v2_apply, i_call0_v2, val_main_call0_v1_apply,
    val_main_v1_apply, val_main_cst_apply, val_main_call0_cst_apply]
  simp only [i_call0_v1, val_main_call0_v0_apply, Ideal.ofBits_def, Ideal.ofBits_zero_f32, zero_add, Ideal.mulf_def,
    Ideal.maximumf_def, Ideal.hostUnary_sqrt_def]
  rfl

/-- An entry of the normalised matrix. -/
theorem v4_at (r : Fin 8192) (k : Fin 128) : val_main_v4 (F := Ideal) x0 (ix2 r k) = Spec.xn (Spec.xOf x0) r k := by
  rw [val_main_v4_apply, val_main_v3_apply, i_v3, v2_at]
  rfl

/-- An entry of the similarity matrix. -/
theorem v6_at (r q : Fin 8192) : val_main_v6 (F := Ideal) x0 (ix2 r q) = Spec.sim (Spec.xOf x0) r q := by
  rw [val_main_v6_apply]
  unfold Spec.sim
  refine Finset.sum_congr rfl fun k _ => ?_
  rw [l_v6, r_v6, val_main_v5_apply, i_v5, v4_at, v4_at]

end Cert.ReferenceIdeal.RefValue

end
-- ==== Proof.RefBits.lean ====
/-
  One-bit words as truth values, and folds of a row.

  A mask of the reference is an array of one-bit words: an integer comparison's bit is 1 exactly when the compared
  words agree, the complement's bit when the bit was not 1, a conjunction's when both are; an ordered comparison of
  two extended reals sets its bit exactly when the strict inequality holds. A select on a bit that stands for a
  proposition is the `if` on the proposition. The or-fold of a row of bits from 0 is 1 exactly when some bit of the
  row is 1. The sum over the indices of a one-axis array is the sum over its coordinate. Reducing a matrix along its
  columns, the entry of row r with column coordinate q inserted is the matrix index (r, q).
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.RefBits

open Idealize.ShloMosaic Idealize.ShloMosaic.ValueIdx

/-- A one-bit word is 0 or 1, by cases. -/
theorem bit_cases (c : BitVec 1) : c = 0#1 ∨ c = 1#1 := BitVec.eq_zero_or_eq_one c

/-- The equality comparison's bit is 1 exactly when the words are equal. -/
theorem cmpi_eq_iff {w : Nat} (a b : BitVec w) : IntOp.cmpi .eq a b = 1#1 ↔ a = b := by
  unfold IntOp.cmpi
  by_cases h : a = b
  · subst h; simp
  · have : (a == b) = false := by simpa using h
    simp [this, h]

/-- The complement's bit is 1 exactly when the bit was not. -/
theorem noti_iff (c : BitVec 1) : ~~~c = 1#1 ↔ ¬ c = 1#1 := by
  rcases bit_cases c with h | h <;> subst h <;> decide

/-- A conjunction's bit is 1 exactly when both are. -/
theorem andi_iff (c d : BitVec 1) : IntOp.andi c d = 1#1 ↔ c = 1#1 ∧ d = 1#1 := by
  rcases bit_cases c with h | h <;> rcases bit_cases d with h' | h' <;> subst h <;> subst h' <;> decide

/-- A disjunction's bit is 1 exactly when one is. -/
theorem ori_iff (c d : BitVec 1) : IntOp.ori c d = 1#1 ↔ c = 1#1 ∨ d = 1#1 := by
  rcases bit_cases c with h | h <;> rcases bit_cases d with h' | h' <;> subst h <;> subst h' <;> decide

/-- "Less than" on the extended reals, as a bit. -/
theorem cmp_olt_iff (x y : EReal) : Ideal.cmp .olt x y = 1#1 ↔ x < y := by
  unfold Ideal.cmp
  by_cases h : x < y <;> simp [h]

/-- "Greater than" on the extended reals, as a bit. -/
theorem cmp_ogt_iff (x y : EReal) : Ideal.cmp .ogt x y = 1#1 ↔ y < x := by
  unfold Ideal.cmp
  by_cases h : y < x <;> simp [h]

/-- A select on a bit that stands for `p` is the `if` on `p`. -/
theorem select_of_iff {α : Type} (c : BitVec 1) (p : Prop) [Decidable p] (h : c = 1#1 ↔ p) (a b : α) :
    Scalar.select c a b = if p then a else b := by
  show (if c = 1#1 then a else b) = _
  by_cases hp : p
  · rw [if_pos hp, if_pos (h.mpr hp)]
  · rw [if_neg hp, if_neg (mt h.mp hp)]

/-- The or-fold of a family of bits from 0 is 1 exactly when some bit is 1. -/
theorem fold_ori_iff {ι : Type} (s : Finset ι) (f : ι → BitVec 1) :
    s.fold IntOp.ori 0#1 f = 1#1 ↔ ∃ i ∈ s, f i = 1#1 := by
  induction s using Finset.cons_induction with
  | empty => simp
  | cons a s ha ih =>
    rw [Finset.fold_cons, ori_iff, ih]
    constructor
    · rintro (h | ⟨i, hi, h⟩)
      · exact ⟨a, Finset.mem_cons_self a s, h⟩
      · exact ⟨i, Finset.mem_cons.mpr (Or.inr hi), h⟩
    · rintro ⟨i, hi, h⟩
      rcases Finset.mem_cons.mp hi with rfl | hi
      · exact Or.inl h
      · exact Or.inr ⟨i, hi, h⟩

/-- The indices of a one-axis array are its coordinates … -/
def idxEquiv1 {n : Nat} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Reducing the column axis of a matrix: the index over row `r` with column `q` inserted is `(r, q)`. -/
theorem lift_row {n0 n1 : Nat} (h : (⟨2, ![n0, n1]⟩ : Shape).Reduces [(1 : Fin 2)] ⟨1, ![n0]⟩) (r : Fin n0) (q : Fin n1) :
    h.lift (ix1 r) q = ix2 r q := by
  funext c
  apply Fin.ext
  show h.liftVal (ix1 r) q.val c = (ix2 r q c).val
  unfold Shape.Reduces.liftVal
  match c with
  | ⟨0, _⟩ => simp
  | ⟨1, _⟩ => simp

end Cert.RefBits

end
-- ==== Proof.RefMask.lean ====
/-
  The masks of the reference, entry by entry, as propositions about the labels.

  The label comparison's bit at (r, q) is 1 exactly when rows r and q carry the same label; the identity mask's bit
  (row number against column number, both below 2^32, so the words agree exactly when the numbers do) exactly when
  r = q. Hence the positive mask's bit (same label and not the diagonal) is 1 exactly on the positive pairs, the
  negative mask's (not the same label) exactly on the negative pairs; and the or-reduction of the positive mask over
  row r, a fold of "or" from 0 over the columns, is 1 exactly when row r has a positive.
-/
import proofs.«172070_j13786845020972_1_alg».proof.Proof.RefRead
import proofs.«172070_j13786845020972_1_alg».proof.Proof.Spec
import proofs.«172070_j13786845020972_1_alg».proof.Proof.RefBits
import Idealize.ShloMosaic.Lib.ValueIdx
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefBits

/-- The one coordinate of an axis of extent one. -/
abbrev z1' : Fin 1 := ⟨0, Nat.one_pos⟩

/-! ### The operand indices of the broadcasts, by coordinates -/

theorem i_v7 (r : Fin 8192) (z : Fin 1) : idx_main_v7 (ix2 r z) = ix1 r := by
  funext a; match a with | ⟨0, _⟩ => rfl
theorem i_v8 (z : Fin 1) (q : Fin 8192) : idx_main_v8 (ix2 z q) = ix1 q := by
  funext a; match a with | ⟨0, _⟩ => rfl
theorem i_v9 (r q : Fin 8192) : idx_main_v9 (ix2 r q) = ix2 r z1' := by
  funext a; match a with | ⟨0, _⟩ => rfl | ⟨1, _⟩ => rfl
theorem i_v10 (r q : Fin 8192) : idx_main_v10 (ix2 r q) = ix2 z1' q := by
  funext a; match a with | ⟨0, _⟩ => rfl | ⟨1, _⟩ => rfl

/-- Row and column numbers are below 2^32: their words agree exactly when they do. -/
theorem ofNat_inj (r q : Fin 8192) : BitVec.ofNat 32 r.val = BitVec.ofNat 32 q.val ↔ r = q := by
  constructor
  · intro h
    have h2 := congrArg BitVec.toNat h
    rw [BitVec.toNat_ofNat, BitVec.toNat_ofNat,
      Nat.mod_eq_of_lt (Nat.lt_trans r.isLt (by decide)), Nat.mod_eq_of_lt (Nat.lt_trans q.isLt (by decide))] at h2
    exact Fin.ext h2
  · rintro rfl; rfl

variable (x1 : (⟨S8192, .i32⟩ : BufTy).Contents (Elt Ideal))

/-- The label comparison at (r, q). -/
theorem v11_iff (r q : Fin 8192) : val_main_v11 (F := Ideal) x1 (ix2 r q) = 1#1 ↔ Spec.tOf x1 r = Spec.tOf x1 q := by
  rw [val_main_v11_apply, val_main_v9_apply, i_v9, val_main_v7_apply, i_v7, val_main_v10_apply, i_v10, val_main_v8_apply, i_v8,
    cmpi_eq_iff]
  rfl

/-- The identity mask at (r, q). -/
theorem v16_iff (r q : Fin 8192) : val_main_v16 (F := Ideal) (ix2 r q) = 1#1 ↔ r = q := by
  rw [val_main_v16_apply, val_main_v15_apply, val_main_v12_apply, val_main_v13_apply, val_main_v14_apply, val_main_c_apply,
    cmpi_eq_iff]
  show BitVec.ofNat 32 r.val + 0#32 = BitVec.ofNat 32 q.val ↔ r = q
  rw [BitVec.add_zero]
  exact ofNat_inj r q

/-- The positive mask at (r, q). -/
theorem v18_iff (r q : Fin 8192) : val_main_v18 (F := Ideal) x1 (ix2 r q) = 1#1 ↔ Spec.pos (Spec.tOf x1) r q := by
  rw [val_main_v18_apply, andi_iff, v11_iff, val_main_v17_apply, noti_iff, v16_iff]
  rfl

/-- The negative mask at (r, q). -/
theorem v19_iff (r q : Fin 8192) : val_main_v19 (F := Ideal) x1 (ix2 r q) = 1#1 ↔ Spec.neg (Spec.tOf x1) r q := by
  rw [val_main_v19_apply, noti_iff, v11_iff]
  rfl

/-- A row reduction by "or" from 0 of a matrix of bits whose row r is given entry by entry. -/
theorem rowOr (y : (⟨S8192x8192, .i1⟩ : BufTy).Contents (Elt Ideal)) (init : (⟨S_, .i1⟩ : BufTy).Contents (Elt Ideal))
    (hinit : init (Shape.Idx.first h_S_) = 0#1) (r : Fin 8192) (g : Fin 8192 → BitVec 1) (hy : ∀ q : Fin 8192, y (ix2 r q) = g q) :
    Host.reduce IntOp.ori y init reducesTo_S8192x8192_S8192_d1 h_S_ (ix1 r)
      = (Finset.univ : Finset (Fin 8192)).fold IntOp.ori 0#1 g := by
  rw [Host.reduce_eq_fold_single (f := IntOp.ori) (x := y) (init := init) (h' := reducesTo_S8192x8192_S8192_d1)
    (h := by decide) (hu := h_S_) (j := ix1 r), hinit]
  exact Finset.fold_congr fun (q : Fin 8192) _ => (congrArg y (lift_row _ r q)).trans (hy q)

/-- Row r has a positive. -/
theorem v24_iff (r : Fin 8192) : val_main_v24 (F := Ideal) x1 (ix1 r) = 1#1 ↔ Spec.hasPos (Spec.tOf x1) r := by
  unfold val_main_v24
  rw [rowOr _ _ (val_main_c_4_apply _) r _ (fun _ => rfl), fold_ori_iff]
  unfold Spec.hasPos
  constructor
  · rintro ⟨q, -, h⟩
    exact ⟨q, (v18_iff x1 r q).mp h⟩
  · rintro ⟨q, h⟩
    exact ⟨q, Finset.mem_univ _, (v18_iff x1 r q).mpr h⟩

end Cert.ReferenceIdeal.RefValue

end
-- ==== Proof.RefMax.lean ====
/-
  The hardest negative and the hardest positive of a row.

  The reference replaces the similarities off the negative (positive) mask by -∞ and reduces each row by max from -∞.
  A reduction of a matrix along its columns by a commutative, associative operation is, at row r, the fold of the
  operation from the initial value over the columns q of the entry at (r, q); here that entry is the similarity of
  rows r and q where the pair is negative (positive), and -∞ elsewhere.
-/
import proofs.«172070_j13786845020972_1_alg».proof.Proof.RefSim
import proofs.«172070_j13786845020972_1_alg».proof.Proof.RefMask
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefBits

variable (x0 : (⟨S8192x128, .f32⟩ : BufTy).Contents (Elt Ideal)) (x1 : (⟨S8192, .i32⟩ : BufTy).Contents (Elt Ideal))

/-- The similarities kept on the negative pairs, at (r, q). -/
theorem v20_at (r q : Fin 8192) :
    val_main_v20 (F := Ideal) x0 x1 (ix2 r q)
      = if Spec.neg (Spec.tOf x1) r q then Spec.sim (Spec.xOf x0) r q else Spec.NINF := by
  rw [val_main_v20_apply, select_of_iff _ _ (v19_iff x1 r q), v6_at, val_main_call1_v0_apply, val_main_cst_0_apply]
  rfl

/-- The similarities kept on the positive pairs, at (r, q). -/
theorem v22_at (r q : Fin 8192) :
    val_main_v22 (F := Ideal) x0 x1 (ix2 r q)
      = if Spec.pos (Spec.tOf x1) r q then Spec.sim (Spec.xOf x0) r q else Spec.NINF := by
  rw [val_main_v22_apply, select_of_iff _ _ (v18_iff x1 r q), v6_at, val_main_call2_v0_apply, val_main_cst_2_apply]
  rfl

/-- A row reduction by max from -∞ of a matrix whose row r is given entry by entry. -/
theorem rowMax (y : (⟨S8192x8192, .f32⟩ : BufTy).Contents (Elt Ideal)) (init : (⟨S_, .f32⟩ : BufTy).Contents (Elt Ideal))
    (hinit : init (Shape.Idx.first h_S_) = Spec.NINF) (r : Fin 8192) (g : Fin 8192 → EReal) (hy : ∀ q : Fin 8192, y (ix2 r q) = g q) :
    Host.reduce (FloatOps.maximumf (F := Ideal) (φ := .f32)) y init reducesTo_S8192x8192_S8192_d1 h_S_ (ix1 r)
      = (Finset.univ : Finset (Fin 8192)).fold max Spec.NINF g := by
  rw [Host.reduce_eq_fold_single (f := FloatOps.maximumf (F := Ideal) (φ := .f32)) (x := y) (init := init) (h' := reducesTo_S8192x8192_S8192_d1)
    (h := by decide) (hu := h_S_) (j := ix1 r), hinit]
  exact Finset.fold_congr fun (q : Fin 8192) _ => (congrArg y (lift_row _ r q)).trans (hy q)

/-- The hardest negative of row r. -/
theorem v21_at (r : Fin 8192) :
    val_main_v21 (F := Ideal) x0 x1 (ix1 r) = Spec.maxNeg (Spec.xOf x0) (Spec.tOf x1) r := by
  unfold val_main_v21 Spec.maxNeg
  exact rowMax _ _ (val_main_cst_1_apply _) r _ (v20_at x0 x1 r)

/-- The hardest positive of row r. -/
theorem v23_at (r : Fin 8192) :
    val_main_v23 (F := Ideal) x0 x1 (ix1 r) = Spec.maxPos (Spec.xOf x0) (Spec.tOf x1) r := by
  unfold val_main_v23 Spec.maxPos
  exact rowMax _ _ (val_main_cst_3_apply _) r _ (v22_at x0 x1 r)

end Cert.ReferenceIdeal.RefValue

end
-- ==== Proof.RefLoss.lean ====
/-
  The two losses of a row.

  Row r's positive loss sums, over the columns q, one minus the similarity where the pair (r, q) is positive and the
  similarity is below the row's hardest negative plus the margin, and the zero word elsewhere; its negative loss sums the
  similarity where the pair is negative and the similarity is above max(floor, hardest positive) minus the margin. Both
  host sums start from the zero word, which is 0. The thresholds are per row: a column broadcast of a row vector.
-/
import proofs.«172070_j13786845020972_1_alg».proof.Proof.RefMax
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefBits

/-! ### The operand indices of the broadcasts and of the row sums, by coordinates -/

theorem i_v27 (r : Fin 8192) (z : Fin 1) : idx_main_v27 (ix2 r z) = ix1 r := by
  funext a; match a with | ⟨0, _⟩ => rfl
theorem i_v28 (r q : Fin 8192) : idx_main_v28 (ix2 r q) = ix2 r z1 := by
  funext a; match a with | ⟨0, _⟩ => rfl | ⟨1, _⟩ => rfl
theorem i_v39 (r : Fin 8192) (z : Fin 1) : idx_main_v39 (ix2 r z) = ix1 r := by
  funext a; match a with | ⟨0, _⟩ => rfl
theorem i_v40 (r q : Fin 8192) : idx_main_v40 (ix2 r q) = ix2 r z1 := by
  funext a; match a with | ⟨0, _⟩ => rfl | ⟨1, _⟩ => rfl
theorem i_v34 (r q : Fin 8192) : idx_main_v34 (ix1 r) q = ix2 r q := by
  funext a; match a with | ⟨0, _⟩ => rfl | ⟨1, _⟩ => rfl
theorem i_v44 (r q : Fin 8192) : idx_main_v44 (ix1 r) q = ix2 r q := by
  funext a; match a with | ⟨0, _⟩ => rfl | ⟨1, _⟩ => rfl

/-- The zero word is 0. -/
theorem zero_word : FloatOps.ofBits (F := Ideal) .f32 0x00000000#32 = (0 : EReal) := Ideal.ofBits_zero_f32

variable (x0 : (⟨S8192x128, .f32⟩ : BufTy).Contents (Elt Ideal)) (x1 : (⟨S8192, .i32⟩ : BufTy).Contents (Elt Ideal))

/-! ### The positive loss -/

/-- The positive threshold of row r, broadcast along the row. -/
theorem v28_at (r q : Fin 8192) :
    val_main_v28 (F := Ideal) x0 x1 (ix2 r q) = Spec.maxNeg (Spec.xOf x0) (Spec.tOf x1) r + Spec.MARGIN := by
  rw [val_main_v28_apply, i_v28, val_main_v27_apply, i_v27, val_main_v26_apply, v21_at, val_main_v25_apply, val_main_cst_5_apply]
  rfl

/-- The hard positives. -/
theorem v30_iff (r q : Fin 8192) :
    val_main_v30 (F := Ideal) x0 x1 (ix2 r q) = 1#1
      ↔ (Spec.pos (Spec.tOf x1) r q
          ∧ Spec.sim (Spec.xOf x0) r q < Spec.maxNeg (Spec.xOf x0) (Spec.tOf x1) r + Spec.MARGIN) := by
  rw [val_main_v30_apply, andi_iff, v18_iff, val_main_v29_apply, v6_at, v28_at]
  exact and_congr Iff.rfl (cmp_olt_iff _ _)

/-- The positive summand at (r, q). -/
theorem v33_at (r q : Fin 8192) :
    val_main_v33 (F := Ideal) x0 x1 (ix2 r q)
      = if Spec.pos (Spec.tOf x1) r q
            ∧ Spec.sim (Spec.xOf x0) r q < Spec.maxNeg (Spec.xOf x0) (Spec.tOf x1) r + Spec.MARGIN
        then Spec.ONE - Spec.sim (Spec.xOf x0) r q else 0 := by
  rw [val_main_v33_apply, select_of_iff _ _ (v30_iff x0 x1 r q), val_main_v32_apply, val_main_v31_apply, val_main_cst_6_apply,
    v6_at, val_main_call3_v1_apply, val_main_call3_v0_apply, val_main_cst_7_apply, zero_word]
  rfl

/-- The positive loss of row r. -/
theorem v34_at (r : Fin 8192) :
    val_main_v34 (F := Ideal) x0 x1 (ix1 r) = Spec.posLoss (Spec.xOf x0) (Spec.tOf x1) r := by
  rw [val_main_v34_apply, val_main_cst_8_apply, zero_word, zero_add]
  unfold Spec.posLoss
  exact Finset.sum_congr rfl fun q _ => by rw [i_v34, v33_at]

/-! ### The negative loss -/

/-- The negative threshold of row r, broadcast along the row. -/
theorem v40_at (r q : Fin 8192) :
    val_main_v40 (F := Ideal) x0 x1 (ix2 r q)
      = max Spec.FLOOR (Spec.maxPos (Spec.xOf x0) (Spec.tOf x1) r) - Spec.MARGIN := by
  rw [val_main_v40_apply, i_v40, val_main_v39_apply, i_v39, val_main_v38_apply, val_main_v36_apply, val_main_v35_apply,
    val_main_cst_9_apply, v23_at, val_main_v37_apply, val_main_cst_10_apply]
  rfl

/-- The hard negatives. -/
theorem v42_iff (r q : Fin 8192) :
    val_main_v42 (F := Ideal) x0 x1 (ix2 r q) = 1#1
      ↔ (Spec.neg (Spec.tOf x1) r q
          ∧ max Spec.FLOOR (Spec.maxPos (Spec.xOf x0) (Spec.tOf x1) r) - Spec.MARGIN < Spec.sim (Spec.xOf x0) r q) := by
  rw [val_main_v42_apply, andi_iff, v19_iff, val_main_v41_apply, v6_at, v40_at]
  exact and_congr Iff.rfl (cmp_ogt_iff _ _)

/-- The negative summand at (r, q). -/
theorem v43_at (r q : Fin 8192) :
    val_main_v43 (F := Ideal) x0 x1 (ix2 r q)
      = if Spec.neg (Spec.tOf x1) r q
            ∧ max Spec.FLOOR (Spec.maxPos (Spec.xOf x0) (Spec.tOf x1) r) - Spec.MARGIN < Spec.sim (Spec.xOf x0) r q
        then Spec.sim (Spec.xOf x0) r q else 0 := by
  rw [val_main_v43_apply, select_of_iff _ _ (v42_iff x0 x1 r q), v6_at, val_main_call4_v1_apply, val_main_call4_v0_apply,
    val_main_cst_11_apply, zero_word]

/-- The negative loss of row r. -/
theorem v44_at (r : Fin 8192) :
    val_main_v44 (F := Ideal) x0 x1 (ix1 r) = Spec.negLoss (Spec.xOf x0) (Spec.tOf x1) r := by
  rw [val_main_v44_apply, val_main_cst_12_apply, zero_word, zero_add]
  unfold Spec.negLoss
  exact Finset.sum_congr rfl fun q _ => by rw [i_v44, v43_at]

end Cert.ReferenceIdeal.RefValue

end
-- ==== Proof.RefFinal.lean ====
/-
  The reference's result as the specification's function of the two argument arrays.

  A row's loss is the sum of its two losses where the row has a positive (the or-reduction of the positive mask) and the
  zero word elsewhere; the result is the sum of the rows' losses, from the zero word, divided by the number of rows.
-/
import proofs.«172070_j13786845020972_1_alg».proof.Proof.RefLoss

noncomputable section

open scoped BigOperators

namespace Cert.ReferenceIdeal.RefValue

open Cert.ReferenceIdeal Cert.ReferenceIdeal.Gen Cert.ReferenceIdeal.ReadP Idealize.ShloMosaic Idealize.ShloMosaic.ValueIdx Cert.RefBits

variable (x0 : (⟨S8192x128, .f32⟩ : BufTy).Contents (Elt Ideal)) (x1 : (⟨S8192, .i32⟩ : BufTy).Contents (Elt Ideal))

/-- The loss of row r. -/
theorem v46_at (r : Fin 8192) :
    val_main_v46 (F := Ideal) x0 x1 (ix1 r) = Spec.rowLoss (Spec.xOf x0) (Spec.tOf x1) r := by
  rw [val_main_v46_apply, val_main_v45_apply, v34_at, v44_at, val_main_call5_v1_apply, val_main_call5_v0_apply,
    val_main_cst_13_apply, zero_word]
  unfold Spec.rowLoss
  by_cases hp : Spec.hasPos (Spec.tOf x1) r
  · rw [if_pos hp, (v24_iff x1 r).mpr hp, select_one]
    rfl
  · rw [if_neg hp, eq_zero_of_ne_one (mt (v24_iff x1 r).mp hp), select_zero]

/-- The sum of the rows' losses. -/
theorem v47_at (i : S_.Idx) :
    val_main_v47 (F := Ideal) x0 x1 i = ∑ r : Fin 8192, Spec.rowLoss (Spec.xOf x0) (Spec.tOf x1) r := by
  rw [val_main_v47_apply, val_main_cst_14_apply, zero_word, zero_add, sum_idx1]
  exact Finset.sum_congr rfl fun r _ => v46_at x0 x1 r

/-- The reference's result is the specification's. -/
theorem v48_eq :
    val_main_v48 (F := Ideal) x0 x1 = fun _ => Spec.result (Spec.xOf x0) (Spec.tOf x1) := by
  funext i
  rw [val_main_v48_apply, v47_at, val_main_cst_15_apply]
  rfl

end Cert.ReferenceIdeal.RefValue

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefRunVal.lean ====
/-
  Reading the fold of the reference's operations at its result buffer.

  The run leaves in the result buffer the fold of the operations' results over the launch contents. Read one operation at
  a time from the last one back, each buffer holds its operation's function applied to what its operand buffers hold, and
  the transports an inlined call's operations carry are the identity (a value carried to its buffer's type and back is
  the value; the two types are one). So that the term never grows, each operation's value is named as soon as it is
  formed: the value is the stage of the program read one operation at a time (a constant stage is left as the constant
  it is, since several buffers hold the same constant). At the end the result buffer holds the last stage at the two
  argument arrays' launch contents.
-/
import proofs.«172070_j13786845020972_1_alg».proof.Proof.RefRun
import proofs.«172070_j13786845020972_1_alg».proof.Proof.RefRead
import proofs.«172070_j13786845020972_1_alg».proof.Proof.LibHostFold

noncomputable section

namespace Cert.ReferenceIdeal.RunVal

open Cert.ReferenceIdeal Cert.ReferenceIdeal.Gen Cert.ReferenceIdeal.ReadP Cert.ReferenceIdeal.ValueP Idealize.ShloMosaic
  Idealize.ShloMosaic.TcCoe Idealize.SL.Sem Idealize.ShloMosaic.StableHlo

variable {F : FTy → Type} [FloatOps F]

/-! ### Each stage from the stages it reads (the constant stages spelt out) -/

theorem fold_call0_v0 (x0 : (⟨S8192x128, .f32⟩ : BufTy).Contents (Elt F)) :
    ((mulf (x0) (x0)) : (⟨S8192x128, .f32⟩ : BufTy).Contents (Elt F)) = val_main_call0_v0 (F := F) x0 := by
  unfold val_main_call0_v0; rfl
theorem fold_call0_v1 (x0 : (⟨S8192x128, .f32⟩ : BufTy).Contents (Elt F)) :
    ((Host.reduceAdd (val_main_call0_v0 (F := F) x0) ((constant S_ .f32 0x00000000#32) : (⟨S_, .f32⟩ : BufTy).Contents (Elt F)) reducesTo_S8192x128_S8192_d1 h_S_) : (⟨S8192, .f32⟩ : BufTy).Contents (Elt F)) = val_main_call0_v1 (F := F) x0 := by
  unfold val_main_call0_v1; rfl
theorem fold_call0_v2 (x0 : (⟨S8192x128, .f32⟩ : BufTy).Contents (Elt F)) :
    ((broadcastInDim S8192x1 ![0] bcast_S8192_S8192x1_0 (val_main_call0_v1 (F := F) x0)) : (⟨S8192x1, .f32⟩ : BufTy).Contents (Elt F)) = val_main_call0_v2 (F := F) x0 := by
  unfold val_main_call0_v2; rfl
theorem fold_v0 (x0 : (⟨S8192x128, .f32⟩ : BufTy).Contents (Elt F)) :
    ((Host.sqrt (val_main_call0_v2 (F := F) x0)) : (⟨S8192x1, .f32⟩ : BufTy).Contents (Elt F)) = val_main_v0 (F := F) x0 := by
  unfold val_main_v0; rfl
theorem fold_v2 (x0 : (⟨S8192x128, .f32⟩ : BufTy).Contents (Elt F)) :
    ((maximumf (val_main_v0 (F := F) x0) ((broadcastInDim S8192x1 ![] bcast_S_S8192x1 ((constant S_ .f32 0x2B8CBCCC#32) : (⟨S_, .f32⟩ : BufTy).Contents (Elt F))) : (⟨S8192x1, .f32⟩ : BufTy).Contents (Elt F))) : (⟨S8192x1, .f32⟩ : BufTy).Contents (Elt F)) = val_main_v2 (F := F) x0 := by
  unfold val_main_v2; rfl
theorem fold_v3 (x0 : (⟨S8192x128, .f32⟩ : BufTy).Contents (Elt F)) :
    ((broadcastInDim S8192x128 ![0, 1] bcast_S8192x1_S8192x128_0_1 (val_main_v2 (F := F) x0)) : (⟨S8192x128, .f32⟩ : BufTy).Contents (Elt F)) = val_main_v3 (F := F) x0 := by
  unfold val_main_v3; rfl
theorem fold_v4 (x0 : (⟨S8192x128, .f32⟩ : BufTy).Contents (Elt F)) :
    ((Host.divf (x0) (val_main_v3 (F := F) x0)) : (⟨S8192x128, .f32⟩ : BufTy).Contents (Elt F)) = val_main_v4 (F := F) x0 := by
  unfold val_main_v4; rfl
theorem fold_v5 (x0 : (⟨S8192x128, .f32⟩ : BufTy).Contents (Elt F)) :
    ((transpose S128x8192 [1, 0] (val_main_v4 (F := F) x0) transposes_S8192x128_S128x8192_1_0) : (⟨S128x8192, .f32⟩ : BufTy).Contents (Elt F)) = val_main_v5 (F := F) x0 := by
  unfold val_main_v5; rfl
theorem fold_v6 (x0 : (⟨S8192x128, .f32⟩ : BufTy).Contents (Elt F)) :
    ((Host.dotGeneral dot_S8192x128_S128x8192_S8192x8192_1_0_0_1_n_n none (val_main_v4 (F := F) x0) (val_main_v5 (F := F) x0)) : (⟨S8192x8192, .f32⟩ : BufTy).Contents (Elt F)) = val_main_v6 (F := F) x0 := by
  unfold val_main_v6; rfl
theorem fold_v7 (x1 : (⟨S8192, .i32⟩ : BufTy).Contents (Elt F)) :
    ((broadcastInDim S8192x1 ![0] bcast_S8192_S8192x1_0 (x1)) : (⟨S8192x1, .i32⟩ : BufTy).Contents (Elt F)) = val_main_v7 (F := F) x1 := by
  unfold val_main_v7; rfl
theorem fold_v8 (x1 : (⟨S8192, .i32⟩ : BufTy).Contents (Elt F)) :
    ((broadcastInDim S1x8192 ![1] bcast_S8192_S1x8192_1 (x1)) : (⟨S1x8192, .i32⟩ : BufTy).Contents (Elt F)) = val_main_v8 (F := F) x1 := by
  unfold val_main_v8; rfl
theorem fold_v9 (x1 : (⟨S8192, .i32⟩ : BufTy).Contents (Elt F)) :
    ((broadcastInDim S8192x8192 ![0, 1] bcast_S8192x1_S8192x8192_0_1 (val_main_v7 (F := F) x1)) : (⟨S8192x8192, .i32⟩ : BufTy).Contents (Elt F)) = val_main_v9 (F := F) x1 := by
  unfold val_main_v9; rfl
theorem fold_v10 (x1 : (⟨S8192, .i32⟩ : BufTy).Contents (Elt F)) :
    ((broadcastInDim S8192x8192 ![0, 1] bcast_S1x8192_S8192x8192_0_1 (val_main_v8 (F := F) x1)) : (⟨S8192x8192, .i32⟩ : BufTy).Contents (Elt F)) = val_main_v10 (F := F) x1 := by
  unfold val_main_v10; rfl
theorem fold_v11 (x1 : (⟨S8192, .i32⟩ : BufTy).Contents (Elt F)) :
    ((cmpi .eq (val_main_v9 (F := F) x1) (val_main_v10 (F := F) x1)) : (⟨S8192x8192, .i1⟩ : BufTy).Contents (Elt F)) = val_main_v11 (F := F) x1 := by
  unfold val_main_v11; rfl
theorem fold_v18 (x1 : (⟨S8192, .i32⟩ : BufTy).Contents (Elt F)) :
    ((andi (val_main_v11 (F := F) x1) ((noti ((cmpi .eq ((addi ((iotaInDim S8192x8192 32 0) : (⟨S8192x8192, .i32⟩ : BufTy).Contents (Elt F)) ((broadcastInDim S8192x8192 ![] bcast_S_S8192x8192 ((constantI S_ 32 0#32) : (⟨S_, .i32⟩ : BufTy).Contents (Elt F))) : (⟨S8192x8192, .i32⟩ : BufTy).Contents (Elt F))) : (⟨S8192x8192, .i32⟩ : BufTy).Contents (Elt F)) ((iotaInDim S8192x8192 32 1) : (⟨S8192x8192, .i32⟩ : BufTy).Contents (Elt F))) : (⟨S8192x8192, .i1⟩ : BufTy).Contents (Elt F))) : (⟨S8192x8192, .i1⟩ : BufTy).Contents (Elt F))) : (⟨S8192x8192, .i1⟩ : BufTy).Contents (Elt F)) = val_main_v18 (F := F) x1 := by
  unfold val_main_v18; rfl
theorem fold_v19 (x1 : (⟨S8192, .i32⟩ : BufTy).Contents (Elt F)) :
    ((noti (val_main_v11 (F := F) x1)) : (⟨S8192x8192, .i1⟩ : BufTy).Contents (Elt F)) = val_main_v19 (F := F) x1 := by
  unfold val_main_v19; rfl
theorem fold_v20 (x0 : (⟨S8192x128, .f32⟩ : BufTy).Contents (Elt F)) (x1 : (⟨S8192, .i32⟩ : BufTy).Contents (Elt F)) :
    ((select (val_main_v19 (F := F) x1) (val_main_v6 (F := F) x0) ((broadcastInDim S8192x8192 ![] bcast_S_S8192x8192 ((constant S_ .f32 0xFF800000#32) : (⟨S_, .f32⟩ : BufTy).Contents (Elt F))) : (⟨S8192x8192, .f32⟩ : BufTy).Contents (Elt F))) : (⟨S8192x8192, .f32⟩ : BufTy).Contents (Elt F)) = val_main_v20 (F := F) x0 x1 := by
  unfold val_main_v20; rfl
theorem fold_v21 (x0 : (⟨S8192x128, .f32⟩ : BufTy).Contents (Elt F)) (x1 : (⟨S8192, .i32⟩ : BufTy).Contents (Elt F)) :
    ((Host.reduce FloatOps.maximumf (val_main_v20 (F := F) x0 x1) ((constant S_ .f32 0xFF800000#32) : (⟨S_, .f32⟩ : BufTy).Contents (Elt F)) reducesTo_S8192x8192_S8192_d1 h_S_) : (⟨S8192, .f32⟩ : BufTy).Contents (Elt F)) = val_main_v21 (F := F) x0 x1 := by
  unfold val_main_v21; rfl
theorem fold_v22 (x0 : (⟨S8192x128, .f32⟩ : BufTy).Contents (Elt F)) (x1 : (⟨S8192, .i32⟩ : BufTy).Contents (Elt F)) :
    ((select (val_main_v18 (F := F) x1) (val_main_v6 (F := F) x0) ((broadcastInDim S8192x8192 ![] bcast_S_S8192x8192 ((constant S_ .f32 0xFF800000#32) : (⟨S_, .f32⟩ : BufTy).Contents (Elt F))) : (⟨S8192x8192, .f32⟩ : BufTy).Contents (Elt F))) : (⟨S8192x8192, .f32⟩ : BufTy).Contents (Elt F)) = val_main_v22 (F := F) x0 x1 := by
  unfold val_main_v22; rfl
theorem fold_v23 (x0 : (⟨S8192x128, .f32⟩ : BufTy).Contents (Elt F)) (x1 : (⟨S8192, .i32⟩ : BufTy).Contents (Elt F)) :
    ((Host.reduce FloatOps.maximumf (val_main_v22 (F := F) x0 x1) ((constant S_ .f32 0xFF800000#32) : (⟨S_, .f32⟩ : BufTy).Contents (Elt F)) reducesTo_S8192x8192_S8192_d1 h_S_) : (⟨S8192, .f32⟩ : BufTy).Contents (Elt F)) = val_main_v23 (F := F) x0 x1 := by
  unfold val_main_v23; rfl
theorem fold_v24 (x1 : (⟨S8192, .i32⟩ : BufTy).Contents (Elt F)) :
    ((Host.reduce IntOp.ori (val_main_v18 (F := F) x1) ((constantI S_ 1 0#1) : (⟨S_, .i1⟩ : BufTy).Contents (Elt F)) reducesTo_S8192x8192_S8192_d1 h_S_) : (⟨S8192, .i1⟩ : BufTy).Contents (Elt F)) = val_main_v24 (F := F) x1 := by
  unfold val_main_v24; rfl
theorem fold_v26 (x0 : (⟨S8192x128, .f32⟩ : BufTy).Contents (Elt F)) (x1 : (⟨S8192, .i32⟩ : BufTy).Contents (Elt F)) :
    ((addf (val_main_v21 (F := F) x0 x1) ((broadcastInDim S8192 ![] bcast_S_S8192 ((constant S_ .f32 0x3DCCCCCD#32) : (⟨S_, .f32⟩ : BufTy).Contents (Elt F))) : (⟨S8192, .f32⟩ : BufTy).Contents (Elt F))) : (⟨S8192, .f32⟩ : BufTy).Contents (Elt F)) = val_main_v26 (F := F) x0 x1 := by
  unfold val_main_v26; rfl
theorem fold_v27 (x0 : (⟨S8192x128, .f32⟩ : BufTy).Contents (Elt F)) (x1 : (⟨S8192, .i32⟩ : BufTy).Contents (Elt F)) :
    ((broadcastInDim S8192x1 ![0] bcast_S8192_S8192x1_0 (val_main_v26 (F := F) x0 x1)) : (⟨S8192x1, .f32⟩ : BufTy).Contents (Elt F)) = val_main_v27 (F := F) x0 x1 := by
  unfold val_main_v27; rfl
theorem fold_v28 (x0 : (⟨S8192x128, .f32⟩ : BufTy).Contents (Elt F)) (x1 : (⟨S8192, .i32⟩ : BufTy).Contents (Elt F)) :
    ((broadcastInDim S8192x8192 ![0, 1] bcast_S8192x1_S8192x8192_0_1 (val_main_v27 (F := F) x0 x1)) : (⟨S8192x8192, .f32⟩ : BufTy).Contents (Elt F)) = val_main_v28 (F := F) x0 x1 := by
  unfold val_main_v28; rfl
theorem fold_v29 (x0 : (⟨S8192x128, .f32⟩ : BufTy).Contents (Elt F)) (x1 : (⟨S8192, .i32⟩ : BufTy).Contents (Elt F)) :
    ((cmpf .olt (val_main_v6 (F := F) x0) (val_main_v28 (F := F) x0 x1)) : (⟨S8192x8192, .i1⟩ : BufTy).Contents (Elt F)) = val_main_v29 (F := F) x0 x1 := by
  unfold val_main_v29; rfl
theorem fold_v30 (x0 : (⟨S8192x128, .f32⟩ : BufTy).Contents (Elt F)) (x1 : (⟨S8192, .i32⟩ : BufTy).Contents (Elt F)) :
    ((andi (val_main_v18 (F := F) x1) (val_main_v29 (F := F) x0 x1)) : (⟨S8192x8192, .i1⟩ : BufTy).Contents (Elt F)) = val_main_v30 (F := F) x0 x1 := by
  unfold val_main_v30; rfl
theorem fold_v32 (x0 : (⟨S8192x128, .f32⟩ : BufTy).Contents (Elt F)) :
    ((subf ((broadcastInDim S8192x8192 ![] bcast_S_S8192x8192 ((constant S_ .f32 0x3F800000#32) : (⟨S_, .f32⟩ : BufTy).Contents (Elt F))) : (⟨S8192x8192, .f32⟩ : BufTy).Contents (Elt F)) (val_main_v6 (F := F) x0)) : (⟨S8192x8192, .f32⟩ : BufTy).Contents (Elt F)) = val_main_v32 (F := F) x0 := by
  unfold val_main_v32; rfl
theorem fold_v33 (x0 : (⟨S8192x128, .f32⟩ : BufTy).Contents (Elt F)) (x1 : (⟨S8192, .i32⟩ : BufTy).Contents (Elt F)) :
    ((select (val_main_v30 (F := F) x0 x1) (val_main_v32 (F := F) x0) ((broadcastInDim S8192x8192 ![] bcast_S_S8192x8192 ((id ((constant S_ .f32 0x00000000#32) : (⟨S_, .f32⟩ : BufTy).Contents (Elt F))) : (⟨S_, .f32⟩ : BufTy).Contents (Elt F))) : (⟨S8192x8192, .f32⟩ : BufTy).Contents (Elt F))) : (⟨S8192x8192, .f32⟩ : BufTy).Contents (Elt F)) = val_main_v33 (F := F) x0 x1 := by
  unfold val_main_v33; rfl
theorem fold_v34 (x0 : (⟨S8192x128, .f32⟩ : BufTy).Contents (Elt F)) (x1 : (⟨S8192, .i32⟩ : BufTy).Contents (Elt F)) :
    ((Host.reduceAdd (val_main_v33 (F := F) x0 x1) ((constant S_ .f32 0x00000000#32) : (⟨S_, .f32⟩ : BufTy).Contents (Elt F)) reducesTo_S8192x8192_S8192_d1 h_S_) : (⟨S8192, .f32⟩ : BufTy).Contents (Elt F)) = val_main_v34 (F := F) x0 x1 := by
  unfold val_main_v34; rfl
theorem fold_v36 (x0 : (⟨S8192x128, .f32⟩ : BufTy).Contents (Elt F)) (x1 : (⟨S8192, .i32⟩ : BufTy).Contents (Elt F)) :
    ((maximumf ((broadcastInDim S8192 ![] bcast_S_S8192 ((constant S_ .f32 0x3F19999A#32) : (⟨S_, .f32⟩ : BufTy).Contents (Elt F))) : (⟨S8192, .f32⟩ : BufTy).Contents (Elt F)) (val_main_v23 (F := F) x0 x1)) : (⟨S8192, .f32⟩ : BufTy).Contents (Elt F)) = val_main_v36 (F := F) x0 x1 := by
  unfold val_main_v36; rfl
theorem fold_v38 (x0 : (⟨S8192x128, .f32⟩ : BufTy).Contents (Elt F)) (x1 : (⟨S8192, .i32⟩ : BufTy).Contents (Elt F)) :
    ((subf (val_main_v36 (F := F) x0 x1) ((broadcastInDim S8192 ![] bcast_S_S8192 ((constant S_ .f32 0x3DCCCCCD#32) : (⟨S_, .f32⟩ : BufTy).Contents (Elt F))) : (⟨S8192, .f32⟩ : BufTy).Contents (Elt F))) : (⟨S8192, .f32⟩ : BufTy).Contents (Elt F)) = val_main_v38 (F := F) x0 x1 := by
  unfold val_main_v38; rfl
theorem fold_v39 (x0 : (⟨S8192x128, .f32⟩ : BufTy).Contents (Elt F)) (x1 : (⟨S8192, .i32⟩ : BufTy).Contents (Elt F)) :
    ((broadcastInDim S8192x1 ![0] bcast_S8192_S8192x1_0 (val_main_v38 (F := F) x0 x1)) : (⟨S8192x1, .f32⟩ : BufTy).Contents (Elt F)) = val_main_v39 (F := F) x0 x1 := by
  unfold val_main_v39; rfl
theorem fold_v40 (x0 : (⟨S8192x128, .f32⟩ : BufTy).Contents (Elt F)) (x1 : (⟨S8192, .i32⟩ : BufTy).Contents (Elt F)) :
    ((broadcastInDim S8192x8192 ![0, 1] bcast_S8192x1_S8192x8192_0_1 (val_main_v39 (F := F) x0 x1)) : (⟨S8192x8192, .f32⟩ : BufTy).Contents (Elt F)) = val_main_v40 (F := F) x0 x1 := by
  unfold val_main_v40; rfl
theorem fold_v41 (x0 : (⟨S8192x128, .f32⟩ : BufTy).Contents (Elt F)) (x1 : (⟨S8192, .i32⟩ : BufTy).Contents (Elt F)) :
    ((cmpf .ogt (val_main_v6 (F := F) x0) (val_main_v40 (F := F) x0 x1)) : (⟨S8192x8192, .i1⟩ : BufTy).Contents (Elt F)) = val_main_v41 (F := F) x0 x1 := by
  unfold val_main_v41; rfl
theorem fold_v42 (x0 : (⟨S8192x128, .f32⟩ : BufTy).Contents (Elt F)) (x1 : (⟨S8192, .i32⟩ : BufTy).Contents (Elt F)) :
    ((andi (val_main_v19 (F := F) x1) (val_main_v41 (F := F) x0 x1)) : (⟨S8192x8192, .i1⟩ : BufTy).Contents (Elt F)) = val_main_v42 (F := F) x0 x1 := by
  unfold val_main_v42; rfl
theorem fold_v43 (x0 : (⟨S8192x128, .f32⟩ : BufTy).Contents (Elt F)) (x1 : (⟨S8192, .i32⟩ : BufTy).Contents (Elt F)) :
    ((select (val_main_v42 (F := F) x0 x1) (val_main_v6 (F := F) x0) ((broadcastInDim S8192x8192 ![] bcast_S_S8192x8192 ((id ((constant S_ .f32 0x00000000#32) : (⟨S_, .f32⟩ : BufTy).Contents (Elt F))) : (⟨S_, .f32⟩ : BufTy).Contents (Elt F))) : (⟨S8192x8192, .f32⟩ : BufTy).Contents (Elt F))) : (⟨S8192x8192, .f32⟩ : BufTy).Contents (Elt F)) = val_main_v43 (F := F) x0 x1 := by
  unfold val_main_v43; rfl
theorem fold_v44 (x0 : (⟨S8192x128, .f32⟩ : BufTy).Contents (Elt F)) (x1 : (⟨S8192, .i32⟩ : BufTy).Contents (Elt F)) :
    ((Host.reduceAdd (val_main_v43 (F := F) x0 x1) ((constant S_ .f32 0x00000000#32) : (⟨S_, .f32⟩ : BufTy).Contents (Elt F)) reducesTo_S8192x8192_S8192_d1 h_S_) : (⟨S8192, .f32⟩ : BufTy).Contents (Elt F)) = val_main_v44 (F := F) x0 x1 := by
  unfold val_main_v44; rfl
theorem fold_v45 (x0 : (⟨S8192x128, .f32⟩ : BufTy).Contents (Elt F)) (x1 : (⟨S8192, .i32⟩ : BufTy).Contents (Elt F)) :
    ((addf (val_main_v34 (F := F) x0 x1) (val_main_v44 (F := F) x0 x1)) : (⟨S8192, .f32⟩ : BufTy).Contents (Elt F)) = val_main_v45 (F := F) x0 x1 := by
  unfold val_main_v45; rfl
theorem fold_v46 (x0 : (⟨S8192x128, .f32⟩ : BufTy).Contents (Elt F)) (x1 : (⟨S8192, .i32⟩ : BufTy).Contents (Elt F)) :
    ((select (val_main_v24 (F := F) x1) (val_main_v45 (F := F) x0 x1) ((broadcastInDim S8192 ![] bcast_S_S8192 ((id ((constant S_ .f32 0x00000000#32) : (⟨S_, .f32⟩ : BufTy).Contents (Elt F))) : (⟨S_, .f32⟩ : BufTy).Contents (Elt F))) : (⟨S8192, .f32⟩ : BufTy).Contents (Elt F))) : (⟨S8192, .f32⟩ : BufTy).Contents (Elt F)) = val_main_v46 (F := F) x0 x1 := by
  unfold val_main_v46; rfl
theorem fold_v47 (x0 : (⟨S8192x128, .f32⟩ : BufTy).Contents (Elt F)) (x1 : (⟨S8192, .i32⟩ : BufTy).Contents (Elt F)) :
    ((Host.reduceAdd (val_main_v46 (F := F) x0 x1) ((constant S_ .f32 0x00000000#32) : (⟨S_, .f32⟩ : BufTy).Contents (Elt F)) reducesTo_S8192_S_d0 h_S_) : (⟨S_, .f32⟩ : BufTy).Contents (Elt F)) = val_main_v47 (F := F) x0 x1 := by
  unfold val_main_v47; rfl
theorem fold_v48 (x0 : (⟨S8192x128, .f32⟩ : BufTy).Contents (Elt F)) (x1 : (⟨S8192, .i32⟩ : BufTy).Contents (Elt F)) :
    ((Host.divf (val_main_v47 (F := F) x0 x1) ((constant S_ .f32 0x46000000#32) : (⟨S_, .f32⟩ : BufTy).Contents (Elt F))) : (⟨S_, .f32⟩ : BufTy).Contents (Elt F)) = val_main_v48 (F := F) x0 x1 := by
  unfold val_main_v48; rfl

/-! ### The fold at the result buffer -/

set_option maxRecDepth 8192 in
set_option maxHeartbeats 8000000 in
/-- The fold of @main's operations over the launch contents holds, at the result buffer, the last stage at the two
    argument arrays' launch contents. -/
theorem after_v48 (m : (ℓ : Loc nD τ sig) → Buf (Elt F) ℓ) (c : Dev nD) :
    after (ops (F := F)) (launchContents m c) (Proc.devRef .tc main_v48)
      = val_main_v48 (F := F) (m ((c.tc : Thread nD τ).loc main_arg0)) (m ((c.tc : Thread nD τ).loc main_arg1)) := by
  simp (disch := decide) only [after_cons, after_nil,
    nullary_result', unary_result', binary_result', ternary_result',
    nullary_result_ne', unary_result_ne', binary_result_ne', ternary_result_ne',
    Cert.HostFold.ofBuf_toBuf, cast_eq,
    fold_call0_v0, fold_call0_v1, fold_call0_v2, fold_v0, fold_v2, fold_v3, fold_v4, fold_v5, fold_v6, fold_v7, fold_v8, fold_v9, fold_v10, fold_v11, fold_v18, fold_v19, fold_v20, fold_v21, fold_v22, fold_v23, fold_v24, fold_v26, fold_v27, fold_v28, fold_v29, fold_v30, fold_v32, fold_v33, fold_v34, fold_v36, fold_v38, fold_v39, fold_v40, fold_v41, fold_v42, fold_v43, fold_v44, fold_v45, fold_v46, fold_v47, fold_v48]
  rfl

end Cert.ReferenceIdeal.RunVal

end
-- ==== Proof.RefSpec.lean ====
/-
  The reference program's run, with its result named by the specification.

  Every weakly fair execution of the reference terminates with its result buffer holding, at its one index, the
  specification's batch loss of the two argument arrays as the launch memory holds them, and with the argument arrays
  unchanged: the run leaves the fold of the operations' results there, that fold read one operation at a time is the last
  stage of the program at the arguments' launch contents, and that stage is the specification's function.
-/
import proofs.«172070_j13786845020972_1_alg».proof.Proof.RefFinal
import proofs.«172070_j13786845020972_1_alg».proof.Proof.RefRunVal

noncomputable section

namespace Cert.ReferenceIdeal.RefValue

open Cert.ReferenceIdeal Cert.ReferenceIdeal.Gen Cert.ReferenceIdeal.ReadP Idealize.ShloMosaic Idealize.ShloMosaic.TcCoe Idealize.SL.Sem

theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v48)
          = (fun _ => Cert.Spec.result
              (Cert.Spec.xOf (m' ((c.tc : Thread Cert.ReferenceIdeal.nD Cert.ReferenceIdeal.τ).loc Cert.ReferenceIdeal.main_arg0)))
              (Cert.Spec.tOf (m' ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run _ _ _).mono
    (fun _ h c => ⟨(h c).1.trans ((Cert.ReferenceIdeal.RunVal.after_v48 (F := Ideal) m' c).trans (v48_eq _ _)), (h c).2.1, (h c).2.2⟩)
    (Cert.ReferenceIdeal.ValueP.run (F := Ideal) m' g')

end Cert.ReferenceIdeal.RefValue

end
-- ==== Proof.lean ====
/-
  The certificate of the batch hard-mining triplet loss kernel against its reference.

  The kernel computes, for 8192 embeddings of width 128 with integer labels, in two tiled passes over the 8192 x 8192
  cosine-similarity matrix (never stored: 512 x 1024 tiles are recomputed from the normalised rows): first, per row, the
  hardest negative, the hardest positive and whether a positive exists; then, per row, the loss over the hard
  positives and hard negatives; finally the mean of the rows' losses. The reference computes the same quantities from
  the whole similarity matrix. On the extended reals both are the one function Cert.Spec.result of the two argument
  arrays: every pointwise operation is the same on both sides, and the kernel's row-wise maxima and sums, taken tile
  by tile and carried between grid points, are the reference's whole-row maxima and sums because max and + are
  associative and commutative there; no finiteness of the inputs is used.
  The three frames: the two kernel programs run both pipelines to the end with the argument arrays untouched (each
  pipeline's body at every grid point by the case it is in; the embedding matrix shared by two windows as two halves
  of the full share); the reference's frame is its run with the result dropped.
-/
import proofs.«172070_j13786845020972_1_alg».proof.Defs
import proofs.«172070_j13786845020972_1_alg».proof.Proof.Gen.Kernel
import proofs.«172070_j13786845020972_1_alg».proof.Proof.Gen.KernelIdeal
import proofs.«172070_j13786845020972_1_alg».proof.Proof.Gen.ReferenceIdeal
import proofs.«172070_j13786845020972_1_alg».proof.Proof.Gen.Pre_finite_inputs
import proofs.«172070_j13786845020972_1_alg».proof.Proof.KBMain
import proofs.«172070_j13786845020972_1_alg».proof.Proof.KFinal
import proofs.«172070_j13786845020972_1_alg».proof.Proof.RefSpec

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefValue.ref_run m ρ)

/-- Both idealized programs end with the specification's value of arguments that agree. -/
theorem algebraic : Cert.algebraic_KernelIdeal_ReferenceIdeal := by
  intro m ρ m' ρ' _ hagree
  refine ⟨_, Cert.KernelIdeal.Hand.ker_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
